-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x4x768 : Shape := ⟨3, ![128, 4, 768]⟩
abbrev S128x4 : Shape := ⟨2, ![128, 4]⟩
abbrev S768x1536 : Shape := ⟨2, ![768, 1536]⟩
abbrev S768 : Shape := ⟨1, ![768]⟩
abbrev S768x2304 : Shape := ⟨2, ![768, 2304]⟩
abbrev S24x768 : Shape := ⟨2, ![24, 768]⟩
abbrev S24 : Shape := ⟨1, ![24]⟩
abbrev S_ : Shape := ⟨0, ![]⟩

class Facts : Prop where
  bcast_S_S128x4x768 : S_.BroadcastsInDim S128x4x768 (![] : Fin 0 → Fin S128x4x768.rank)
  reducesTo_S128x4x768_S_d0_1_2 : S128x4x768.ReducesTo [0, 1, 2] S_
  h_S_ : 0 < S_.numel
  bcast_S_S128x4 : S_.BroadcastsInDim S128x4 (![] : Fin 0 → Fin S128x4.rank)
  reducesTo_S128x4_S_d0_1 : S128x4.ReducesTo [0, 1] S_
  bcast_S_S768x1536 : S_.BroadcastsInDim S768x1536 (![] : Fin 0 → Fin S768x1536.rank)
  reducesTo_S768x1536_S_d0_1 : S768x1536.ReducesTo [0, 1] S_
  bcast_S_S768 : S_.BroadcastsInDim S768 (![] : Fin 0 → Fin S768.rank)
  reducesTo_S768_S_d0 : S768.ReducesTo [0] S_
  bcast_S_S768x2304 : S_.BroadcastsInDim S768x2304 (![] : Fin 0 → Fin S768x2304.rank)
  reducesTo_S768x2304_S_d0_1 : S768x2304.ReducesTo [0, 1] S_
  bcast_S_S24x768 : S_.BroadcastsInDim S24x768 (![] : Fin 0 → Fin S24x768.rank)
  reducesTo_S24x768_S_d0_1 : S24x768.ReducesTo [0, 1] S_
  bcast_S_S24 : S_.BroadcastsInDim S24 (![] : Fin 0 → Fin S24.rank)
  reducesTo_S24_S_d0 : S24.ReducesTo [0] S_

variable [Facts]

def fn_part3 {F : FTy → Type} [FloatOps F] (main_v48 : IVec S_ 1) (main_v49 : FVec F S24 .f32) (main_v50 : FVec F S24 .f32) : IVec S_ 1 :=
  let main_v51 : IVec S24 1 := cmpf .olt main_v49 main_v50
  let main_c_19 : IVec S_ 1 := constantI S_ 1 1#1
  let main_v52 : IVec S_ 1 := (fun x v => Host.reduce IntOp.andi x v reducesTo_S24_S_d0 h_S_) main_v51 main_c_19
  let main_v53 : IVec S_ 1 := andi main_v48 main_v52
  main_v53

def fn_part2 {F : FTy → Type} [FloatOps F] (main_arg7 : FVec F S768 .f32) (main_arg8 : FVec F S768 .f32) (main_arg9 : FVec F S24x768 .f32) (main_arg10 : FVec F S24 .f32) (main_v33 : IVec S_ 1) : IVec S_ 1 :=
  let main_v34 : FVec F S768 .f32 := Host.absf main_arg7
  let main_cst_12 : FVec F S_ .f32 := constant S_ .f32 0x7F800000#32
  let main_v35 : FVec F S768 .f32 := broadcastInDim S768 ![] bcast_S_S768 main_cst_12
  let main_v36 : IVec S768 1 := cmpf .olt main_v34 main_v35
  let main_c_13 : IVec S_ 1 := constantI S_ 1 1#1
  let main_v37 : IVec S_ 1 := (fun x v => Host.reduce IntOp.andi x v reducesTo_S768_S_d0 h_S_) main_v36 main_c_13
  let main_v38 : IVec S_ 1 := andi main_v33 main_v37
  let main_v39 : FVec F S768 .f32 := Host.absf main_arg8
  let main_cst_14 : FVec F S_ .f32 := constant S_ .f32 0x7F800000#32
  let main_v40 : FVec F S768 .f32 := broadcastInDim S768 ![] bcast_S_S768 main_cst_14
  let main_v41 : IVec S768 1 := cmpf .olt main_v39 main_v40
  let main_c_15 : IVec S_ 1 := constantI S_ 1 1#1
  let main_v42 : IVec S_ 1 := (fun x v => Host.reduce IntOp.andi x v reducesTo_S768_S_d0 h_S_) main_v41 main_c_15
  let main_v43 : IVec S_ 1 := andi main_v38 main_v42
  let main_v44 : FVec F S24x768 .f32 := Host.absf main_arg9
  let main_cst_16 : FVec F S_ .f32 := constant S_ .f32 0x7F800000#32
  let main_v45 : FVec F S24x768 .f32 := broadcastInDim S24x768 ![] bcast_S_S24x768 main_cst_16
  let main_v46 : IVec S24x768 1 := cmpf .olt main_v44 main_v45
  let main_c_17 : IVec S_ 1 := constantI S_ 1 1#1
  let main_v47 : IVec S_ 1 := (fun x v => Host.reduce IntOp.andi x v reducesTo_S24x768_S_d0_1 h_S_) main_v46 main_c_17
  let main_v48 : IVec S_ 1 := andi main_v43 main_v47
  let main_v49 : FVec F S24 .f32 := Host.absf main_arg10
  let main_cst_18 : FVec F S_ .f32 := constant S_ .f32 0x7F800000#32
  let main_v50 : FVec F S24 .f32 := broadcastInDim S24 ![] bcast_S_S24 main_cst_18
  fn_part3 (F := F) main_v48 main_v49 main_v50

def fn_part1 {F : FTy → Type} [FloatOps F] (main_arg4 : FVec F S768 .f32) (main_arg5 : FVec F S768x2304 .f32) (main_arg6 : FVec F S768 .f32) (main_arg7 : FVec F S768 .f32) (main_arg8 : FVec F S768 .f32) (main_arg9 : FVec F S24x768 .f32) (main_arg10 : FVec F S24 .f32) (main_v13 : IVec S_ 1) (main_v16 : IVec S768x1536 1) : IVec S_ 1 :=
  let main_c_5 : IVec S_ 1 := constantI S_ 1 1#1
  let main_v17 : IVec S_ 1 := (fun x v => Host.reduce IntOp.andi x v reducesTo_S768x1536_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x2304 .f32 := Host.absf main_arg5
  let main_cst_8 : FVec F S_ .f32 := constant S_ .f32 0x7F800000#32
  let main_v25 : FVec F S768x2304 .f32 := broadcastInDim S768x2304 ![] bcast_S_S768x2304 main_cst_8
  let main_v26 : IVec S768x2304 1 := cmpf .olt main_v24 main_v25
  let main_c_9 : IVec S_ 1 := constantI S_ 1 1#1
  let main_v27 : IVec S_ 1 := (fun x v => Host.reduce IntOp.andi x v reducesTo_S768x2304_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S128x4x768 .f32) (main_arg1 : FVec F S128x4x768 .f32) (main_arg2 : FVec F S128x4 .f32) (main_arg3 : FVec F S768x1536 .f32) (main_arg4 : FVec F S768 .f32) (main_arg5 : FVec F S768x2304 .f32) (main_arg6 : FVec F S768 .f32) (main_arg7 : FVec F S768 .f32) (main_arg8 : FVec F S768 .f32) (main_arg9 : FVec F S24x768 .f32) (main_arg10 : FVec F S24 .f32) : IVec S_ 1 :=
  let main_v0 : FVec F S128x4x768 .f32 := Host.absf main_arg0
  let main_cst : FVec F S_ .f32 := constant S_ .f32 0x7F800000#32
  let main_v1 : FVec F S128x4x768 .f32 := broadcastInDim S128x4x768 ![] bcast_S_S128x4x768 main_cst
  let main_v2 : IVec S128x4x768 1 := cmpf .olt main_v0 main_v1
  let main_c : IVec S_ 1 := constantI S_ 1 1#1
  let main_v3 : IVec S_ 1 := (fun x v => Host.reduce IntOp.andi x v reducesTo_S128x4x768_S_d0_1_2 h_S_) main_v2 main_c
  let main_v4 : FVec F S128x4x768 .f32 := Host.absf main_arg1
  let main_cst_0 : FVec F S_ .f32 := constant S_ .f32 0x7F800000#32
  let main_v5 : FVec F S128x4x768 .f32 := broadcastInDim S128x4x768 ![] bcast_S_S128x4x768 main_cst_0
  let main_v6 : IVec S128x4x768 1 := cmpf .olt main_v4 main_v5
  let main_c_1 : IVec S_ 1 := constantI S_ 1 1#1
  let main_v7 : IVec S_ 1 := (fun x v => Host.reduce IntOp.andi x v reducesTo_S128x4x768_S_d0_1_2 h_S_) main_v6 main_c_1
  let main_v8 : IVec S_ 1 := andi main_v3 main_v7
  let main_v9 : FVec F S128x4 .f32 := Host.absf main_arg2
  let main_cst_2 : FVec F S_ .f32 := constant S_ .f32 0x7F800000#32
  let main_v10 : FVec F S128x4 .f32 := broadcastInDim S128x4 ![] bcast_S_S128x4 main_cst_2
  let main_v11 : IVec S128x4 1 := cmpf .olt main_v9 main_v10
  let main_c_3 : IVec S_ 1 := constantI S_ 1 1#1
  let main_v12 : IVec S_ 1 := (fun x v => Host.reduce IntOp.andi x v reducesTo_S128x4_S_d0_1 h_S_) main_v11 main_c_3
  let main_v13 : IVec S_ 1 := andi main_v8 main_v12
  let main_v14 : FVec F S768x1536 .f32 := Host.absf main_arg3
  let main_cst_4 : FVec F S_ .f32 := constant S_ .f32 0x7F800000#32
  let main_v15 : FVec F S768x1536 .f32 := broadcastInDim S768x1536 ![] bcast_S_S768x1536 main_cst_4
  let main_v16 : IVec S768x1536 1 := cmpf .olt main_v14 main_v15
  fn_part1 (F := F) main_arg4 main_arg5 main_arg6 main_arg7 main_arg8 main_arg9 main_arg10 main_v13 main_v16
-- ==== Kernel.lean ====
abbrev S128x4x768 : Shape := ⟨3, ![128, 4, 768]⟩
abbrev S128x4 : Shape := ⟨2, ![128, 4]⟩
abbrev S768x1536 : Shape := ⟨2, ![768, 1536]⟩
abbrev S768 : Shape := ⟨1, ![768]⟩
abbrev S768x2304 : Shape := ⟨2, ![768, 2304]⟩
abbrev S24x768 : Shape := ⟨2, ![24, 768]⟩
abbrev S24 : Shape := ⟨1, ![24]⟩
abbrev S768x768 : Shape := ⟨2, ![768, 768]⟩
abbrev S1x768 : Shape := ⟨2, ![1, 768]⟩
abbrev S1x24 : Shape := ⟨2, ![1, 24]⟩
abbrev S4x128x768 : Shape := ⟨3, ![4, 128, 768]⟩
abbrev S4x768 : Shape := ⟨2, ![4, 768]⟩
abbrev S512x768 : Shape := ⟨2, ![512, 768]⟩
abbrev S1x1x768 : Shape := ⟨3, ![1, 1, 768]⟩
abbrev S4x128x128x24 : Shape := ⟨4, ![4, 128, 128, 24]⟩
abbrev S4x16x768 : Shape := ⟨3, ![4, 16, 768]⟩
abbrev S4x32x768 : Shape := ⟨3, ![4, 32, 768]⟩
abbrev S16x4 : Shape := ⟨2, ![16, 4]⟩
abbrev S32x4 : Shape := ⟨2, ![32, 4]⟩
abbrev S4x16x32x24 : Shape := ⟨4, ![4, 16, 32, 24]⟩
abbrev S4x16x1x768 : Shape := ⟨4, ![4, 16, 1, 768]⟩
abbrev S4x1x32x768 : Shape := ⟨4, ![4, 1, 32, 768]⟩
abbrev S4x16x32x768 : Shape := ⟨4, ![4, 16, 32, 768]⟩
abbrev S4x1x1x768 : Shape := ⟨4, ![4, 1, 1, 768]⟩
abbrev S4x16x32 : Shape := ⟨3, ![4, 16, 32]⟩
abbrev S4x16x32x1 : Shape := ⟨4, ![4, 16, 32, 1]⟩
abbrev S1x1x1x768 : Shape := ⟨4, ![1, 1, 1, 768]⟩
abbrev S2048x768 : Shape := ⟨2, ![2048, 768]⟩
abbrev S2048x24 : Shape := ⟨2, ![2048, 24]⟩
abbrev S1x1x1x24 : Shape := ⟨4, ![1, 1, 1, 24]⟩
abbrev S4x16 : Shape := ⟨2, ![4, 16]⟩
abbrev S4x32 : Shape := ⟨2, ![4, 32]⟩
abbrev S4x16x1 : Shape := ⟨3, ![4, 16, 1]⟩
abbrev S4x1x32 : Shape := ⟨3, ![4, 1, 32]⟩
abbrev S128x128x4x24 : Shape := ⟨4, ![128, 128, 4, 24]⟩

abbrev nBuf : Space → Nat
  | .hbm => 28
  | .vmem => 27
  | .smem => 0
  | _ => 0

abbrev bufTy : (tb : Table) → Fin (tcTables nBuf tb) → BufTy
  | .hbm, ⟨0, _⟩ => ⟨S128x4x768, .f32⟩
  | .hbm, ⟨1, _⟩ => ⟨S128x4x768, .f32⟩
  | .hbm, ⟨2, _⟩ => ⟨S128x4, .f32⟩
  | .hbm, ⟨3, _⟩ => ⟨S768x1536, .f32⟩
  | .hbm, ⟨4, _⟩ => ⟨S768, .f32⟩
  | .hbm, ⟨5, _⟩ => ⟨S768x2304, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S24x768, .f32⟩
  | .hbm, ⟨10, _⟩ => ⟨S24, .f32⟩
  | .hbm, ⟨11, _⟩ => ⟨S768x768, .f32⟩
  | .hbm, ⟨12, _⟩ => ⟨S768x768, .f32⟩
  | .hbm, ⟨13, _⟩ => ⟨S768x768, .f32⟩
  | .hbm, ⟨14, _⟩ => ⟨S768x768, .f32⟩
  | .hbm, ⟨15, _⟩ => ⟨S768x768, .f32⟩
  | .hbm, ⟨16, _⟩ => ⟨S1x768, .f32⟩
  | .hbm, ⟨17, _⟩ => ⟨S1x768, .f32⟩
  | .hbm, ⟨18, _⟩ => ⟨S1x768, .f32⟩
  | .hbm, ⟨19, _⟩ => ⟨S1x768, .f32⟩
  | .hbm, ⟨20, _⟩ => ⟨S1x24, .f32⟩
  | .hbm, ⟨21, _⟩ => ⟨S4x128x768, .f32⟩
  | .hbm, ⟨22, _⟩ => ⟨S4x128x768, .f32⟩
  | .hbm, ⟨23, _⟩ => ⟨S4x768, .f32⟩
  | .hbm, ⟨24, _⟩ => ⟨S4x128x768, .f32⟩
  | .hbm, ⟨25, _⟩ => ⟨S4x128x768, .f32⟩
  | .hbm, ⟨26, _⟩ => ⟨S4x128x128x24, .f32⟩
  | .hbm, ⟨27, _⟩ => ⟨S128x128x4x24, .f32⟩
  | .local _ .vmem, ⟨0, _⟩ => ⟨S4x128x768, .f32⟩
  | .local _ .vmem, ⟨1, _⟩ => ⟨S4x128x768, .f32⟩
  | .local _ .vmem, ⟨2, _⟩ => ⟨S768x768, .f32⟩
  | .local _ .vmem, ⟨3, _⟩ => ⟨S768x768, .f32⟩
  | .local _ .vmem, ⟨4, _⟩ => ⟨S1x768, .f32⟩
  | .local _ .vmem, ⟨5, _⟩ => ⟨S768x768, .f32⟩
  | .local _ .vmem, ⟨6, _⟩ => ⟨S768x768, .f32⟩
  | .local _ .vmem, ⟨7, _⟩ => ⟨S768x768, .f32⟩
  | .local _ .vmem, ⟨8, _⟩ => ⟨S1x768, .f32⟩
  | .local _ .vmem, ⟨9, _⟩ => ⟨S4x768, .f32⟩
  | .local _ .vmem, ⟨10, _⟩ => ⟨S4x128x768, .f32⟩
  | .local _ .vmem, ⟨11, _⟩ => ⟨S4x128x768, .f32⟩
  | .local _ .vmem, ⟨12, _⟩ => ⟨S4x16x768, .f32⟩
  | .local _ .vmem, ⟨13, _⟩ => ⟨S4x16x768, .f32⟩
  | .local _ .vmem, ⟨14, _⟩ => ⟨S4x32x768, .f32⟩
  | .local _ .vmem, ⟨15, _⟩ => ⟨S4x32x768, .f32⟩
  | .local _ .vmem, ⟨16, _⟩ => ⟨S4x768, .f32⟩
  | .local _ .vmem, ⟨17, _⟩ => ⟨S1x768, .f32⟩
  | .local _ .vmem, ⟨18, _⟩ => ⟨S1x768, .f32⟩
  | .local _ .vmem, ⟨19, _⟩ => ⟨S24x768, .f32⟩
  | .local _ .vmem, ⟨20, _⟩ => ⟨S1x24, .f32⟩
  | .local _ .vmem, ⟨21, _⟩ => ⟨S16x4, .f32⟩
  | .local _ .vmem, ⟨22, _⟩ => ⟨S16x4, .f32⟩
  | .local _ .vmem, ⟨23, _⟩ => ⟨S32x4, .f32⟩
  | .local _ .vmem, ⟨24, _⟩ => ⟨S32x4, .f32⟩
  | .local _ .vmem, ⟨25, _⟩ => ⟨S4x16x32x24, .f32⟩
  | .local _ .vmem, ⟨26, _⟩ => ⟨S4x16x32x24, .f32⟩
  | _, _ => ⟨S128x4x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12_0 : Ref sig .tc := ⟨.hbm, 23, rfl⟩
abbrev main_v12_1 : Ref sig .tc := ⟨.hbm, 24, rfl⟩
abbrev main_v12_2 : Ref sig .tc := ⟨.hbm, 25, rfl⟩
abbrev main_v13 : Ref sig .tc := ⟨.hbm, 26, rfl⟩
abbrev main_v14 : Ref sig .tc := ⟨.hbm, 27, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S4x128x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S4x128x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S768x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x768 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S4x128x768 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4x128x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_9 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage1_0 : Fin 2 → Memref sig .tc .vmem S4x16x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x32x768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S4x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x768 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x768 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S24x768 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x24 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S16x4 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S32x4 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![false, true]

abbrev stage1_9 : Fin 2 → Memref sig .tc .vmem S4x16x32x24 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

class Facts₀ : Prop where
  slices_S768x1536_S768x768_0_0 : S768x1536.Slices ![0, 0] S768x768
  slices_S768x1536_S768x768_0_768 : S768x1536.Slices ![0, 768] S768x768
  slices_S768x2304_S768x768_0_0 : S768x2304.Slices ![0, 0] S768x768
  slices_S768x2304_S768x768_0_768 : S768x2304.Slices ![0, 768] S768x768
  slices_S768x2304_S768x768_0_1536 : S768x2304.Slices ![0, 1536] S768x768
  shapeCasts_S768_S1x768 : S768.ShapeCasts S1x768
  shapeCasts_S24_S1x24 : S24.ShapeCasts S1x24
  transposes_S128x4x768_S4x128x768_1_0_2 : S128x4x768.Transposes [1, 0, 2] S4x128x768
  inb_S4x128x768_S4x128x768_0_0_0 : ∀ a, (![0, 0, 0] : Fin 3 → Nat) a + S4x128x768.size a ≤ S4x128x768.size a
  h_S4x128x768 : 0 < S4x128x768.numel
  shapeCasts_S4x128x768_S4x128x768 : S4x128x768.ShapeCasts S4x128x768
  bitsLt_bf16_f32 : FTy.bits .bf16 < FTy.bits .f32
  shapeCasts_S4x128x768_S512x768 : S4x128x768.ShapeCasts S512x768
  inb_S768x768_S768x768_0_0 : ∀ a, (![0, 0] : Fin 2 → Nat) a + S768x768.size a ≤ S768x768.size a
  h_S768x768 : 0 < S768x768.numel
  shapeCasts_S768x768_S768x768 : S768x768.ShapeCasts S768x768
  shapeCasts_S512x768_S4x128x768 : S512x768.ShapeCasts S4x128x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  shapeCasts_S1x768_S1x1x768 : S1x768.ShapeCasts S1x1x768
  broadcasts_S1x1x768_S4x128x768 : S1x1x768.Broadcasts S4x128x768
  reduces_S4x128x768_S4x768 : S4x128x768.Reduces [1] S4x768
  broadcasts_S1x768_S4x768 : S1x768.Broadcasts S4x768
  inb_S4x768_S4x768_0_0 : ∀ a, (![0, 0] : Fin 2 → Nat) a + S4x768.size a ≤ S4x768.size a
  h_S4x768 : 0 < S4x768.numel
  inb_S4x16x768_S4x16x768_0_0_0 : ∀ a, (![0, 0, 0] : Fin 3 → Nat) a + S4x16x768.size a ≤ S4x16x768.size a
  h_S4x16x768 : 0 < S4x16x768.numel
  shapeCasts_S4x16x768_S4x16x768 : S4x16x768.ShapeCasts S4x16x768
  inb_S4x32x768_S4x32x768_0_0_0 : ∀ a, (![0, 0, 0] : Fin 3 → Nat) a + S4x32x768.size a ≤ S4x32x768.size a
  h_S4x32x768 : 0 < S4x32x768.numel
  shapeCasts_S4x32x768_S4x32x768 : S4x32x768.ShapeCasts S4x32x768
  shapeCasts_S4x768_S4x768 : S4x768.ShapeCasts S4x768
  shapeCasts_S4x16x768_S4x16x1x768 : S4x16x768.ShapeCasts S4x16x1x768
  shapeCasts_S4x32x768_S4x1x32x768 : S4x32x768.ShapeCasts S4x1x32x768
  broadcasts_S4x16x1x768_S4x16x32x768 : S4x16x1x768.Broadcasts S4x16x32x768
  broadcasts_S4x1x32x768_S4x16x32x768 : S4x1x32x768.Broadcasts S4x16x32x768
  shapeCasts_S4x768_S4x1x1x768 : S4x768.ShapeCasts S4x1x1x768
  broadcasts_S4x1x1x768_S4x16x32x768 : S4x1x1x768.Broadcasts S4x16x32x768
  reduces_S4x16x32x768_S4x16x32 : S4x16x32x768.Reduces [3] S4x16x32
  shapeCasts_S4x16x32_S4x16x32x1 : S4x16x32.ShapeCasts S4x16x32x1
  broadcasts_S4x16x32x1_S4x16x32x768 : S4x16x32x1.Broadcasts S4x16x32x768
  shapeCasts_S1x768_S1x1x1x768 : S1x768.ShapeCasts S1x1x1x768
  broadcasts_S1x1x1x768_S4x16x32x768 : S1x1x1x768.Broadcasts S4x16x32x768
  shapeCasts_S4x16x32x768_S2048x768 : S4x16x32x768.ShapeCasts S2048x768
  inb_S24x768_S24x768_0_0 : ∀ a, (![0, 0] : Fin 2 → Nat) a + S24x768.size a ≤ S24x768.size a
  h_S24x768 : 0 < S24x768.numel
  shapeCasts_S2048x24_S4x16x32x24 : S2048x24.ShapeCasts S4x16x32x24
  inb_S1x24_S1x24_0_0 : ∀ a, (![0, 0] : Fin 2 → Nat) a + S1x24.size a ≤ S1x24.size a
  h_S1x24 : 0 < S1x24.numel
  shapeCasts_S1x24_S1x24 : S1x24.ShapeCasts S1x24
  shapeCasts_S1x24_S1x1x1x24 : S1x24.ShapeCasts S1x1x1x24
  broadcasts_S1x1x1x24_S4x16x32x24 : S1x1x1x24.Broadcasts S4x16x32x24
  inb_S16x4_S16x4_0_0 : ∀ a, (![0, 0] : Fin 2 → Nat) a + S16x4.size a ≤ S16x4.size a
  h_S16x4 : 0 < S16x4.numel
  transposes_S16x4_p1_0_S4x16 : S16x4.Transposes [1, 0] S4x16
  inb_S32x4_S32x4_0_0 : ∀ a, (![0, 0] : Fin 2 → Nat) a + S32x4.size a ≤ S32x4.size a
  h_S32x4 : 0 < S32x4.numel
  transposes_S32x4_p1_0_S4x32 : S32x4.Transposes [1, 0] S4x32
  shapeCasts_S4x16_S4x16x1 : S4x16.ShapeCasts S4x16x1
  shapeCasts_S4x32_S4x1x32 : S4x32.ShapeCasts S4x1x32
  broadcasts_S4x16x1_S4x16x32 : S4x16x1.Broadcasts S4x16x32
  broadcasts_S4x1x32_S4x16x32 : S4x1x32.Broadcasts S4x16x32
  broadcasts_S4x16x32x1_S4x16x32x24 : S4x16x32x1.Broadcasts S4x16x32x24
  inb_S4x16x32x24_S4x16x32x24_0_0_0_0 : ∀ a, (![0, 0, 0, 0] : Fin 4 → Nat) a + S4x16x32x24.size a ≤ S4x16x32x24.size a
  h_S4x16x32x24 : 0 < S4x16x32x24.numel
  transposes_S4x128x128x24_S128x128x4x24_1_2_0_3 : S4x128x128x24.Transposes [1, 2, 0, 3] S128x128x4x24
  dot_S512x768_S768x768_S512x768_1_1_0_0_n_n_wf : DotDims.WF S512x768 S768x768 S512x768 [1] [1] [0] [0] [] []
  dot_S4x768_S768x768_S4x768_1_1_0_0_n_n_wf : DotDims.WF S4x768 S768x768 S4x768 [1] [1] [0] [0] [] []
  dot_S2048x768_S24x768_S2048x24_1_1_0_0_n_n_wf : DotDims.WF S2048x768 S24x768 S2048x24 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S4x128x768.size a ≤ S4x128x768.size a
  hwx0_0 : ∀ i : grid0.Coords, EltTy.bits .f32 = 32 ∨ (Rect.block (s := S4x128x768) S4x128x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128x768.size a ≤ S4x128x768.size a
  hwx0_1 : ∀ i : grid0.Coords, EltTy.bits .f32 = 32 ∨ (Rect.block (s := S4x128x768) S4x128x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .f32 = 32 ∨ (Rect.block (s := S768x768) S768x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S768x768.size a ≤ S768x768.size a
  hwx0_5 : ∀ i : grid0.Coords, EltTy.bits .f32 = 32 ∨ (Rect.block (s := S768x768) S768x768.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S768x768.size a ≤ S768x768.size a
  hwx0_6 : ∀ i : grid0.Coords, EltTy.bits .f32 = 32 ∨ (Rect.block (s := S768x768) S768x768.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S768x768.size a ≤ S768x768.size a
  hwx0_7 : ∀ i : grid0.Coords, EltTy.bits .f32 = 32 ∨ (Rect.block (s := S768x768) S768x768.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x768.size a ≤ S1x768.size a
  hwx0_8 : ∀ i : grid0.Coords, EltTy.bits .f32 = 32 ∨ (Rect.block (s := S1x768) S1x768.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S4x768.size a ≤ S4x768.size a
  hwx0_9 : ∀ i : grid0.Coords, EltTy.bits .f32 = 32 ∨ (Rect.block (s := S4x768) S4x768.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S4x128x768.size a ≤ S4x128x768.size a
  hwx0_10 : ∀ i : grid0.Coords, EltTy.bits .f32 = 32 ∨ (Rect.block (s := S4x128x768) S4x128x768.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S4x128x768.size a ≤ S4x128x768.size a
  hwx0_11 : ∀ i : grid0.Coords, EltTy.bits .f32 = 32 ∨ (Rect.block (s := S4x128x768) S4x128x768.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x16x768.size a ≤ S4x128x768.size a
  hwx1_0 : ∀ i : grid1.Coords, EltTy.bits .f32 = 32 ∨ (Rect.block (s := S4x128x768) S4x16x768.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x32x768.size a ≤ S4x128x768.size a
  hwx1_1 : ∀ i : grid1.Coords, EltTy.bits .f32 = 32 ∨ (Rect.block (s := S4x128x768) S4x32x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S4x768.size a ≤ S4x768.size a
  hwx1_2 : ∀ i : grid1.Coords, EltTy.bits .f32 = 32 ∨ (Rect.block (s := S4x768) S4x768.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x768.size a ≤ S1x768.size a
  hwx1_3 : ∀ i : grid1.Coords, EltTy.bits .f32 = 32 ∨ (Rect.block (s := S1x768) S1x768.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x768.size a ≤ S1x768.size a
  hwx1_4 : ∀ i : grid1.Coords, EltTy.bits .f32 = 32 ∨ (Rect.block (s := S1x768) S1x768.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S24x768.size a ≤ S24x768.size a
  hwx1_5 : ∀ i : grid1.Coords, EltTy.bits .f32 = 32 ∨ (Rect.block (s := S24x768) S24x768.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x24.size a ≤ S1x24.size a
  hwx1_6 : ∀ i : grid1.Coords, EltTy.bits .f32 = 32 ∨ (Rect.block (s := S1x24) S1x24.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S16x4.size a ≤ S128x4.size a
  hwx1_7 : ∀ i : grid1.Coords, EltTy.bits .f32 = 32 ∨ (Rect.block (s := S128x4) S16x4.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S32x4.size a ≤ S128x4.size a
  hwx1_8 : ∀ i : grid1.Coords, EltTy.bits .f32 = 32 ∨ (Rect.block (s := S128x4) S32x4.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S4x16x32x24.size a ≤ S4x128x128x24.size a
  hwx1_9 : ∀ i : grid1.Coords, EltTy.bits .f32 = 32 ∨ (Rect.block (s := S4x128x128x24) S4x16x32x24.size (cc1_transform_9 i) (hinb1_9 i)).WholeWords (EltTy.packing .f32)

variable [Facts₀]

def dot_S512x768_S768x768_S512x768_1_1_0_0_n_n : DotDims S512x768 S768x768 S512x768 where
  lhsContracting := [1]
  rhsContracting := [1]
  lhsNonContracting := [0]
  rhsNonContracting := [0]
  lhsBatch := []
  rhsBatch := []
  wf := dot_S512x768_S768x768_S512x768_1_1_0_0_n_n_wf
def dot_S4x768_S768x768_S4x768_1_1_0_0_n_n : DotDims S4x768 S768x768 S4x768 where
  lhsContracting := [1]
  rhsContracting := [1]
  lhsNonContracting := [0]
  rhsNonContracting := [0]
  lhsBatch := []
  rhsBatch := []
  wf := dot_S4x768_S768x768_S4x768_1_1_0_0_n_n_wf
def dot_S2048x768_S24x768_S2048x24_1_1_0_0_n_n : DotDims S2048x768 S24x768 S2048x24 where
  lhsContracting := [1]
  rhsContracting := [1]
  lhsNonContracting := [0]
  rhsNonContracting := [0]
  lhsBatch := []
  rhsBatch := []
  wf := dot_S2048x768_S24x768_S2048x24_1_1_0_0_n_n_wf

abbrev win0_0 : Pipeline.Window sig grid0 :=
  Pipeline.Window.ofSpec (Memref.whole main_v11) S4x128x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S4x128x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S768x768.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S768x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S768x768.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x768.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v12_0) S4x768.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_1) S4x128x768.size cc0_transform_10 reads0_10 true true 1 stage0_10 sem0_10
    hrank0 hreads0_10 hinb0_10 nbuf0_10 (Memref.isWhole_whole _) hwx0_10 hstage0_10

abbrev win0_11 : Pipeline.Window sig grid0 :=
  Pipeline.Window.ofSpec (Memref.whole main_v12_2) S4x128x768.size cc0_transform_11 reads0_11 true true 1 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_v12_1) S4x16x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12_2) S4x32x768.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12_0) S4x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x768.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v8) S1x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S24x768.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1x24.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg2) S16x4.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_arg2) S32x4.size cc1_transform_8 reads1_8 false false 2 stage1_8 sem1_8
    hrank1 hreads1_8 hinb1_8 nbuf1_8 (Memref.isWhole_whole _) hwx1_8 hstage1_8

abbrev win1_9 : Pipeline.Window sig grid1 :=
  Pipeline.Window.ofSpec (Memref.whole main_v13) S4x16x32x24.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S128x4x768 : Shape := ⟨3, ![128, 4, 768]⟩
abbrev S128x4 : Shape := ⟨2, ![128, 4]⟩
abbrev S768x1536 : Shape := ⟨2, ![768, 1536]⟩
abbrev S768 : Shape := ⟨1, ![768]⟩
abbrev S768x2304 : Shape := ⟨2, ![768, 2304]⟩
abbrev S24x768 : Shape := ⟨2, ![24, 768]⟩
abbrev S24 : Shape := ⟨1, ![24]⟩
abbrev S768x768 : Shape := ⟨2, ![768, 768]⟩
abbrev S1x1x768 : Shape := ⟨3, ![1, 1, 768]⟩
abbrev S_ : Shape := ⟨0, ![]⟩
abbrev S4x768 : Shape := ⟨2, ![4, 768]⟩
abbrev S1x768 : Shape := ⟨2, ![1, 768]⟩
abbrev S128x1x4x768 : Shape := ⟨4, ![128, 1, 4, 768]⟩
abbrev S1x128x4x768 : Shape := ⟨4, ![1, 128, 4, 768]⟩
abbrev S128x128x4x768 : Shape := ⟨4, ![128, 128, 4, 768]⟩
abbrev S1x1x4x768 : Shape := ⟨4, ![1, 1, 4, 768]⟩
abbrev S128x128x4 : Shape := ⟨3, ![128, 128, 4]⟩
abbrev S128x128x4x1 : Shape := ⟨4, ![128, 128, 4, 1]⟩
abbrev S1x1x1x768 : Shape := ⟨4, ![1, 1, 1, 768]⟩
abbrev S128x128x4x24 : Shape := ⟨4, ![128, 128, 4, 24]⟩
abbrev S1x1x1x24 : Shape := ⟨4, ![1, 1, 1, 24]⟩
abbrev S128x1x4 : Shape := ⟨3, ![128, 1, 4]⟩
abbrev S1x128x4 : Shape := ⟨3, ![1, 128, 4]⟩

abbrev nBuf : Space → Nat
  | .hbm => 103
  | .vmem => 0
  | .smem => 0
  | _ => 0

abbrev bufTy : (tb : Table) → Fin (tcTables nBuf tb) → BufTy
  | .hbm, ⟨0, _⟩ => ⟨S128x4x768, .f32⟩
  | .hbm, ⟨1, _⟩ => ⟨S128x4x768, .f32⟩
  | .hbm, ⟨2, _⟩ => ⟨S128x4, .f32⟩
  | .hbm, ⟨3, _⟩ => ⟨S768x1536, .f32⟩
  | .hbm, ⟨4, _⟩ => ⟨S768, .f32⟩
  | .hbm, ⟨5, _⟩ => ⟨S768x2304, .f32⟩
  | .hbm, ⟨6, _⟩ => ⟨S768, .f32⟩
  | .hbm, ⟨7, _⟩ => ⟨S768, .f32⟩
  | .hbm, ⟨8, _⟩ => ⟨S768, .f32⟩
  | .hbm, ⟨9, _⟩ => ⟨S24x768, .f32⟩
  | .hbm, ⟨10, _⟩ => ⟨S24, .f32⟩
  | .hbm, ⟨11, _⟩ => ⟨S768x768, .f32⟩
  | .hbm, ⟨12, _⟩ => ⟨S768x768, .f32⟩
  | .hbm, ⟨13, _⟩ => ⟨S128x4x768, .f32⟩
  | .hbm, ⟨14, _⟩ => ⟨S128x4x768, .f32⟩
  | .hbm, ⟨15, _⟩ => ⟨S128x4x768, .f32⟩
  | .hbm, ⟨16, _⟩ => ⟨S1x1x768, .f32⟩
  | .hbm, ⟨17, _⟩ => ⟨S128x4x768, .f32⟩
  | .hbm, ⟨18, _⟩ => ⟨S128x4x768, .f32⟩
  | .hbm, ⟨19, _⟩ => ⟨S128x4x768, .f32⟩
  | .hbm, ⟨20, _⟩ => ⟨S_, .f32⟩
  | .hbm, ⟨21, _⟩ => ⟨S4x768, .f32⟩
  | .hbm, ⟨22, _⟩ => ⟨S768x768, .f32⟩
  | .hbm, ⟨23, _⟩ => ⟨S768x768, .f32⟩
  | .hbm, ⟨24, _⟩ => ⟨S768x768, .f32⟩
  | .hbm, ⟨25, _⟩ => ⟨S128x4x768, .f32⟩
  | .hbm, ⟨26, _⟩ => ⟨S128x4x768, .f32⟩
  | .hbm, ⟨27, _⟩ => ⟨S4x768, .f32⟩
  | .hbm, ⟨28, _⟩ => ⟨S1x768, .f32⟩
  | .hbm, ⟨29, _⟩ => ⟨S4x768, .f32⟩
  | .hbm, ⟨30, _⟩ => ⟨S4x768, .f32⟩
  | .hbm, ⟨31, _⟩ => ⟨S128x1x4x768, .f32⟩
  | .hbm, ⟨32, _⟩ => ⟨S1x128x4x768, .f32⟩
  | .hbm, ⟨33, _⟩ => ⟨S128x128x4x768, .f32⟩
  | .hbm, ⟨34, _⟩ => ⟨S128x128x4x768, .f32⟩
  | .hbm, ⟨35, _⟩ => ⟨S128x128x4x768, .f32⟩
  | .hbm, ⟨36, _⟩ => ⟨S1x1x4x768, .f32⟩
  | .hbm, ⟨37, _⟩ => ⟨S128x128x4x768, .f32⟩
  | .hbm, ⟨38, _⟩ => ⟨S128x128x4x768, .f32⟩
  | .hbm, ⟨39, _⟩ => ⟨S_, .f32⟩
  | .hbm, ⟨40, _⟩ => ⟨S128x128x4, .f32⟩
  | .hbm, ⟨41, _⟩ => ⟨S128x128x4x1, .f32⟩
  | .hbm, ⟨42, _⟩ => ⟨S_, .f32⟩
  | .hbm, ⟨43, _⟩ => ⟨S128x128x4x1, .f32⟩
  | .hbm, ⟨44, _⟩ => ⟨S128x128x4x1, .f32⟩
  | .hbm, ⟨45, _⟩ => ⟨S128x128x4x768, .f32⟩
  | .hbm, ⟨46, _⟩ => ⟨S128x128x4x768, .f32⟩
  | .hbm, ⟨47, _⟩ => ⟨S128x128x4x768, .f32⟩
  | .hbm, ⟨48, _⟩ => ⟨S_, .f32⟩
  | .hbm, ⟨49, _⟩ => ⟨S128x128x4, .f32⟩
  | .hbm, ⟨50, _⟩ => ⟨S128x128x4x1, .f32⟩
  | .hbm, ⟨51, _⟩ => ⟨S_, .f32⟩
  | .hbm, ⟨52, _⟩ => ⟨S128x128x4x1, .f32⟩
  | .hbm, ⟨53, _⟩ => ⟨S128x128x4x1, .f32⟩
  | .hbm, ⟨54, _⟩ => ⟨S128x128x4x768, .f32⟩
  | .hbm, ⟨55, _⟩ => ⟨S128x128x4x768, .f32⟩
  | .hbm, ⟨56, _⟩ => ⟨S_, .f32⟩
  | .hbm, ⟨57, _⟩ => ⟨S128x128x4x1, .f32⟩
  | .hbm, ⟨58, _⟩ => ⟨S128x128x4x1, .f32⟩
  | .hbm, ⟨59, _⟩ => ⟨S128x128x4x1, .f32⟩
  | .hbm, ⟨60, _⟩ => ⟨S128x128x4x768, .f32⟩
  | .hbm, ⟨61, _⟩ => ⟨S128x128x4x768, .f32⟩
  | .hbm, ⟨62, _⟩ => ⟨S1x1x1x768, .f32⟩
  | .hbm, ⟨63, _⟩ => ⟨S128x128x4x768, .f32⟩
  | .hbm, ⟨64, _⟩ => ⟨S128x128x4x768, .f32⟩
  | .hbm, ⟨65, _⟩ => ⟨S1x1x1x768, .f32⟩
  | .hbm, ⟨66, _⟩ => ⟨S128x128x4x768, .f32⟩
  | .hbm, ⟨67, _⟩ => ⟨S128x128x4x768, .f32⟩
  | .hbm, ⟨68, _⟩ => ⟨S_, .f32⟩
  | .hbm, ⟨69, _⟩ => ⟨S128x128x4x768, .f32⟩
  | .hbm, ⟨70, _⟩ => ⟨S128x128x4x768, .i1⟩
  | .hbm, ⟨71, _⟩ => ⟨S_, .f32⟩
  | .hbm, ⟨72, _⟩ => ⟨S128x128x4x768, .f32⟩
  | .hbm, ⟨73, _⟩ => ⟨S128x128x4x768, .i1⟩
  | .hbm, ⟨74, _⟩ => ⟨S_, .f32⟩
  | .hbm, ⟨75, _⟩ => ⟨S_, .f32⟩
  | .hbm, ⟨76, _⟩ => ⟨S128x128x4x768, .f32⟩
  | .hbm, ⟨77, _⟩ => ⟨S128x128x4x768, .f32⟩
  | .hbm, ⟨78, _⟩ => ⟨S128x128x4x768, .f32⟩
  | .hbm, ⟨79, _⟩ => ⟨S_, .f32⟩
  | .hbm, ⟨80, _⟩ => ⟨S128x128x4x768, .f32⟩
  | .hbm, ⟨81, _⟩ => ⟨S128x128x4x768, .f32⟩
  | .hbm, ⟨82, _⟩ => ⟨S128x128x4x768, .f32⟩
  | .hbm, ⟨83, _⟩ => ⟨S128x128x4x24, .f32⟩
  | .hbm, ⟨84, _⟩ => ⟨S1x1x1x24, .f32⟩
  | .hbm, ⟨85, _⟩ => ⟨S128x128x4x24, .f32⟩
  | .hbm, ⟨86, _⟩ => ⟨S128x128x4x24, .f32⟩
  | .hbm, ⟨87, _⟩ => ⟨S128x128x4x24, .f32⟩
  | .hbm, ⟨88, _⟩ => ⟨S128x128x4x24, .f32⟩
  | .hbm, ⟨89, _⟩ => ⟨S_, .f32⟩
  | .hbm, ⟨90, _⟩ => ⟨S128x128x4x24, .f32⟩
  | .hbm, ⟨91, _⟩ => ⟨S128x128x4x24, .f32⟩
  | .hbm, ⟨92, _⟩ => ⟨S_, .f32⟩
  | .hbm, ⟨93, _⟩ => ⟨S128x128x4x24, .f32⟩
  | .hbm, ⟨94, _⟩ => ⟨S128x128x4x24, .f32⟩
  | .hbm, ⟨95, _⟩ => ⟨S128x1x4, .f32⟩
  | .hbm, ⟨96, _⟩ => ⟨S1x128x4, .f32⟩
  | .hbm, ⟨97, _⟩ => ⟨S128x128x4, .f32⟩
  | .hbm, ⟨98, _⟩ => ⟨S128x128x4, .f32⟩
  | .hbm, ⟨99, _⟩ => ⟨S128x128x4, .f32⟩
  | .hbm, ⟨100, _⟩ => ⟨S128x128x4x1, .f32⟩
  | .hbm, ⟨101, _⟩ => ⟨S128x128x4x24, .f32⟩
  | .hbm, ⟨102, _⟩ => ⟨S128x128x4x24, .f32⟩
  | _, _ => ⟨S128x4x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_0 : Ref sig .tc := ⟨.hbm, 39, rfl⟩
abbrev main_v27 : Ref sig .tc := ⟨.hbm, 40, rfl⟩
abbrev main_v28 : Ref sig .tc := ⟨.hbm, 41, rfl⟩
abbrev main_cst_1 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_2 : Ref sig .tc := ⟨.hbm, 48, rfl⟩
abbrev main_v34 : Ref sig .tc := ⟨.hbm, 49, rfl⟩
abbrev main_v35 : Ref sig .tc := ⟨.hbm, 50, rfl⟩
abbrev main_cst_3 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_4 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_call0_cst : Ref sig .tc := ⟨.hbm, 68, rfl⟩
abbrev main_call0_v0 : Ref sig .tc := ⟨.hbm, 69, rfl⟩
abbrev main_call0_v1 : Ref sig .tc := ⟨.hbm, 70, rfl⟩
abbrev main_call0_cst_0 : Ref sig .tc := ⟨.hbm, 71, rfl⟩
abbrev main_call0_v2 : Ref sig .tc := ⟨.hbm, 72, rfl⟩
abbrev main_call0_v3 : Ref sig .tc := ⟨.hbm, 73, rfl⟩
abbrev main_call0_cst_1 : Ref sig .tc := ⟨.hbm, 74, rfl⟩
abbrev main_call0_call0_v0 : Ref sig .tc := ⟨.hbm, 75, rfl⟩
abbrev main_call0_call0_v1 : Ref sig .tc := ⟨.hbm, 76, rfl⟩
abbrev main_call0_v4 : Ref sig .tc := ⟨.hbm, 77, rfl⟩
abbrev main_call0_v5 : Ref sig .tc := ⟨.hbm, 78, rfl⟩
abbrev main_call0_cst_2 : Ref sig .tc := ⟨.hbm, 79, rfl⟩
abbrev main_call0_v6 : Ref sig .tc := ⟨.hbm, 80, rfl⟩
abbrev main_call0_v7 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_5 : Ref sig .tc := ⟨.hbm, 89, rfl⟩
abbrev main_v58 : Ref sig .tc := ⟨.hbm, 90, rfl⟩
abbrev main_v59 : Ref sig .tc := ⟨.hbm, 91, rfl⟩
abbrev main_cst_6 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩

abbrev nD : Nat := 1
abbrev τ : Topo := Topo.v7x

variable {F : FTy → Type} [FloatOps F]

class Facts₀ : Prop where
  slices_S768x1536_S768x768_0_0 : S768x1536.Slices ![0, 0] S768x768
  slices_S768x1536_S768x768_0_768 : S768x1536.Slices ![0, 768] S768x768
  bcast_S768_S1x1x768_2 : S768.BroadcastsInDim S1x1x768 (![2] : Fin 1 → Fin S1x1x768.rank)
  bcast_S1x1x768_S128x4x768_0_1_2 : S1x1x768.BroadcastsInDim S128x4x768 (![0, 1, 2] : Fin 3 → Fin S128x4x768.rank)
  reducesTo_S128x4x768_S4x768_d0 : S128x4x768.ReducesTo [0] S4x768
  h_S_ : 0 < S_.numel
  slices_S768x2304_S768x768_0_0 : S768x2304.Slices ![0, 0] S768x768
  slices_S768x2304_S768x768_0_768 : S768x2304.Slices ![0, 768] S768x768
  slices_S768x2304_S768x768_0_1536 : S768x2304.Slices ![0, 1536] S768x768
  bcast_S768_S1x768_1 : S768.BroadcastsInDim S1x768 (![1] : Fin 1 → Fin S1x768.rank)
  bcast_S1x768_S4x768_0_1 : S1x768.BroadcastsInDim S4x768 (![0, 1] : Fin 2 → Fin S4x768.rank)
  bcast_S128x4x768_S128x1x4x768_0_2_3 : S128x4x768.BroadcastsInDim S128x1x4x768 (![0, 2, 3] : Fin 3 → Fin S128x1x4x768.rank)
  bcast_S128x4x768_S1x128x4x768_1_2_3 : S128x4x768.BroadcastsInDim S1x128x4x768 (![1, 2, 3] : Fin 3 → Fin S1x128x4x768.rank)
  bcast_S128x1x4x768_S128x128x4x768_0_1_2_3 : S128x1x4x768.BroadcastsInDim S128x128x4x768 (![0, 1, 2, 3] : Fin 4 → Fin S128x128x4x768.rank)
  bcast_S1x128x4x768_S128x128x4x768_0_1_2_3 : S1x128x4x768.BroadcastsInDim S128x128x4x768 (![0, 1, 2, 3] : Fin 4 → Fin S128x128x4x768.rank)
  bcast_S4x768_S1x1x4x768_2_3 : S4x768.BroadcastsInDim S1x1x4x768 (![2, 3] : Fin 2 → Fin S1x1x4x768.rank)
  bcast_S1x1x4x768_S128x128x4x768_0_1_2_3 : S1x1x4x768.BroadcastsInDim S128x128x4x768 (![0, 1, 2, 3] : Fin 4 → Fin S128x128x4x768.rank)
  reducesTo_S128x128x4x768_S128x128x4_d3 : S128x128x4x768.ReducesTo [3] S128x128x4
  bcast_S128x128x4_S128x128x4x1_0_1_2 : S128x128x4.BroadcastsInDim S128x128x4x1 (![0, 1, 2] : Fin 3 → Fin S128x128x4x1.rank)
  bcast_S_S128x128x4x1 : S_.BroadcastsInDim S128x128x4x1 (![] : Fin 0 → Fin S128x128x4x1.rank)
  bcast_S128x128x4x1_S128x128x4x768_0_1_2_3 : S128x128x4x1.BroadcastsInDim S128x128x4x768 (![0, 1, 2, 3] : Fin 4 → Fin S128x128x4x768.rank)
  bcast_S768_S1x1x1x768_3 : S768.BroadcastsInDim S1x1x1x768 (![3] : Fin 1 → Fin S1x1x1x768.rank)
  bcast_S1x1x1x768_S128x128x4x768_0_1_2_3 : S1x1x1x768.BroadcastsInDim S128x128x4x768 (![0, 1, 2, 3] : Fin 4 → Fin S128x128x4x768.rank)
  bcast_S_S128x128x4x768 : S_.BroadcastsInDim S128x128x4x768 (![] : Fin 0 → Fin S128x128x4x768.rank)
  bcast_S24_S1x1x1x24_3 : S24.BroadcastsInDim S1x1x1x24 (![3] : Fin 1 → Fin S1x1x1x24.rank)
  bcast_S1x1x1x24_S128x128x4x24_0_1_2_3 : S1x1x1x24.BroadcastsInDim S128x128x4x24 (![0, 1, 2, 3] : Fin 4 → Fin S128x128x4x24.rank)
  bcast_S_S128x128x4x24 : S_.BroadcastsInDim S128x128x4x24 (![] : Fin 0 → Fin S128x128x4x24.rank)
  bcast_S128x4_S128x1x4_0_2 : S128x4.BroadcastsInDim S128x1x4 (![0, 2] : Fin 2 → Fin S128x1x4.rank)
  bcast_S128x4_S1x128x4_1_2 : S128x4.BroadcastsInDim S1x128x4 (![1, 2] : Fin 2 → Fin S1x128x4.rank)
  bcast_S128x1x4_S128x128x4_0_1_2 : S128x1x4.BroadcastsInDim S128x128x4 (![0, 1, 2] : Fin 3 → Fin S128x128x4.rank)
  bcast_S1x128x4_S128x128x4_0_1_2 : S1x128x4.BroadcastsInDim S128x128x4 (![0, 1, 2] : Fin 3 → Fin S128x128x4.rank)
  bcast_S128x128x4x1_S128x128x4x24_0_1_2_3 : S128x128x4x1.BroadcastsInDim S128x128x4x24 (![0, 1, 2, 3] : Fin 4 → Fin S128x128x4x24.rank)
  dot_S128x4x768_S768x768_S128x4x768_2_1_01_0_n_n_wf : DotDims.WF S128x4x768 S768x768 S128x4x768 [2] [1] [0, 1] [0] [] []
  dot_S4x768_S768x768_S4x768_1_1_0_0_n_n_wf : DotDims.WF S4x768 S768x768 S4x768 [1] [1] [0] [0] [] []
  dot_S128x128x4x768_S24x768_S128x128x4x24_3_1_012_0_n_n_wf : DotDims.WF S128x128x4x768 S24x768 S128x128x4x24 [3] [1] [0, 1, 2] [0] [] []

variable [Facts₀]

def dot_S128x4x768_S768x768_S128x4x768_2_1_01_0_n_n : DotDims S128x4x768 S768x768 S128x4x768 where
  lhsContracting := [2]
  rhsContracting := [1]
  lhsNonContracting := [0, 1]
  rhsNonContracting := [0]
  lhsBatch := []
  rhsBatch := []
  wf := dot_S128x4x768_S768x768_S128x4x768_2_1_01_0_n_n_wf
def dot_S4x768_S768x768_S4x768_1_1_0_0_n_n : DotDims S4x768 S768x768 S4x768 where
  lhsContracting := [1]
  rhsContracting := [1]
  lhsNonContracting := [0]
  rhsNonContracting := [0]
  lhsBatch := []
  rhsBatch := []
  wf := dot_S4x768_S768x768_S4x768_1_1_0_0_n_n_wf
def dot_S128x128x4x768_S24x768_S128x128x4x24_3_1_012_0_n_n : DotDims S128x128x4x768 S24x768 S128x128x4x24 where
  lhsContracting := [3]
  rhsContracting := [1]
  lhsNonContracting := [0, 1, 2]
  rhsNonContracting := [0]
  lhsBatch := []
  rhsBatch := []
  wf := dot_S128x128x4x768_S24x768_S128x128x4x24_3_1_012_0_n_n_wf

class Facts : Prop extends Facts₀ where

variable [Facts]
-- ==== Proof.K.Out.lean ====
/-
  What each kernel body leaves in its output windows' buffers, as a function of the blocks it was handed.

  Both bodies read every input window whole, compute, and write each output window whole, once. So the buffer of an
  output window after the body is the one piece "the whole rectangle at the stored value", and the stored value is the
  body's arithmetic applied to the input blocks read through the whole rectangle.

  First region (one grid point; inputs: the two activations laid out [4,128,768], the four weight slices and the two
  bias rows; outputs: the [4,768] additive term and the two [4,128,768] projections).
  Second region (8 x 4 grid points; inputs: a 16-row block of the first projection, a 32-row block of the second, the
  additive term, scale and shift rows of the normalisation, the read-out weight and bias, a 16-row and a 32-row block
  of the mask; output: a [4,16,32,24] block of the result).
-/
import proofs.«131939_j48103633715562_2_alg».proof.Proof.Gen.Kernel.Launch
import proofs.«131939_j48103633715562_2_alg».proof.Proof.Gen.Kernel.Skeleton
import proofs.«131939_j48103633715562_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

/-! ## The whole-buffer rectangles -/

abbrev rS4x768 : Rect S4x768 := Rect.unit (s := S4x768) ![0, 0] S4x768.size inb_S4x768_S4x768_0_0
abbrev rS4x128x768 : Rect S4x128x768 := Rect.unit (s := S4x128x768) ![0, 0, 0] S4x128x768.size inb_S4x128x768_S4x128x768_0_0_0
abbrev rS768x768 : Rect S768x768 := Rect.unit (s := S768x768) ![0, 0] S768x768.size inb_S768x768_S768x768_0_0
abbrev rS1x768 : Rect S1x768 := Rect.unit (s := S1x768) ![0, 0] S1x768.size inb_S1x768_S1x768_0_0
abbrev rS4x16x768 : Rect S4x16x768 := Rect.unit (s := S4x16x768) ![0, 0, 0] S4x16x768.size inb_S4x16x768_S4x16x768_0_0_0
abbrev rS4x32x768 : Rect S4x32x768 := Rect.unit (s := S4x32x768) ![0, 0, 0] S4x32x768.size inb_S4x32x768_S4x32x768_0_0_0
abbrev rS24x768 : Rect S24x768 := Rect.unit (s := S24x768) ![0, 0] S24x768.size inb_S24x768_S24x768_0_0
abbrev rS1x24 : Rect S1x24 := Rect.unit (s := S1x24) ![0, 0] S1x24.size inb_S1x24_S1x24_0_0
abbrev rS16x4 : Rect S16x4 := Rect.unit (s := S16x4) ![0, 0] S16x4.size inb_S16x4_S16x4_0_0
abbrev rS32x4 : Rect S32x4 := Rect.unit (s := S32x4) ![0, 0] S32x4.size inb_S32x4_S32x4_0_0
abbrev rS4x16x32x24 : Rect S4x16x32x24 := Rect.unit (s := S4x16x32x24) ![0, 0, 0, 0] S4x16x32x24.size inb_S4x16x32x24_S4x16x32x24_0_0_0_0

/-! ## First region: the three output buffers after the body -/

/-- The additive term's buffer: tanh of the two projections plus bias, maximised over the 128 rows, projected once
    more, plus the second bias row. -/
def out0_9 (x0 x1 : Vec F S4x128x768 .f32) (x2 x3 : Vec F S768x768 .f32) (x4 : Vec F S1x768 .f32)
    (x5 x6 x7 : Vec F S768x768 .f32) (x8 : Vec F S1x768 .f32) : Vec F S4x768 .f32 :=
  View.canon [⟨rS4x768, k0_pay1 (k0_pay7 (View.ld x0 rS4x128x768) (View.ld x1 rS4x128x768) (View.ld x2 rS768x768)
    (View.ld x3 rS768x768) (View.ld x7 rS768x768) (View.ld x4 rS1x768)) (View.ld x8 rS1x768)⟩]

/-- The first projection's buffer: the second activation times the first weight slice. -/
def out0_10 (x0 x1 : Vec F S4x128x768 .f32) (x2 x3 : Vec F S768x768 .f32) (x4 : Vec F S1x768 .f32)
    (x5 x6 x7 : Vec F S768x768 .f32) (x8 : Vec F S1x768 .f32) : Vec F S4x128x768 .f32 :=
  View.canon [⟨rS4x128x768, k0_pay2 (k0_pay4 (View.ld x1 rS4x128x768)) (k0_pay5 (View.ld x5 rS768x768))⟩]

/-- The second projection's buffer: the second activation times the second weight slice. -/
def out0_11 (x0 x1 : Vec F S4x128x768 .f32) (x2 x3 : Vec F S768x768 .f32) (x4 : Vec F S1x768 .f32)
    (x5 x6 x7 : Vec F S768x768 .f32) (x8 : Vec F S1x768 .f32) : Vec F S4x128x768 .f32 :=
  View.canon [⟨rS4x128x768, k0_pay3 (k0_pay4 (View.ld x1 rS4x128x768)) (k0_pay6 (View.ld x6 rS768x768))⟩]

/-- One whole-buffer piece covers the buffer. -/
theorem cover_S4x768 (p : Vec F S4x768 .f32) (y : S4x768.Idx) :
    ∃ pc ∈ ([⟨rS4x768, p⟩] : List (View.Piece (Elt F) S4x768 .f32)), y ∈ pc.1.set :=
  View.cover_of_tiled [⟨rS4x768, p⟩] S4x768.size (by rfl) y

theorem cover_S4x128x768 (p : Vec F S4x128x768 .f32) (y : S4x128x768.Idx) :
    ∃ pc ∈ ([⟨rS4x128x768, p⟩] : List (View.Piece (Elt F) S4x128x768 .f32)), y ∈ pc.1.set :=
  View.cover_of_tiled [⟨rS4x128x768, p⟩] S4x128x768.size (by rfl) y

/-! ## Second region: the output block after the body -/

/-- The result block: the pairwise sum of the two projections' rows plus the additive term, normalised along the last
    axis, scaled and shifted, passed through the exponential-linear unit, read out through the weight and bias, squashed
    by the logistic function and multiplied by the product of the two mask blocks. -/
def out1_9 (x0 : Vec F S4x16x768 .f32) (x1 : Vec F S4x32x768 .f32) (x2 : Vec F S4x768 .f32) (x3 x4 : Vec F S1x768 .f32)
    (x5 : Vec F S24x768 .f32) (x6 : Vec F S1x24 .f32) (x7 : Vec F S16x4 .f32) (x8 : Vec F S32x4 .f32) : Vec F S4x16x32x24 .f32 :=
  View.canon [⟨rS4x16x32x24, k1_pay1 (k1_pay2 (View.ld x0 rS4x16x768) (View.ld x1 rS4x32x768) (View.ld x2 rS4x768)
    (View.ld x3 rS1x768) (View.ld x4 rS1x768)) (Scalar.ofBits .f32 0x00000000#32) (View.ld x5 rS24x768) (View.ld x6 rS1x24)
    (View.ld x7 rS16x4) (View.ld x8 rS32x4)⟩]

theorem cover_S4x16x32x24 (p : Vec F S4x16x32x24 .f32) (y : S4x16x32x24.Idx) :
    ∃ pc ∈ ([⟨rS4x16x32x24, p⟩] : List (View.Piece (Elt F) S4x16x32x24 .f32)), y ∈ pc.1.set :=
  View.cover_of_tiled [⟨rS4x16x32x24, p⟩] S4x16x32x24.size (by rfl) y

end Cert.Kernel.Hand

end
-- ==== Proof.K.Dat0.lean ====
/-
  The proof data of region 0: at entry every windowed array holds what the region finds in it; after the body at a
  grid point each input window's buffer still holds the array's block at that point, and each output window's buffer
  holds the body's result on the input blocks. An input window is found at its block at every point, whether the
  pipeline fetched it there or not: when it did not, the block index has not moved since the last fetch.
-/
import proofs.«131939_j48103633715562_2_alg».proof.Proof.K.Out

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The proof data: arrays as found; inputs kept at their blocks; outputs at the body's result; the invariant is the
    scoped rest and the generator register, untouched; nothing owed. Every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

end Cert.Kernel.Hand

end
-- ==== Proof.K.Dat1.lean ====
/-
  The proof data of region 1: at entry every windowed array holds what the region finds in it; after the body at a
  grid point each input window's buffer still holds the array's block at that point, and each output window's buffer
  holds the body's result on the input blocks. An input window is found at its block at every point, whether the
  pipeline fetched it there or not: when it did not, the block index has not moved since the last fetch.
-/
import proofs.«131939_j48103633715562_2_alg».proof.Proof.K.Out

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The proof data: arrays as found; inputs kept at their blocks; outputs at the body's result; the invariant is the
    scoped rest and the generator register, untouched; nothing owed. The mask array is handed to two input windows: each holds one half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨7, _⟩ => fullShare.left
    | ⟨8, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

end Cert.Kernel.Hand

end
-- ==== Proof.K.Vals.lean ====
/-
  The contents of a core's buffers at each boundary of @main: at launch; after the host operations before the first
  region (slices of the two weights, the five row reshapes, the two activation transposes); after the first region
  (its three result arrays at what its single grid point wrote back); after the second region (its result array at
  what its 32 grid points wrote back, block by block); after the final transpose.
-/
import proofs.«131939_j48103633715562_2_alg».proof.Proof.K.Dat0
import proofs.«131939_j48103633715562_2_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host operations before the first region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second region: its result array at what the pipeline leaves, every other buffer as entered. -/
def W3 (c : Dev nD) : Valuation τ sig (Elt F) :=
  Function.update (W2 m c) (Proc.devRef .tc main_v13) ((dat1 (V2 m) c).arrAt 9 cfg1.N)
abbrev V3 : (c : Dev nD) → (b : Ref sig .tc) → Buf (Elt F) ((c : Thread nD τ).loc b) := fun c b => W3 m c b
/-- After the final transpose. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_v13 (c : Dev nD) : W3 m c (Proc.devRef .tc main_v13) = (dat1 (V2 m) c).arrAt 9 cfg1.N := by
  unfold W3; exact Function.update_self _ _ _
theorem W3_of_ne (c : Dev nD) (b : Ref sig .tc) (hb : b ≠ main_v13) :
    W3 m c (Proc.devRef .tc b) = W2 m c (Proc.devRef .tc b) := by
  unfold W3; exact Function.update_of_ne (StableHlo.devRef_ne_of_ne hb) _ _

end Cert.Kernel.Hand

end
-- ==== Proof.K.Body0.lean ====
import proofs.«131939_j48103633715562_2_alg».proof.Proof.K.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # The first kernel body's triple

The first region runs its body at a single grid point. Every window is as large as its staging buffer, so every
access goes through the rectangle that is the whole buffer: the body reads the nine input buffers, forms three
values from what it read, and stores each of them once, whole, into its own output buffer. What an output buffer
holds afterwards is therefore the canonical contents of that one store (`out0_9`, `out0_10`, `out0_11`), and a
single whole-buffer piece covers the buffer. The body also reads each output buffer just before storing into it;
the value read is not used. -/

set_option maxHeartbeats 4000000 in
/-- Run on whole staging buffers — the nine inputs holding `x0 … x8`, the three outputs holding anything —
    the body ends with the inputs unchanged and each output holding `out0_W` of the inputs. -/
theorem sound_kernel0 (c : Dev nD) (E : Set ℕ) (i : grid0.Coords)
    (arg1 : Memref sig .tc .vmem S4x128x768 .f32) (harg1 : arg1.IsWhole)
    (arg2 : Memref sig .tc .vmem S4x128x768 .f32) (harg2 : arg2.IsWhole)
    (arg3 : Memref sig .tc .vmem S768x768 .f32) (harg3 : arg3.IsWhole)
    (arg4 : Memref sig .tc .vmem S768x768 .f32) (harg4 : arg4.IsWhole)
    (arg5 : Memref sig .tc .vmem S1x768 .f32) (harg5 : arg5.IsWhole)
    (arg6 : Memref sig .tc .vmem S768x768 .f32) (harg6 : arg6.IsWhole)
    (arg7 : Memref sig .tc .vmem S768x768 .f32) (harg7 : arg7.IsWhole)
    (arg8 : Memref sig .tc .vmem S768x768 .f32) (harg8 : arg8.IsWhole)
    (arg9 : Memref sig .tc .vmem S1x768 .f32) (harg9 : arg9.IsWhole)
    (arg10 : Memref sig .tc .vmem S4x768 .f32) (harg10 : arg10.IsWhole)
    (arg11 : Memref sig .tc .vmem S4x128x768 .f32) (harg11 : arg11.IsWhole)
    (arg12 : Memref sig .tc .vmem S4x128x768 .f32) (harg12 : arg12.IsWhole)
    (x0 : Vec F S4x128x768 .f32) (x1 : Vec F S4x128x768 .f32) (x2 x3 : Vec F S768x768 .f32)
    (x4 : Vec F S1x768 .f32) (x5 x6 x7 : Vec F S768x768 .f32) (x8 : Vec F S1x768 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out0_9 x0 x1 x2 x3 x4 x5 x6 x7 x8)
            ∗ owns (c : Thread nD τ) arg11 fullShare (out0_10 x0 x1 x2 x3 x4 x5 x6 x7 x8)
            ∗ owns (c : Thread nD τ) arg12 fullShare (out0_11 x0 x1 x2 x3 x4 x5 x6 x7 x8)) -∗ K ⟨⟩))
      ⊢ wp frame (wpE (defs₀ (F := F)) Variants.none c none) E
          (cc0__pre_kernel i arg1 harg1 arg2 harg2 arg3 harg3 arg4 harg4 arg5 harg5 arg6 harg6 arg7 harg7 arg8 harg8
            arg9 harg9 arg10 harg10 arg11 harg11 arg12 harg12) K := by
  simp only [cc0__pre_kernel_eq_skeleton]; unfold cc0__pre_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_S4x768 _)
  isplitl [H10]
  · iexists _; isplitr
    swap; · iexact H10
    ipureintro
    exact View.read_writes_eq_canon _ _ _ (cover_S4x128x768 _)
  iexists _; isplitr
  swap; · iexact H11
  ipureintro
  exact View.read_writes_eq_canon _ _ _ (cover_S4x128x768 _)

end Cert.Kernel.Hand

end
-- ==== Proof.K.Obl0.lean ====
/-
  The body obligation of region 0: at every grid point the body, run on the windows' current buffers — each input's
  holding its block, each output's holding anything — leaves the inputs in place and each output at the body's result
  on the input blocks; the invariant and the core's dues pass through untouched.
-/
import proofs.«131939_j48103633715562_2_alg».proof.Proof.K.Dat0
import proofs.«131939_j48103633715562_2_alg».proof.Proof.K.Body0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Body1.lean ====
import proofs.«131939_j48103633715562_2_alg».proof.Proof.K.Out

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # The second kernel body's triple

The second region runs its body at each of its 8 × 4 grid points; the body does not look at the point. Every window
is as large as its staging buffer, so every access goes through the rectangle that is the whole buffer: the body
reads the nine input buffers, forms one value from what it read, and stores it once, whole, into the output buffer.
What the output buffer holds afterwards is the canonical contents of that one store (`out1_9`), and a single
whole-buffer piece covers the buffer. The body also reads the output buffer just before storing into it; the value
read is not used. -/

set_option maxHeartbeats 4000000 in
/-- Run on whole staging buffers — the nine inputs holding `x0 … x8`, the output holding anything — the body
    ends with the inputs unchanged and the output holding `out1_9` of the inputs, at every grid point. -/
theorem sound_kernel1 (c : Dev nD) (E : Set ℕ) (i : grid1.Coords)
    (arg2 : Memref sig .tc .vmem S4x16x768 .f32) (harg2 : arg2.IsWhole)
    (arg3 : Memref sig .tc .vmem S4x32x768 .f32) (harg3 : arg3.IsWhole)
    (arg4 : Memref sig .tc .vmem S4x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S24x768 .f32) (harg7 : arg7.IsWhole)
    (arg8 : Memref sig .tc .vmem S1x24 .f32) (harg8 : arg8.IsWhole)
    (arg9 : Memref sig .tc .vmem S16x4 .f32) (harg9 : arg9.IsWhole)
    (arg10 : Memref sig .tc .vmem S32x4 .f32) (harg10 : arg10.IsWhole)
    (arg11 : Memref sig .tc .vmem S4x16x32x24 .f32) (harg11 : arg11.IsWhole)
    (x0 : Vec F S4x16x768 .f32) (x1 : Vec F S4x32x768 .f32) (x2 : Vec F S4x768 .f32) (x3 x4 : Vec F S1x768 .f32)
    (x5 : Vec F S24x768 .f32) (x6 : Vec F S1x24 .f32) (x7 : Vec F S16x4 .f32) (x8 : Vec F S32x4 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8
        ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8
            ∗ owns (c : Thread nD τ) arg11 fullShare (out1_9 x0 x1 x2 x3 x4 x5 x6 x7 x8)) -∗ K ⟨⟩))
      ⊢ wp frame (wpE (defs₀ (F := F)) Variants.none c none) E
          (cc1__main_kernel i arg2 harg2 arg3 harg3 arg4 harg4 arg5 harg5 arg6 harg6 arg7 harg7 arg8 harg8
            arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_S4x16x32x24 _)

end Cert.Kernel.Hand

end
-- ==== Proof.K.Obl1.lean ====
/-
  The body obligation of region 1: at every grid point the body, run on the windows' current buffers — each input's
  holding its block, each output's holding anything — leaves the inputs in place and each output at the body's result
  on the input blocks; the invariant and the core's dues pass through untouched.
-/
import proofs.«131939_j48103633715562_2_alg».proof.Proof.K.Dat1
import proofs.«131939_j48103633715562_2_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Share1.lean ====
/-
  The second region is handed the mask array through two input windows. The core holds each windowed array whole
  when the region is entered; the mask is then split into two halves, one per window, and put together again when the
  region is left. Every other windowed array goes to its one window whole.

  Counting: the ten windows name nine distinct arrays; leaving the second mask window out, the other nine windows
  name them one to one.
-/
import proofs.«131939_j48103633715562_2_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The arrays the ten windows name are those the nine windows other than the second mask window name, -/
theorem arrs_eq1 : Finset.univ.image (Pipeline.arrRef spec1)
    = ((Finset.univ : Finset (Fin 10)).erase 8).image (Pipeline.arrRef spec1) := by decide

/-- and those nine name them one to one. -/
theorem arrs_inj1 : ∀ x ∈ (Finset.univ : Finset (Fin 10)).erase 8, ∀ y ∈ (Finset.univ : Finset (Fin 10)).erase 8,
    Pipeline.arrRef spec1 x = Pipeline.arrRef spec1 y → x = y := by decide

section
variable (c : Dev nD) (X : (b : Ref sig .tc) → Buf (Elt F) ((c : Thread nD τ).loc b))

/-- The distinct windowed arrays held whole: the mask, and the arrays of the eight windows that are neither mask window. -/
theorem arrBufs_split1 :
    (Pipeline.arrBufs spec1 c X : sProp 𝕄)
      = iprop((((c : Thread nD τ).loc (Pipeline.arrRef spec1 7)) ↦{fullShare} X (Pipeline.arrRef spec1 7))
          ∗ bigSep (((Finset.univ : Finset (Fin 10)).erase 8).erase 7)
              fun w => (((c : Thread nD τ).loc (Pipeline.arrRef spec1 w)) ↦{fullShare} X (Pipeline.arrRef spec1 w))) := by
  unfold Pipeline.arrBufs
  rw [arrs_eq1]
  have h : bigSep (((Finset.univ : Finset (Fin 10)).erase 8).image (Pipeline.arrRef spec1))
        (fun b => ((((c : Thread nD τ).loc b) ↦{fullShare} X b) : sProp 𝕄))
      = bigSep ((Finset.univ : Finset (Fin 10)).erase 8)
        (fun w => ((((c : Thread nD τ).loc (Pipeline.arrRef spec1 w)) ↦{fullShare} X (Pipeline.arrRef spec1 w)) : sProp 𝕄)) :=
    Finset.fold_image arrs_inj1
  rw [h]
  exact bigSep_erase (i := (7 : Fin 10)) (by decide)

end

section
variable (V : (c : Dev nD) → (b : Ref sig .tc) → Buf (Elt F) ((c : Thread nD τ).loc b)) (c : Dev nD)

/-- Every window other than the two mask windows holds its array whole. -/
theorem share_full1 (w : Fin 10) (hw : w ∈ ((Finset.univ : Finset (Fin 10)).erase 8).erase 7) :
    (dat1 V c).share w = fullShare := by
  fin_cases w <;> first | rfl | exact absurd hw (by decide)

/-- The pipeline's arrays at contents `G`, window by window: the second mask window at the right half, the first at
    the left half, the other eight whole. -/
theorem arrays_split1 (G : (w : Fin cfg1.W) → Buf (Elt F) ((cfg1.win w).arr.view.loc (c.tc : Thread nD τ))) :
    ((dat1 V c).arrays G : sProp 𝕄)
      = iprop((((c : Thread nD τ).loc (Pipeline.arrRef spec1 8)) ↦{fullShare.right} G 8)
          ∗ (((c : Thread nD τ).loc (Pipeline.arrRef spec1 7)) ↦{fullShare.left} G 7)
          ∗ bigSep (((Finset.univ : Finset (Fin 10)).erase 8).erase 7)
              fun w => (((c : Thread nD τ).loc (Pipeline.arrRef spec1 w)) ↦{fullShare} G w)) := by
  unfold Dat.arrays
  rw [bigSep_univ_split (8 : Fin 10), bigSep_erase (i := (7 : Fin 10)) (s := Finset.univ.erase 8) (by decide)]
  rw [(arr_whole1 8).set_eq_univ]
  refine congrArg₂ _ rfl (congrArg₂ _ rfl ?_)
  exact bigSep_congr fun w hw => by
    rw [(arr_whole1 w).set_eq_univ, share_full1 V c w hw]

/-- Entering the region: the nine arrays held whole give every window its array, the mask halved between its two. -/
theorem arrays_in1 : (Pipeline.arrBufs spec1 c (V c) : sProp 𝕄) ⊢ (dat1 V c).arrays ((dat1 V c).arrAt · 0) := by
  rw [arrBufs_split1, arrays_split1]
  iintro ⟨H7, HS⟩
  ihave H := (pointsTo_share (PosShare.mem_left_op_right fullShare)).1 $$ H7
  icases H with ⟨Hl, Hr⟩
  isplitl [Hr]; · iexact Hr
  isplitl [Hl]; · iexact Hl
  iexact HS

/-- Leaving the region: every window's array at what the pipeline leaves — an input array as found, both mask
    halves alike — makes the nine arrays whole again, at any contents `X'` that agree with what the pipeline leaves. -/
theorem arrays_out1 (X' : (b : Ref sig .tc) → Buf (Elt F) ((c : Thread nD τ).loc b))
    (hX' : ∀ w : Fin cfg1.W, (dat1 V c).arrAt w cfg1.N = X' (Pipeline.arrRef spec1 w)) :
    ((dat1 V c).arrays ((dat1 V c).arrAt · cfg1.N) : sProp 𝕄) ⊢ Pipeline.arrBufs spec1 c X' := by
  rw [arrBufs_split1, arrays_split1]
  have hS : bigSep (((Finset.univ : Finset (Fin 10)).erase 8).erase 7)
        (fun w => ((((c : Thread nD τ).loc (Pipeline.arrRef spec1 w)) ↦{fullShare} (dat1 V c).arrAt w cfg1.N) : sProp 𝕄))
      = bigSep (((Finset.univ : Finset (Fin 10)).erase 8).erase 7)
        (fun w => ((((c : Thread nD τ).loc (Pipeline.arrRef spec1 w)) ↦{fullShare} X' (Pipeline.arrRef spec1 w)) : sProp 𝕄)) :=
    bigSep_congr fun w _ => by rw [hX' w]
  have h8 : (dat1 V c).arrAt 8 cfg1.N = X' (Pipeline.arrRef spec1 7) := hX' 8
  have h7 : (dat1 V c).arrAt 7 cfg1.N = X' (Pipeline.arrRef spec1 7) := hX' 7
  iintro ⟨Hr, Hl, HS⟩
  isplitl [Hr Hl]
  · iapply (pointsTo_share (PosShare.mem_left_op_right fullShare)).2
    isplitl [Hl]
    · rw [← h7]; iexact Hl
    · rw [← h8]; iexact Hr
  · rw [← hS]; iexact HS

end

end Cert.Kernel.Hand

end
-- ==== Proof.K.Run.lean ====
/-
  @main as four segments — the host operations before the first region, the two regions, the final transpose — and
  the run: from any launch memory with zero counters every weakly fair execution terminates, nothing faults, and the
  final memory holds every unscoped buffer at the contents the boundaries' fold names.

  Between segments a core holds every unscoped buffer whole at the boundary's contents, its generator register at
  some state, and owes nothing. A region takes its windowed arrays out of that, runs its pipeline over the proof data,
  and puts the arrays back at what the pipeline leaves; everything else bypasses it. The second region's mask array
  is halved between its two windows on the way in and rejoined on the way out.
-/
import proofs.«131939_j48103633715562_2_alg».proof.Proof.K.Vals
import proofs.«131939_j48103633715562_2_alg».proof.Proof.K.Obl0
import proofs.«131939_j48103633715562_2_alg».proof.Proof.K.Obl1
import proofs.«131939_j48103633715562_2_alg».proof.Proof.K.Share1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the contents after the first host operations, left with
    its three result arrays at what its grid point wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit each of its arrays holds what the pipeline leaves: the result array by definition of
    the boundary's contents, an input array because no point writes it back. -/
theorem hF1 (c : Dev nD) (w : Fin cfg1.W) : (dat1 (V2 m) c).arrAt w cfg1.N = V3 m c (Pipeline.arrRef spec1 w) := by
  fin_cases w
  case «9» => exact (W3_v13 m c).symm
  all_goals
    refine ((dat1 (V2 m) c).arrAt_in _ rfl _).trans ?_
    rw [A_eq1]
    exact (W3_of_ne m c _ (by decide)).symm

set_option backward.isDefEq.respectTransparency.types false in
/-- The second region: entered from the contents the first region leaves, left with its result array at what its
    grid points wrote back. The mask array is halved between its two windows on the way in and rejoined on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((dat1 (V2 m) c).arrays ((dat1 (V2 m) c).arrAt · 0)
            ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c),
        Pipeline.unscopedBufs_split₀ cfgs 1 (by decide) c (V2 m c)]
      exact sep_mono (arrays_in1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (V2 m c) : sProp 𝕄)
        = Pipeline.unscopedRest spec1 c (V3 m c) := by
      unfold Pipeline.unscopedRest
      exact bigSep_congr fun b hb => by
        rw [show V3 m c b = V2 m c b from W3_of_ne m c b fun e => (Finset.mem_sdiff.mp hb).2
          (Finset.mem_image.mpr ⟨9, Finset.mem_univ _, e ▸ rfl⟩)]
    have hjoin : iprop((dat1 (V2 m) c).arrays ((dat1 (V2 m) c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs 1 (by decide) c (V3 m c), hrest]
      exact sep_mono (arrays_out1 (V2 m) c (V3 m c) (hF1 m c)) .rfl
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) := (main_chain c).trans (by chain_rfl)

set_option backward.isDefEq.respectTransparency.types false in
/-- THE RUN: every weakly fair execution of @main from `m` with zero counters terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.Kernel.Hand

end
-- ==== Proof.K.Frame.lean ====
/-
  The frame: no segment of @main writes an argument array — the host operations write only their own results, the
  regions write back only their result arrays — so each argument reaches the end as launched; and the result array at
  the end is the last boundary's contents of the final transpose's output.
-/
import proofs.«131939_j48103633715562_2_alg».proof.Proof.K.Run
import proofs.«131939_j48103633715562_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-- A buffer that no host operation writes and that is no region's windowed result reaches the end as launched. -/
theorem W4_arg (c : Dev nD) (r : Ref sig .tc) (h2 : r ∉ hostOps2_W) (h13 : r ≠ main_v13)
    (h0 : ∀ w, Pipeline.arrRef spec0 w ≠ r) (hh : r ∉ hostOps0_W) :
    W4 m c (Proc.devRef .tc r) = m ((c : Thread nD τ).loc r) :=
  (StableHlo.after_of_writes_sub hostOps2 _ hostOps2_writes h2).trans <|
    (W3_of_ne m c r h13).trans <| (W2_of_ne m c r h0).trans <|
      StableHlo.after_of_writes_sub hostOps0 _ hostOps0_writes hh

/-- The run with the result named and the arguments unchanged. -/
theorem run_res : θ_run defs (onTc (τ := τ) (main (F := F))) ⟨m, fun _ => 0, ρ⟩ (fun r => ∀ c : Dev nD,
      r.2.mem ((c.tc : Thread nD τ).loc main_v14) = W4 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v14 (by decide)),
      (h c _ (mem_uc main_arg0 (by decide))).trans (W4_arg m c main_arg0 (by decide) (by decide) (by decide) (by decide)),
      (h c _ (mem_uc main_arg1 (by decide))).trans (W4_arg m c main_arg1 (by decide) (by decide) (by decide) (by decide)),
      (h c _ (mem_uc main_arg2 (by decide))).trans (W4_arg m c main_arg2 (by decide) (by decide) (by decide) (by decide)),
      (h c _ (mem_uc main_arg3 (by decide))).trans (W4_arg m c main_arg3 (by decide) (by decide) (by decide) (by decide)),
      (h c _ (mem_uc main_arg4 (by decide))).trans (W4_arg m c main_arg4 (by decide) (by decide) (by decide) (by decide)),
      (h c _ (mem_uc main_arg5 (by decide))).trans (W4_arg m c main_arg5 (by decide) (by decide) (by decide) (by decide)),
      (h c _ (mem_uc main_arg6 (by decide))).trans (W4_arg m c main_arg6 (by decide) (by decide) (by decide) (by decide)),
      (h c _ (mem_uc main_arg7 (by decide))).trans (W4_arg m c main_arg7 (by decide) (by decide) (by decide) (by decide)),
      (h c _ (mem_uc main_arg8 (by decide))).trans (W4_arg m c main_arg8 (by decide) (by decide) (by decide) (by decide)),
      (h c _ (mem_uc main_arg9 (by decide))).trans (W4_arg m c main_arg9 (by decide) (by decide) (by decide) (by decide)),
      (h c _ (mem_uc main_arg10 (by decide))).trans (W4_arg m c main_arg10 (by decide) (by decide) (by decide) (by decide))⟩) (run_all m ρ)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_res m ρ)

end Cert.Kernel.Hand

end
-- ==== Proof.KI.Out.lean ====
/-
  What each kernel body leaves in its output windows' buffers, as a function of the blocks it was handed.

  Both bodies read every input window whole, compute, and write each output window whole, once. So the buffer of an
  output window after the body is the one piece "the whole rectangle at the stored value", and the stored value is the
  body's arithmetic applied to the input blocks read through the whole rectangle.

  First region (one grid point; inputs: the two activations laid out [4,128,768], the four weight slices and the two
  bias rows; outputs: the [4,768] additive term and the two [4,128,768] projections).
  Second region (8 x 4 grid points; inputs: a 16-row block of the first projection, a 32-row block of the second, the
  additive term, scale and shift rows of the normalisation, the read-out weight and bias, a 16-row and a 32-row block
  of the mask; output: a [4,16,32,24] block of the result).
-/
import proofs.«131939_j48103633715562_2_alg».proof.Proof.Gen.KernelIdeal.Launch
import proofs.«131939_j48103633715562_2_alg».proof.Proof.Gen.KernelIdeal.Skeleton
import proofs.«131939_j48103633715562_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

/-! ## The whole-buffer rectangles -/

abbrev rS4x768 : Rect S4x768 := Rect.unit (s := S4x768) ![0, 0] S4x768.size inb_S4x768_S4x768_0_0
abbrev rS4x128x768 : Rect S4x128x768 := Rect.unit (s := S4x128x768) ![0, 0, 0] S4x128x768.size inb_S4x128x768_S4x128x768_0_0_0
abbrev rS768x768 : Rect S768x768 := Rect.unit (s := S768x768) ![0, 0] S768x768.size inb_S768x768_S768x768_0_0
abbrev rS1x768 : Rect S1x768 := Rect.unit (s := S1x768) ![0, 0] S1x768.size inb_S1x768_S1x768_0_0
abbrev rS4x16x768 : Rect S4x16x768 := Rect.unit (s := S4x16x768) ![0, 0, 0] S4x16x768.size inb_S4x16x768_S4x16x768_0_0_0
abbrev rS4x32x768 : Rect S4x32x768 := Rect.unit (s := S4x32x768) ![0, 0, 0] S4x32x768.size inb_S4x32x768_S4x32x768_0_0_0
abbrev rS24x768 : Rect S24x768 := Rect.unit (s := S24x768) ![0, 0] S24x768.size inb_S24x768_S24x768_0_0
abbrev rS1x24 : Rect S1x24 := Rect.unit (s := S1x24) ![0, 0] S1x24.size inb_S1x24_S1x24_0_0
abbrev rS16x4 : Rect S16x4 := Rect.unit (s := S16x4) ![0, 0] S16x4.size inb_S16x4_S16x4_0_0
abbrev rS32x4 : Rect S32x4 := Rect.unit (s := S32x4) ![0, 0] S32x4.size inb_S32x4_S32x4_0_0
abbrev rS4x16x32x24 : Rect S4x16x32x24 := Rect.unit (s := S4x16x32x24) ![0, 0, 0, 0] S4x16x32x24.size inb_S4x16x32x24_S4x16x32x24_0_0_0_0

/-! ## First region: the three output buffers after the body -/

/-- The additive term's buffer: tanh of the two projections plus bias, maximised over the 128 rows, projected once
    more, plus the second bias row. -/
def out0_9 (x0 x1 : Vec F S4x128x768 .f32) (x2 x3 : Vec F S768x768 .f32) (x4 : Vec F S1x768 .f32)
    (x5 x6 x7 : Vec F S768x768 .f32) (x8 : Vec F S1x768 .f32) : Vec F S4x768 .f32 :=
  View.canon [⟨rS4x768, k0_pay1 (k0_pay7 (View.ld x0 rS4x128x768) (View.ld x1 rS4x128x768) (View.ld x2 rS768x768)
    (View.ld x3 rS768x768) (View.ld x7 rS768x768) (View.ld x4 rS1x768)) (View.ld x8 rS1x768)⟩]

/-- The first projection's buffer: the second activation times the first weight slice. -/
def out0_10 (x0 x1 : Vec F S4x128x768 .f32) (x2 x3 : Vec F S768x768 .f32) (x4 : Vec F S1x768 .f32)
    (x5 x6 x7 : Vec F S768x768 .f32) (x8 : Vec F S1x768 .f32) : Vec F S4x128x768 .f32 :=
  View.canon [⟨rS4x128x768, k0_pay2 (k0_pay4 (View.ld x1 rS4x128x768)) (k0_pay5 (View.ld x5 rS768x768))⟩]

/-- The second projection's buffer: the second activation times the second weight slice. -/
def out0_11 (x0 x1 : Vec F S4x128x768 .f32) (x2 x3 : Vec F S768x768 .f32) (x4 : Vec F S1x768 .f32)
    (x5 x6 x7 : Vec F S768x768 .f32) (x8 : Vec F S1x768 .f32) : Vec F S4x128x768 .f32 :=
  View.canon [⟨rS4x128x768, k0_pay3 (k0_pay4 (View.ld x1 rS4x128x768)) (k0_pay6 (View.ld x6 rS768x768))⟩]

/-- One whole-buffer piece covers the buffer. -/
theorem cover_S4x768 (p : Vec F S4x768 .f32) (y : S4x768.Idx) :
    ∃ pc ∈ ([⟨rS4x768, p⟩] : List (View.Piece (Elt F) S4x768 .f32)), y ∈ pc.1.set :=
  View.cover_of_tiled [⟨rS4x768, p⟩] S4x768.size (by rfl) y

theorem cover_S4x128x768 (p : Vec F S4x128x768 .f32) (y : S4x128x768.Idx) :
    ∃ pc ∈ ([⟨rS4x128x768, p⟩] : List (View.Piece (Elt F) S4x128x768 .f32)), y ∈ pc.1.set :=
  View.cover_of_tiled [⟨rS4x128x768, p⟩] S4x128x768.size (by rfl) y

/-! ## Second region: the output block after the body -/

/-- The result block: the pairwise sum of the two projections' rows plus the additive term, normalised along the last
    axis, scaled and shifted, passed through the exponential-linear unit, read out through the weight and bias, squashed
    by the logistic function and multiplied by the product of the two mask blocks. -/
def out1_9 (x0 : Vec F S4x16x768 .f32) (x1 : Vec F S4x32x768 .f32) (x2 : Vec F S4x768 .f32) (x3 x4 : Vec F S1x768 .f32)
    (x5 : Vec F S24x768 .f32) (x6 : Vec F S1x24 .f32) (x7 : Vec F S16x4 .f32) (x8 : Vec F S32x4 .f32) : Vec F S4x16x32x24 .f32 :=
  View.canon [⟨rS4x16x32x24, k1_pay1 (k1_pay2 (View.ld x0 rS4x16x768) (View.ld x1 rS4x32x768) (View.ld x2 rS4x768)
    (View.ld x3 rS1x768) (View.ld x4 rS1x768)) (Scalar.ofBits .f32 0x00000000#32) (View.ld x5 rS24x768) (View.ld x6 rS1x24)
    (View.ld x7 rS16x4) (View.ld x8 rS32x4)⟩]

theorem cover_S4x16x32x24 (p : Vec F S4x16x32x24 .f32) (y : S4x16x32x24.Idx) :
    ∃ pc ∈ ([⟨rS4x16x32x24, p⟩] : List (View.Piece (Elt F) S4x16x32x24 .f32)), y ∈ pc.1.set :=
  View.cover_of_tiled [⟨rS4x16x32x24, p⟩] S4x16x32x24.size (by rfl) y

end Cert.KernelIdeal.Hand

end
-- ==== Proof.KI.Dat0.lean ====
/-
  The proof data of region 0: at entry every windowed array holds what the region finds in it; after the body at a
  grid point each input window's buffer still holds the array's block at that point, and each output window's buffer
  holds the body's result on the input blocks. An input window is found at its block at every point, whether the
  pipeline fetched it there or not: when it did not, the block index has not moved since the last fetch.
-/
import proofs.«131939_j48103633715562_2_alg».proof.Proof.KI.Out

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-- The proof data: arrays as found; inputs kept at their blocks; outputs at the body's result; the invariant is the
    scoped rest and the generator register, untouched; nothing owed. Every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t) (iblk0 V c 8 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

end Cert.KernelIdeal.Hand

end
-- ==== Proof.KI.Dat1.lean ====
/-
  The proof data of region 1: at entry every windowed array holds what the region finds in it; after the body at a
  grid point each input window's buffer still holds the array's block at that point, and each output window's buffer
  holds the body's result on the input blocks. An input window is found at its block at every point, whether the
  pipeline fetched it there or not: when it did not, the block index has not moved since the last fetch.
-/
import proofs.«131939_j48103633715562_2_alg».proof.Proof.KI.Out

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-- The proof data: arrays as found; inputs kept at their blocks; outputs at the body's result; the invariant is the
    scoped rest and the generator register, untouched; nothing owed. The mask array is handed to two input windows: each holds one half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q w := match w with
    | ⟨7, _⟩ => fullShare.left
    | ⟨8, _⟩ => fullShare.right
    | _ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

end Cert.KernelIdeal.Hand

end
-- ==== Proof.KI.Vals.lean ====
/-
  The contents of a core's buffers at each boundary of @main: at launch; after the host operations before the first
  region (slices of the two weights, the five row reshapes, the two activation transposes); after the first region
  (its three result arrays at what its single grid point wrote back); after the second region (its result array at
  what its 32 grid points wrote back, block by block); after the final transpose.
-/
import proofs.«131939_j48103633715562_2_alg».proof.Proof.KI.Dat0
import proofs.«131939_j48103633715562_2_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffers at launch. -/
abbrev W0 : Dev nD → Valuation τ sig (Elt F) := fun c b => m ((c : Dev nD), b)
/-- After the host operations before the first region. -/
abbrev W1 : Dev nD → Valuation τ sig (Elt F) := fun c => StableHlo.after hostOps0 (W0 m c)
/-- The same read at the TensorCore's references. -/
abbrev V1 : (c : Dev nD) → (b : Ref sig .tc) → Buf (Elt F) ((c : Thread nD τ).loc b) := fun c b => W1 m c b
/-- After the first region: its arrays at what the pipeline leaves, every other buffer as entered. -/
def W2 (c : Dev nD) : Valuation τ sig (Elt F) :=
  Pipeline.withArrays spec0 c (W1 m c) fun w => (dat0 (V1 m) c).arrAt w cfg0.N
abbrev V2 : (c : Dev nD) → (b : Ref sig .tc) → Buf (Elt F) ((c : Thread nD τ).loc b) := fun c b => W2 m c b
/-- After the second region: its result array at what the pipeline leaves, every other buffer as entered. -/
def W3 (c : Dev nD) : Valuation τ sig (Elt F) :=
  Function.update (W2 m c) (Proc.devRef .tc main_v13) ((dat1 (V2 m) c).arrAt 9 cfg1.N)
abbrev V3 : (c : Dev nD) → (b : Ref sig .tc) → Buf (Elt F) ((c : Thread nD τ).loc b) := fun c b => W3 m c b
/-- After the final transpose. -/
abbrev W4 : Dev nD → Valuation τ sig (Elt F) := fun c => StableHlo.after hostOps2 (W3 m c)

theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

theorem W3_v13 (c : Dev nD) : W3 m c (Proc.devRef .tc main_v13) = (dat1 (V2 m) c).arrAt 9 cfg1.N := by
  unfold W3; exact Function.update_self _ _ _
theorem W3_of_ne (c : Dev nD) (b : Ref sig .tc) (hb : b ≠ main_v13) :
    W3 m c (Proc.devRef .tc b) = W2 m c (Proc.devRef .tc b) := by
  unfold W3; exact Function.update_of_ne (StableHlo.devRef_ne_of_ne hb) _ _

end Cert.KernelIdeal.Hand

end
-- ==== Proof.KI.Body0.lean ====
import proofs.«131939_j48103633715562_2_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # The first kernel body's triple

The first region runs its body at a single grid point. Every window is as large as its staging buffer, so every
access goes through the rectangle that is the whole buffer: the body reads the nine input buffers, forms three
values from what it read, and stores each of them once, whole, into its own output buffer. What an output buffer
holds afterwards is therefore the canonical contents of that one store (`out0_9`, `out0_10`, `out0_11`), and a
single whole-buffer piece covers the buffer. The body also reads each output buffer just before storing into it;
the value read is not used. -/

set_option maxHeartbeats 4000000 in
/-- Run on whole staging buffers — the nine inputs holding `x0 … x8`, the three outputs holding anything —
    the body ends with the inputs unchanged and each output holding `out0_W` of the inputs. -/
theorem sound_kernel0 (c : Dev nD) (E : Set ℕ) (i : grid0.Coords)
    (arg1 : Memref sig .tc .vmem S4x128x768 .f32) (harg1 : arg1.IsWhole)
    (arg2 : Memref sig .tc .vmem S4x128x768 .f32) (harg2 : arg2.IsWhole)
    (arg3 : Memref sig .tc .vmem S768x768 .f32) (harg3 : arg3.IsWhole)
    (arg4 : Memref sig .tc .vmem S768x768 .f32) (harg4 : arg4.IsWhole)
    (arg5 : Memref sig .tc .vmem S1x768 .f32) (harg5 : arg5.IsWhole)
    (arg6 : Memref sig .tc .vmem S768x768 .f32) (harg6 : arg6.IsWhole)
    (arg7 : Memref sig .tc .vmem S768x768 .f32) (harg7 : arg7.IsWhole)
    (arg8 : Memref sig .tc .vmem S768x768 .f32) (harg8 : arg8.IsWhole)
    (arg9 : Memref sig .tc .vmem S1x768 .f32) (harg9 : arg9.IsWhole)
    (arg10 : Memref sig .tc .vmem S4x768 .f32) (harg10 : arg10.IsWhole)
    (arg11 : Memref sig .tc .vmem S4x128x768 .f32) (harg11 : arg11.IsWhole)
    (arg12 : Memref sig .tc .vmem S4x128x768 .f32) (harg12 : arg12.IsWhole)
    (x0 : Vec F S4x128x768 .f32) (x1 : Vec F S4x128x768 .f32) (x2 x3 : Vec F S768x768 .f32)
    (x4 : Vec F S1x768 .f32) (x5 x6 x7 : Vec F S768x768 .f32) (x8 : Vec F S1x768 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ owns (c : Thread nD τ) arg6 fullShare x5
        ∗ owns (c : Thread nD τ) arg7 fullShare x6 ∗ owns (c : Thread nD τ) arg8 fullShare x7
        ∗ owns (c : Thread nD τ) arg9 fullShare x8
        ∗ (∃ d, owns (c : Thread nD τ) arg10 fullShare d) ∗ (∃ d, owns (c : Thread nD τ) arg11 fullShare d)
        ∗ (∃ d, owns (c : Thread nD τ) arg12 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4 ∗ owns (c : Thread nD τ) arg6 fullShare x5
            ∗ owns (c : Thread nD τ) arg7 fullShare x6 ∗ owns (c : Thread nD τ) arg8 fullShare x7
            ∗ owns (c : Thread nD τ) arg9 fullShare x8
            ∗ owns (c : Thread nD τ) arg10 fullShare (out0_9 x0 x1 x2 x3 x4 x5 x6 x7 x8)
            ∗ owns (c : Thread nD τ) arg11 fullShare (out0_10 x0 x1 x2 x3 x4 x5 x6 x7 x8)
            ∗ owns (c : Thread nD τ) arg12 fullShare (out0_11 x0 x1 x2 x3 x4 x5 x6 x7 x8)) -∗ K ⟨⟩))
      ⊢ wp frame (wpE (defs₀ (F := F)) Variants.none c none) E
          (cc0__pre_kernel i arg1 harg1 arg2 harg2 arg3 harg3 arg4 harg4 arg5 harg5 arg6 harg6 arg7 harg7 arg8 harg8
            arg9 harg9 arg10 harg10 arg11 harg11 arg12 harg12) K := by
  simp only [cc0__pre_kernel_eq_skeleton]; unfold cc0__pre_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, ⟨%d10, %f10, -, H10⟩, ⟨%d11, %f11, -, H11⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists _; isplitr
    swap; · iexact H9
    ipureintro
    exact View.read_writes_eq_canon _ _ _ (cover_S4x768 _)
  isplitl [H10]
  · iexists _; isplitr
    swap; · iexact H10
    ipureintro
    exact View.read_writes_eq_canon _ _ _ (cover_S4x128x768 _)
  iexists _; isplitr
  swap; · iexact H11
  ipureintro
  exact View.read_writes_eq_canon _ _ _ (cover_S4x128x768 _)

end Cert.KernelIdeal.Hand

end
-- ==== Proof.KI.Obl0.lean ====
/-
  The body obligation of region 0: at every grid point the body, run on the windows' current buffers — each input's
  holding its block, each output's holding anything — leaves the inputs in place and each output at the body's result
  on the input blocks; the invariant and the core's dues pass through untouched.
-/
import proofs.«131939_j48103633715562_2_alg».proof.Proof.KI.Dat0
import proofs.«131939_j48103633715562_2_alg».proof.Proof.KI.Body0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Body1.lean ====
import proofs.«131939_j48103633715562_2_alg».proof.Proof.KI.Out

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! # The second kernel body's triple

The second region runs its body at each of its 8 × 4 grid points; the body does not look at the point. Every window
is as large as its staging buffer, so every access goes through the rectangle that is the whole buffer: the body
reads the nine input buffers, forms one value from what it read, and stores it once, whole, into the output buffer.
What the output buffer holds afterwards is the canonical contents of that one store (`out1_9`), and a single
whole-buffer piece covers the buffer. The body also reads the output buffer just before storing into it; the value
read is not used. -/

set_option maxHeartbeats 4000000 in
/-- Run on whole staging buffers — the nine inputs holding `x0 … x8`, the output holding anything — the body
    ends with the inputs unchanged and the output holding `out1_9` of the inputs, at every grid point. -/
theorem sound_kernel1 (c : Dev nD) (E : Set ℕ) (i : grid1.Coords)
    (arg2 : Memref sig .tc .vmem S4x16x768 .f32) (harg2 : arg2.IsWhole)
    (arg3 : Memref sig .tc .vmem S4x32x768 .f32) (harg3 : arg3.IsWhole)
    (arg4 : Memref sig .tc .vmem S4x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S24x768 .f32) (harg7 : arg7.IsWhole)
    (arg8 : Memref sig .tc .vmem S1x24 .f32) (harg8 : arg8.IsWhole)
    (arg9 : Memref sig .tc .vmem S16x4 .f32) (harg9 : arg9.IsWhole)
    (arg10 : Memref sig .tc .vmem S32x4 .f32) (harg10 : arg10.IsWhole)
    (arg11 : Memref sig .tc .vmem S4x16x32x24 .f32) (harg11 : arg11.IsWhole)
    (x0 : Vec F S4x16x768 .f32) (x1 : Vec F S4x32x768 .f32) (x2 : Vec F S4x768 .f32) (x3 x4 : Vec F S1x768 .f32)
    (x5 : Vec F S24x768 .f32) (x6 : Vec F S1x24 .f32) (x7 : Vec F S16x4 .f32) (x8 : Vec F S32x4 .f32)
    (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare x6 ∗ owns (c : Thread nD τ) arg9 fullShare x7
        ∗ owns (c : Thread nD τ) arg10 fullShare x8
        ∗ (∃ d, owns (c : Thread nD τ) arg11 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare x6 ∗ owns (c : Thread nD τ) arg9 fullShare x7
            ∗ owns (c : Thread nD τ) arg10 fullShare x8
            ∗ owns (c : Thread nD τ) arg11 fullShare (out1_9 x0 x1 x2 x3 x4 x5 x6 x7 x8)) -∗ K ⟨⟩))
      ⊢ wp frame (wpE (defs₀ (F := F)) Variants.none c none) E
          (cc1__main_kernel i arg2 harg2 arg3 harg3 arg4 harg4 arg5 harg5 arg6 harg6 arg7 harg7 arg8 harg8
            arg9 harg9 arg10 harg10 arg11 harg11) K := by
  simp only [cc1__main_kernel_eq_skeleton]; unfold cc1__main_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%f6, %hf6, H6⟩, ⟨%f7, %hf7, H7⟩, ⟨%f8, %hf8, H8⟩, ⟨%d9, %f9, -, H9⟩, Hk⟩
  subst hf0 hf1 hf2 hf3 hf4 hf5 hf6 hf7 hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_S4x16x32x24 _)

end Cert.KernelIdeal.Hand

end
-- ==== Proof.KI.Obl1.lean ====
/-
  The body obligation of region 1: at every grid point the body, run on the windows' current buffers — each input's
  holding its block, each output's holding anything — leaves the inputs in place and each output at the body's result
  on the input blocks; the invariant and the core's dues pass through untouched.
-/
import proofs.«131939_j48103633715562_2_alg».proof.Proof.KI.Dat1
import proofs.«131939_j48103633715562_2_alg».proof.Proof.KI.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Share1.lean ====
/-
  The second region is handed the mask array through two input windows. The core holds each windowed array whole
  when the region is entered; the mask is then split into two halves, one per window, and put together again when the
  region is left. Every other windowed array goes to its one window whole.

  Counting: the ten windows name nine distinct arrays; leaving the second mask window out, the other nine windows
  name them one to one.
-/
import proofs.«131939_j48103633715562_2_alg».proof.Proof.KI.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The arrays the ten windows name are those the nine windows other than the second mask window name, -/
theorem arrs_eq1 : Finset.univ.image (Pipeline.arrRef spec1)
    = ((Finset.univ : Finset (Fin 10)).erase 8).image (Pipeline.arrRef spec1) := by decide

/-- and those nine name them one to one. -/
theorem arrs_inj1 : ∀ x ∈ (Finset.univ : Finset (Fin 10)).erase 8, ∀ y ∈ (Finset.univ : Finset (Fin 10)).erase 8,
    Pipeline.arrRef spec1 x = Pipeline.arrRef spec1 y → x = y := by decide

section
variable (c : Dev nD) (X : (b : Ref sig .tc) → Buf (Elt F) ((c : Thread nD τ).loc b))

/-- The distinct windowed arrays held whole: the mask, and the arrays of the eight windows that are neither mask window. -/
theorem arrBufs_split1 :
    (Pipeline.arrBufs spec1 c X : sProp 𝕄)
      = iprop((((c : Thread nD τ).loc (Pipeline.arrRef spec1 7)) ↦{fullShare} X (Pipeline.arrRef spec1 7))
          ∗ bigSep (((Finset.univ : Finset (Fin 10)).erase 8).erase 7)
              fun w => (((c : Thread nD τ).loc (Pipeline.arrRef spec1 w)) ↦{fullShare} X (Pipeline.arrRef spec1 w))) := by
  unfold Pipeline.arrBufs
  rw [arrs_eq1]
  have h : bigSep (((Finset.univ : Finset (Fin 10)).erase 8).image (Pipeline.arrRef spec1))
        (fun b => ((((c : Thread nD τ).loc b) ↦{fullShare} X b) : sProp 𝕄))
      = bigSep ((Finset.univ : Finset (Fin 10)).erase 8)
        (fun w => ((((c : Thread nD τ).loc (Pipeline.arrRef spec1 w)) ↦{fullShare} X (Pipeline.arrRef spec1 w)) : sProp 𝕄)) :=
    Finset.fold_image arrs_inj1
  rw [h]
  exact bigSep_erase (i := (7 : Fin 10)) (by decide)

end

section
variable (V : (c : Dev nD) → (b : Ref sig .tc) → Buf (Elt F) ((c : Thread nD τ).loc b)) (c : Dev nD)

/-- Every window other than the two mask windows holds its array whole. -/
theorem share_full1 (w : Fin 10) (hw : w ∈ ((Finset.univ : Finset (Fin 10)).erase 8).erase 7) :
    (dat1 V c).share w = fullShare := by
  fin_cases w <;> first | rfl | exact absurd hw (by decide)

/-- The pipeline's arrays at contents `G`, window by window: the second mask window at the right half, the first at
    the left half, the other eight whole. -/
theorem arrays_split1 (G : (w : Fin cfg1.W) → Buf (Elt F) ((cfg1.win w).arr.view.loc (c.tc : Thread nD τ))) :
    ((dat1 V c).arrays G : sProp 𝕄)
      = iprop((((c : Thread nD τ).loc (Pipeline.arrRef spec1 8)) ↦{fullShare.right} G 8)
          ∗ (((c : Thread nD τ).loc (Pipeline.arrRef spec1 7)) ↦{fullShare.left} G 7)
          ∗ bigSep (((Finset.univ : Finset (Fin 10)).erase 8).erase 7)
              fun w => (((c : Thread nD τ).loc (Pipeline.arrRef spec1 w)) ↦{fullShare} G w)) := by
  unfold Dat.arrays
  rw [bigSep_univ_split (8 : Fin 10), bigSep_erase (i := (7 : Fin 10)) (s := Finset.univ.erase 8) (by decide)]
  rw [(arr_whole1 8).set_eq_univ]
  refine congrArg₂ _ rfl (congrArg₂ _ rfl ?_)
  exact bigSep_congr fun w hw => by
    rw [(arr_whole1 w).set_eq_univ, share_full1 V c w hw]

/-- Entering the region: the nine arrays held whole give every window its array, the mask halved between its two. -/
theorem arrays_in1 : (Pipeline.arrBufs spec1 c (V c) : sProp 𝕄) ⊢ (dat1 V c).arrays ((dat1 V c).arrAt · 0) := by
  rw [arrBufs_split1, arrays_split1]
  iintro ⟨H7, HS⟩
  ihave H := (pointsTo_share (PosShare.mem_left_op_right fullShare)).1 $$ H7
  icases H with ⟨Hl, Hr⟩
  isplitl [Hr]; · iexact Hr
  isplitl [Hl]; · iexact Hl
  iexact HS

/-- Leaving the region: every window's array at what the pipeline leaves — an input array as found, both mask
    halves alike — makes the nine arrays whole again, at any contents `X'` that agree with what the pipeline leaves. -/
theorem arrays_out1 (X' : (b : Ref sig .tc) → Buf (Elt F) ((c : Thread nD τ).loc b))
    (hX' : ∀ w : Fin cfg1.W, (dat1 V c).arrAt w cfg1.N = X' (Pipeline.arrRef spec1 w)) :
    ((dat1 V c).arrays ((dat1 V c).arrAt · cfg1.N) : sProp 𝕄) ⊢ Pipeline.arrBufs spec1 c X' := by
  rw [arrBufs_split1, arrays_split1]
  have hS : bigSep (((Finset.univ : Finset (Fin 10)).erase 8).erase 7)
        (fun w => ((((c : Thread nD τ).loc (Pipeline.arrRef spec1 w)) ↦{fullShare} (dat1 V c).arrAt w cfg1.N) : sProp 𝕄))
      = bigSep (((Finset.univ : Finset (Fin 10)).erase 8).erase 7)
        (fun w => ((((c : Thread nD τ).loc (Pipeline.arrRef spec1 w)) ↦{fullShare} X' (Pipeline.arrRef spec1 w)) : sProp 𝕄)) :=
    bigSep_congr fun w _ => by rw [hX' w]
  have h8 : (dat1 V c).arrAt 8 cfg1.N = X' (Pipeline.arrRef spec1 7) := hX' 8
  have h7 : (dat1 V c).arrAt 7 cfg1.N = X' (Pipeline.arrRef spec1 7) := hX' 7
  iintro ⟨Hr, Hl, HS⟩
  isplitl [Hr Hl]
  · iapply (pointsTo_share (PosShare.mem_left_op_right fullShare)).2
    isplitl [Hl]
    · rw [← h7]; iexact Hl
    · rw [← h8]; iexact Hr
  · rw [← hS]; iexact HS

end

end Cert.KernelIdeal.Hand

end
-- ==== Proof.KI.Run.lean ====
/-
  @main as four segments — the host operations before the first region, the two regions, the final transpose — and
  the run: from any launch memory with zero counters every weakly fair execution terminates, nothing faults, and the
  final memory holds every unscoped buffer at the contents the boundaries' fold names.

  Between segments a core holds every unscoped buffer whole at the boundary's contents, its generator register at
  some state, and owes nothing. A region takes its windowed arrays out of that, runs its pipeline over the proof data,
  and puts the arrays back at what the pipeline leaves; everything else bypasses it. The second region's mask array
  is halved between its two windows on the way in and rejoined on the way out.
-/
import proofs.«131939_j48103633715562_2_alg».proof.Proof.KI.Vals
import proofs.«131939_j48103633715562_2_alg».proof.Proof.KI.Obl0
import proofs.«131939_j48103633715562_2_alg».proof.Proof.KI.Obl1
import proofs.«131939_j48103633715562_2_alg».proof.Proof.KI.Share1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

abbrev adm : (p : Fin 2) → (pcfgs (F := F) p).Adm := fun p => (cfgs p).toPCfg_adm

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps2_fresh' : (hostOps2 : List (HloOp τ sig (Elt F))).Forall fun op => op.fresh = ∅ := by
  simp only [List.Forall]; repeat' constructor

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first region: entered from every unscoped buffer at the contents after the first host operations, left with
    its three result arrays at what its grid point wrote back. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At the second region's exit each of its arrays holds what the pipeline leaves: the result array by definition of
    the boundary's contents, an input array because no point writes it back. -/
theorem hF1 (c : Dev nD) (w : Fin cfg1.W) : (dat1 (V2 m) c).arrAt w cfg1.N = V3 m c (Pipeline.arrRef spec1 w) := by
  fin_cases w
  case «9» => exact (W3_v13 m c).symm
  all_goals
    refine ((dat1 (V2 m) c).arrAt_in _ rfl _).trans ?_
    rw [A_eq1]
    exact (W3_of_ne m c _ (by decide)).symm

set_option backward.isDefEq.respectTransparency.types false in
/-- The second region: entered from the contents the first region leaves, left with its result array at what its
    grid points wrote back. The mask array is halved between its two windows on the way in and rejoined on the way out. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (V2 m c)
  hentry c := by
    rw [Pipeline.ownSems0_none]
    have hsplit : (StableHlo.held (c : Thread nD τ) (Pipeline.ucRefs τ sig) (W2 m c) : sProp 𝕄)
        ⊢ iprop((dat1 (V2 m) c).arrays ((dat1 (V2 m) c).arrAt · 0)
            ∗ Pipeline.unscopedRest (Ix := Unit) (Name := ℕ) (U := UR sig nD τ) (Lvl := ℕ) spec1 c (V2 m c)) := by
      rw [← Pipeline.unscopedBufs_held (Ix := Unit) (Name := ℕ) (U := UR sig nD τ) (Lvl := ℕ) c (W2 m c),
        Pipeline.unscopedBufs_split₀ cfgs 1 (by decide) c (V2 m c)]
      exact sep_mono (arrays_in1 (V2 m) c) .rfl
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hrest : (Pipeline.unscopedRest (Ix := Unit) (Name := ℕ) (U := UR sig nD τ) (Lvl := ℕ) spec1 c (V2 m c) : sProp 𝕄)
        = Pipeline.unscopedRest spec1 c (V3 m c) := by
      unfold Pipeline.unscopedRest
      exact bigSep_congr fun b hb => by
        rw [show V3 m c b = V2 m c b from W3_of_ne m c b fun e => (Finset.mem_sdiff.mp hb).2
          (Finset.mem_image.mpr ⟨9, Finset.mem_univ _, e ▸ rfl⟩)]
    have hjoin : iprop((dat1 (V2 m) c).arrays ((dat1 (V2 m) c).arrAt · cfg1.N)
          ∗ Pipeline.unscopedRest (Ix := Unit) (Name := ℕ) (U := UR sig nD τ) (Lvl := ℕ) spec1 c (V2 m c))
        ⊢ (StableHlo.held (c : Thread nD τ) (Pipeline.ucRefs τ sig) (W3 m c) : sProp 𝕄) := by
      rw [← Pipeline.unscopedBufs_held (Ix := Unit) (Name := ℕ) (U := UR sig nD τ) (Lvl := ℕ) c (W3 m c),
        Pipeline.unscopedBufs_split₀ cfgs 1 (by decide) c (V3 m c), hrest]
      exact sep_mono (arrays_out1 (V2 m) c (V3 m c) (hF1 m c)) .rfl
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh' (W0 m)),
    .region (reg0 m),
    .region (reg1 m),
    .host (hseg hostOps2 hostOps2_sub hostOps2_fresh' (W3 m)) ]

theorem main_run (c : Dev nD) : main (F := F) c = Pipeline.Seg.run (segs m) := (main_chain c).trans (by chain_rfl)

set_option backward.isDefEq.respectTransparency.types false in
/-- THE RUN: every weakly fair execution of @main from `m` with zero counters terminates, nothing faulting, and the
    final memory holds every unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun c => by
      show iprop(StableHlo.held (c : Thread nD τ) (Pipeline.ucRefs τ sig) (W4 m c) ∗ R c) ⊢ _
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h c => h c)

end Cert.KernelIdeal.Hand

end
-- ==== Proof.KI.Frame.lean ====
/-
  The frame: no segment of @main writes an argument array — the host operations write only their own results, the
  regions write back only their result arrays — so each argument reaches the end as launched; and the result array at
  the end is the last boundary's contents of the final transpose's output.
-/
import proofs.«131939_j48103633715562_2_alg».proof.Proof.KI.Run
import proofs.«131939_j48103633715562_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-- A buffer that no host operation writes and that is no region's windowed result reaches the end as launched. -/
theorem W4_arg (c : Dev nD) (r : Ref sig .tc) (h2 : r ∉ hostOps2_W) (h13 : r ≠ main_v13)
    (h0 : ∀ w, Pipeline.arrRef spec0 w ≠ r) (hh : r ∉ hostOps0_W) :
    W4 m c (Proc.devRef .tc r) = m ((c : Thread nD τ).loc r) :=
  (StableHlo.after_of_writes_sub hostOps2 _ hostOps2_writes h2).trans <|
    (W3_of_ne m c r h13).trans <| (W2_of_ne m c r h0).trans <|
      StableHlo.after_of_writes_sub hostOps0 _ hostOps0_writes hh

/-- The run with the result named and the arguments unchanged. -/
theorem run_res : θ_run defs (onTc (τ := τ) (main (F := F))) ⟨m, fun _ => 0, ρ⟩ (fun r => ∀ c : Dev nD,
      r.2.mem ((c.tc : Thread nD τ).loc main_v14) = W4 m c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨h c _ (mem_uc main_v14 (by decide)),
      (h c _ (mem_uc main_arg0 (by decide))).trans (W4_arg m c main_arg0 (by decide) (by decide) (by decide) (by decide)),
      (h c _ (mem_uc main_arg1 (by decide))).trans (W4_arg m c main_arg1 (by decide) (by decide) (by decide) (by decide)),
      (h c _ (mem_uc main_arg2 (by decide))).trans (W4_arg m c main_arg2 (by decide) (by decide) (by decide) (by decide)),
      (h c _ (mem_uc main_arg3 (by decide))).trans (W4_arg m c main_arg3 (by decide) (by decide) (by decide) (by decide)),
      (h c _ (mem_uc main_arg4 (by decide))).trans (W4_arg m c main_arg4 (by decide) (by decide) (by decide) (by decide)),
      (h c _ (mem_uc main_arg5 (by decide))).trans (W4_arg m c main_arg5 (by decide) (by decide) (by decide) (by decide)),
      (h c _ (mem_uc main_arg6 (by decide))).trans (W4_arg m c main_arg6 (by decide) (by decide) (by decide) (by decide)),
      (h c _ (mem_uc main_arg7 (by decide))).trans (W4_arg m c main_arg7 (by decide) (by decide) (by decide) (by decide)),
      (h c _ (mem_uc main_arg8 (by decide))).trans (W4_arg m c main_arg8 (by decide) (by decide) (by decide) (by decide)),
      (h c _ (mem_uc main_arg9 (by decide))).trans (W4_arg m c main_arg9 (by decide) (by decide) (by decide) (by decide)),
      (h c _ (mem_uc main_arg10 (by decide))).trans (W4_arg m c main_arg10 (by decide) (by decide) (by decide) (by decide))⟩) (run_all m ρ)

/-- The frame claim at any instance of the float operations. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2) (run_res m ρ)

end Cert.KernelIdeal.Hand

end
-- ==== Proof.RefRun.lean ====
import proofs.«131939_j48103633715562_2_alg».proof.ReferenceIdeal
import proofs.«131939_j48103633715562_2_alg».proof.Proof.Gen.ReferenceIdeal
import Idealize.ShloMosaic.Lib.StableHlo.Run

/-!
# The reference program's run, and its result as a pure term

The reference is a host program with no kernel: a straight line of array operations. Every weakly fair execution
terminates, and the result buffer then holds a pure function `res` of the eleven argument arrays, which are left
unchanged. `res` is built stage by stage, one definition per operation, so that each stage can be read at an index
on its own.
-/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The operations, in order

The program calls one outlined function (the exponential-linear unit), which calls two more (a selection
against a scalar and a selection between two arrays). A call runs the callee's operations on the call's own
buffers, so the program is one straight line of ninety-two operations: the fifteen of the outlined functions
stand where the call stood, over the call's buffer record. -/

/-- The operand of the outlined exponential-linear function, as a typed reference. -/
abbrev elu_arg : TRef sig ⟨S128x128x4x768, .f32⟩ := .of main_v50

/-- The program's operations in order, the calls unfolded. -/
abbrev ops : List (HloOp τ sig (Elt F)) :=
  [ unary main_arg3 main_v0 ((extractStridedSlice S768x768 ![0, 0] · slices_S768x1536_S768x768_0_0) : (⟨S768x1536, .f32⟩ : BufTy).Contents (Elt F) → (⟨S768x768, .f32⟩ : BufTy).Contents (Elt F)),
    unary main_arg3 main_v1 ((extractStridedSlice S768x768 ![0, 768] · slices_S768x1536_S768x768_0_768) : (⟨S768x1536, .f32⟩ : BufTy).Contents (Elt F) → (⟨S768x768, .f32⟩ : BufTy).Contents (Elt F)),
    binary main_arg1 main_v0 main_v2 ((fun l r => Host.dotGeneral dot_S128x4x768_S768x768_S128x4x768_2_1_01_0_n_n none l r) : (⟨S128x4x768, .f32⟩ : BufTy).Contents (Elt F) → (⟨S768x768, .f32⟩ : BufTy).Contents (Elt F) → (⟨S128x4x768, .f32⟩ : BufTy).Contents (Elt F)),
    binary main_arg0 main_v1 main_v3 ((fun l r => Host.dotGeneral dot_S128x4x768_S768x768_S128x4x768_2_1_01_0_n_n none l r) : (⟨S128x4x768, .f32⟩ : BufTy).Contents (Elt F) → (⟨S768x768, .f32⟩ : BufTy).Contents (Elt F) → (⟨S128x4x768, .f32⟩ : BufTy).Contents (Elt F)),
    binary main_v2 main_v3 main_v4 (addf : (⟨S128x4x768, .f32⟩ : BufTy).Contents (Elt F) → (⟨S128x4x768, .f32⟩ : BufTy).Contents (Elt F) → (⟨S128x4x768, .f32⟩ : BufTy).Contents (Elt F)),
    unary main_arg4 main_v5 (broadcastInDim S1x1x768 ![2] bcast_S768_S1x1x768_2 : (⟨S768, .f32⟩ : BufTy).Contents (Elt F) → (⟨S1x1x768, .f32⟩ : BufTy).Contents (Elt F)),
    unary main_v5 main_v6 (broadcastInDim S128x4x768 ![0, 1, 2] bcast_S1x1x768_S128x4x768_0_1_2 : (⟨S1x1x768, .f32⟩ : BufTy).Contents (Elt F) → (⟨S128x4x768, .f32⟩ : BufTy).Contents (Elt F)),
    binary main_v4 main_v6 main_v7 (addf : (⟨S128x4x768, .f32⟩ : BufTy).Contents (Elt F) → (⟨S128x4x768, .f32⟩ : BufTy).Contents (Elt F) → (⟨S128x4x768, .f32⟩ : BufTy).Contents (Elt F)),
    unary main_v7 main_v8 (Host.tanh : (⟨S128x4x768, .f32⟩ : BufTy).Contents (Elt F) → (⟨S128x4x768, .f32⟩ : BufTy).Contents (Elt F)),
    nullary main_cst (constant S_ .f32 0xFF800000#32),
    binary main_v8 main_cst main_v9 ((fun x v => Host.reduce FloatOps.maximumf x v reducesTo_S128x4x768_S4x768_d0 h_S_) : (⟨S128x4x768, .f32⟩ : BufTy).Contents (Elt F) → (⟨S_, .f32⟩ : BufTy).Contents (Elt F) → (⟨S4x768, .f32⟩ : BufTy).Contents (Elt F)),
    unary main_arg5 main_v10 ((extractStridedSlice S768x768 ![0, 0] · slices_S768x2304_S768x768_0_0) : (⟨S768x2304, .f32⟩ : BufTy).Contents (Elt F) → (⟨S768x768, .f32⟩ : BufTy).Contents (Elt F)),
    unary main_arg5 main_v11 ((extractStridedSlice S768x768 ![0, 768] · slices_S768x2304_S768x768_0_768) : (⟨S768x2304, .f32⟩ : BufTy).Contents (Elt F) → (⟨S768x768, .f32⟩ : BufTy).Contents (Elt F)),
    unary main_arg5 main_v12 ((extractStridedSlice S768x768 ![0, 1536] · slices_S768x2304_S768x768_0_1536) : (⟨S768x2304, .f32⟩ : BufTy).Contents (Elt F) → (⟨S768x768, .f32⟩ : BufTy).Contents (Elt F)),
    binary main_arg0 main_v10 main_v13 ((fun l r => Host.dotGeneral dot_S128x4x768_S768x768_S128x4x768_2_1_01_0_n_n none l r) : (⟨S128x4x768, .f32⟩ : BufTy).Contents (Elt F) → (⟨S768x768, .f32⟩ : BufTy).Contents (Elt F) → (⟨S128x4x768, .f32⟩ : BufTy).Contents (Elt F)),
    binary main_arg0 main_v11 main_v14 ((fun l r => Host.dotGeneral dot_S128x4x768_S768x768_S128x4x768_2_1_01_0_n_n none l r) : (⟨S128x4x768, .f32⟩ : BufTy).Contents (Elt F) → (⟨S768x768, .f32⟩ : BufTy).Contents (Elt F) → (⟨S128x4x768, .f32⟩ : BufTy).Contents (Elt F)),
    binary main_v9 main_v12 main_v15 ((fun l r => Host.dotGeneral dot_S4x768_S768x768_S4x768_1_1_0_0_n_n none l r) : (⟨S4x768, .f32⟩ : BufTy).Contents (Elt F) → (⟨S768x768, .f32⟩ : BufTy).Contents (Elt F) → (⟨S4x768, .f32⟩ : BufTy).Contents (Elt F)),
    unary main_arg6 main_v16 (broadcastInDim S1x768 ![1] bcast_S768_S1x768_1 : (⟨S768, .f32⟩ : BufTy).Contents (Elt F) → (⟨S1x768, .f32⟩ : BufTy).Contents (Elt F)),
    unary main_v16 main_v17 (broadcastInDim S4x768 ![0, 1] bcast_S1x768_S4x768_0_1 : (⟨S1x768, .f32⟩ : BufTy).Contents (Elt F) → (⟨S4x768, .f32⟩ : BufTy).Contents (Elt F)),
    binary main_v15 main_v17 main_v18 (addf : (⟨S4x768, .f32⟩ : BufTy).Contents (Elt F) → (⟨S4x768, .f32⟩ : BufTy).Contents (Elt F) → (⟨S4x768, .f32⟩ : BufTy).Contents (Elt F)),
    unary main_v13 main_v19 (broadcastInDim S128x1x4x768 ![0, 2, 3] bcast_S128x4x768_S128x1x4x768_0_2_3 : (⟨S128x4x768, .f32⟩ : BufTy).Contents (Elt F) → (⟨S128x1x4x768, .f32⟩ : BufTy).Contents (Elt F)),
    unary main_v14 main_v20 (broadcastInDim S1x128x4x768 ![1, 2, 3] bcast_S128x4x768_S1x128x4x768_1_2_3 : (⟨S128x4x768, .f32⟩ : BufTy).Contents (Elt F) → (⟨S1x128x4x768, .f32⟩ : BufTy).Contents (Elt F)),
    unary main_v19 main_v21 (broadcastInDim S128x128x4x768 ![0, 1, 2, 3] bcast_S128x1x4x768_S128x128x4x768_0_1_2_3 : (⟨S128x1x4x768, .f32⟩ : BufTy).Contents (Elt F) → (⟨S128x128x4x768, .f32⟩ : BufTy).Contents (Elt F)),
    unary main_v20 main_v22 (broadcastInDim S128x128x4x768 ![0, 1, 2, 3] bcast_S1x128x4x768_S128x128x4x768_0_1_2_3 : (⟨S1x128x4x768, .f32⟩ : BufTy).Contents (Elt F) → (⟨S128x128x4x768, .f32⟩ : BufTy).Contents (Elt F)),
    binary main_v21 main_v22 main_v23 (addf : (⟨S128x128x4x768, .f32⟩ : BufTy).Contents (Elt F) → (⟨S128x128x4x768, .f32⟩ : BufTy).Contents (Elt F) → (⟨S128x128x4x768, .f32⟩ : BufTy).Contents (Elt F)),
    unary main_v18 main_v24 (broadcastInDim S1x1x4x768 ![2, 3] bcast_S4x768_S1x1x4x768_2_3 : (⟨S4x768, .f32⟩ : BufTy).Contents (Elt F) → (⟨S1x1x4x768, .f32⟩ : BufTy).Contents (Elt F)),
    unary main_v24 main_v25 (broadcastInDim S128x128x4x768 ![0, 1, 2, 3] bcast_S1x1x4x768_S128x128x4x768_0_1_2_3 : (⟨S1x1x4x768, .f32⟩ : BufTy).Contents (Elt F) → (⟨S128x128x4x768, .f32⟩ : BufTy).Contents (Elt F)),
    binary main_v23 main_v25 main_v26 (addf : (⟨S128x128x4x768, .f32⟩ : BufTy).Contents (Elt F) → (⟨S128x128x4x768, .f32⟩ : BufTy).Contents (Elt F) → (⟨S128x128x4x768, .f32⟩ : BufTy).Contents (Elt F)),
    nullary main_cst_0 (constant S_ .f32 0x00000000#32),
    binary main_v26 main_cst_0 main_v27 ((fun x v => Host.reduceAdd x v reducesTo_S128x128x4x768_S128x128x4_d3 h_S_) : (⟨S128x128x4x768, .f32⟩ : BufTy).Contents (Elt F) → (⟨S_, .f32⟩ : BufTy).Contents (Elt F) → (⟨S128x128x4, .f32⟩ : BufTy).Contents (Elt F)),
    unary main_v27 main_v28 (broadcastInDim S128x128x4x1 ![0, 1, 2] bcast_S128x128x4_S128x128x4x1_0_1_2 : (⟨S128x128x4, .f32⟩ : BufTy).Contents (Elt F) → (⟨S128x128x4x1, .f32⟩ : BufTy).Contents (Elt F)),
    nullary main_cst_1 (constant S_ .f32 0x44400000#32),
    unary main_cst_1 main_v29 (broadcastInDim S128x128x4x1 ![] bcast_S_S128x128x4x1 : (⟨S_, .f32⟩ : BufTy).Contents (Elt F) → (⟨S128x128x4x1, .f32⟩ : BufTy).Contents (Elt F)),
    binary main_v28 main_v29 main_v30 (Host.divf : (⟨S128x128x4x1, .f32⟩ : BufTy).Contents (Elt F) → (⟨S128x128x4x1, .f32⟩ : BufTy).Contents (Elt F) → (⟨S128x128x4x1, .f32⟩ : BufTy).Contents (Elt F)),
    unary main_v30 main_v31 (broadcastInDim S128x128x4x768 ![0, 1, 2, 3] bcast_S128x128x4x1_S128x128x4x768_0_1_2_3 : (⟨S128x128x4x1, .f32⟩ : BufTy).Contents (Elt F) → (⟨S128x128x4x768, .f32⟩ : BufTy).Contents (Elt F)),
    binary main_v26 main_v31 main_v32 (subf : (⟨S128x128x4x768, .f32⟩ : BufTy).Contents (Elt F) → (⟨S128x128x4x768, .f32⟩ : BufTy).Contents (Elt F) → (⟨S128x128x4x768, .f32⟩ : BufTy).Contents (Elt F)),
    binary main_v32 main_v32 main_v33 (mulf : (⟨S128x128x4x768, .f32⟩ : BufTy).Contents (Elt F) → (⟨S128x128x4x768, .f32⟩ : BufTy).Contents (Elt F) → (⟨S128x128x4x768, .f32⟩ : BufTy).Contents (Elt F)),
    nullary main_cst_2 (constant S_ .f32 0x00000000#32),
    binary main_v33 main_cst_2 main_v34 ((fun x v => Host.reduceAdd x v reducesTo_S128x128x4x768_S128x128x4_d3 h_S_) : (⟨S128x128x4x768, .f32⟩ : BufTy).Contents (Elt F) → (⟨S_, .f32⟩ : BufTy).Contents (Elt F) → (⟨S128x128x4, .f32⟩ : BufTy).Contents (Elt F)),
    unary main_v34 main_v35 (broadcastInDim S128x128x4x1 ![0, 1, 2] bcast_S128x128x4_S128x128x4x1_0_1_2 : (⟨S128x128x4, .f32⟩ : BufTy).Contents (Elt F) → (⟨S128x128x4x1, .f32⟩ : BufTy).Contents (Elt F)),
    nullary main_cst_3 (constant S_ .f32 0x44400000#32),
    unary main_cst_3 main_v36 (broadcastInDim S128x128x4x1 ![] bcast_S_S128x128x4x1 : (⟨S_, .f32⟩ : BufTy).Contents (Elt F) → (⟨S128x128x4x1, .f32⟩ : BufTy).Contents (Elt F)),
    binary main_v35 main_v36 main_v37 (Host.divf : (⟨S128x128x4x1, .f32⟩ : BufTy).Contents (Elt F) → (⟨S128x128x4x1, .f32⟩ : BufTy).Contents (Elt F) → (⟨S128x128x4x1, .f32⟩ : BufTy).Contents (Elt F)),
    unary main_v30 main_v38 (broadcastInDim S128x128x4x768 ![0, 1, 2, 3] bcast_S128x128x4x1_S128x128x4x768_0_1_2_3 : (⟨S128x128x4x1, .f32⟩ : BufTy).Contents (Elt F) → (⟨S128x128x4x768, .f32⟩ : BufTy).Contents (Elt F)),
    binary main_v26 main_v38 main_v39 (subf : (⟨S128x128x4x768, .f32⟩ : BufTy).Contents (Elt F) → (⟨S128x128x4x768, .f32⟩ : BufTy).Contents (Elt F) → (⟨S128x128x4x768, .f32⟩ : BufTy).Contents (Elt F)),
    nullary main_cst_4 (constant S_ .f32 0x3727C5AC#32),
    unary main_cst_4 main_v40 (broadcastInDim S128x128x4x1 ![] bcast_S_S128x128x4x1 : (⟨S_, .f32⟩ : BufTy).Contents (Elt F) → (⟨S128x128x4x1, .f32⟩ : BufTy).Contents (Elt F)),
    binary main_v37 main_v40 main_v41 (addf : (⟨S128x128x4x1, .f32⟩ : BufTy).Contents (Elt F) → (⟨S128x128x4x1, .f32⟩ : BufTy).Contents (Elt F) → (⟨S128x128x4x1, .f32⟩ : BufTy).Contents (Elt F)),
    unary main_v41 main_v42 (Host.rsqrt : (⟨S128x128x4x1, .f32⟩ : BufTy).Contents (Elt F) → (⟨S128x128x4x1, .f32⟩ : BufTy).Contents (Elt F)),
    unary main_v42 main_v43 (broadcastInDim S128x128x4x768 ![0, 1, 2, 3] bcast_S128x128x4x1_S128x128x4x768_0_1_2_3 : (⟨S128x128x4x1, .f32⟩ : BufTy).Contents (Elt F) → (⟨S128x128x4x768, .f32⟩ : BufTy).Contents (Elt F)),
    binary main_v39 main_v43 main_v44 (mulf : (⟨S128x128x4x768, .f32⟩ : BufTy).Contents (Elt F) → (⟨S128x128x4x768, .f32⟩ : BufTy).Contents (Elt F) → (⟨S128x128x4x768, .f32⟩ : BufTy).Contents (Elt F)),
    unary main_arg7 main_v45 (broadcastInDim S1x1x1x768 ![3] bcast_S768_S1x1x1x768_3 : (⟨S768, .f32⟩ : BufTy).Contents (Elt F) → (⟨S1x1x1x768, .f32⟩ : BufTy).Contents (Elt F)),
    unary main_v45 main_v46 (broadcastInDim S128x128x4x768 ![0, 1, 2, 3] bcast_S1x1x1x768_S128x128x4x768_0_1_2_3 : (⟨S1x1x1x768, .f32⟩ : BufTy).Contents (Elt F) → (⟨S128x128x4x768, .f32⟩ : BufTy).Contents (Elt F)),
    binary main_v44 main_v46 main_v47 (mulf : (⟨S128x128x4x768, .f32⟩ : BufTy).Contents (Elt F) → (⟨S128x128x4x768, .f32⟩ : BufTy).Contents (Elt F) → (⟨S128x128x4x768, .f32⟩ : BufTy).Contents (Elt F)),
    unary main_arg8 main_v48 (broadcastInDim S1x1x1x768 ![3] bcast_S768_S1x1x1x768_3 : (⟨S768, .f32⟩ : BufTy).Contents (Elt F) → (⟨S1x1x1x768, .f32⟩ : BufTy).Contents (Elt F)),
    unary main_v48 main_v49 (broadcastInDim S128x128x4x768 ![0, 1, 2, 3] bcast_S1x1x1x768_S128x128x4x768_0_1_2_3 : (⟨S1x1x1x768, .f32⟩ : BufTy).Contents (Elt F) → (⟨S128x128x4x768, .f32⟩ : BufTy).Contents (Elt F)),
    binary main_v47 main_v49 main_v50 (addf : (⟨S128x128x4x768, .f32⟩ : BufTy).Contents (Elt F) → (⟨S128x128x4x768, .f32⟩ : BufTy).Contents (Elt F) → (⟨S128x128x4x768, .f32⟩ : BufTy).Contents (Elt F)),
    TRef.nullary main_call0.cst (constant S_ .f32 0x00000000#32),
    TRef.unary main_call0.cst main_call0.v0 (broadcastInDim S128x128x4x768 ![] bcast_S_S128x128x4x768),
    TRef.binary elu_arg main_call0.v0 main_call0.v1 (cmpf .ogt),
    TRef.nullary main_call0.cst_0 (constant S_ .f32 0x00000000#32),
    TRef.unary main_call0.cst_0 main_call0.v2 (broadcastInDim S128x128x4x768 ![] bcast_S_S128x128x4x768),
    TRef.binary elu_arg main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S128x128x4x768 ![] bcast_S_S128x128x4x768),
    TRef.ternary main_call0.v3 main_call0.call0.v1 elu_arg main_call0.call0.v2 select,
    TRef.unary main_call0.call0.v2 main_call0.v5 Host.expm1,
    TRef.nullary main_call0.cst_2 (constant S_ .f32 0x3F800000#32),
    TRef.unary main_call0.cst_2 main_call0.v6 (broadcastInDim S128x128x4x768 ![] bcast_S_S128x128x4x768),
    TRef.binary main_call0.v6 main_call0.v5 main_call0.v7 mulf,
    TRef.ternary main_call0.v1 elu_arg main_call0.v7 main_call0.call1.v0 select,
    binary main_v51 main_arg9 main_v52 ((fun l r => Host.dotGeneral dot_S128x128x4x768_S24x768_S128x128x4x24_3_1_012_0_n_n none l r) : (⟨S128x128x4x768, .f32⟩ : BufTy).Contents (Elt F) → (⟨S24x768, .f32⟩ : BufTy).Contents (Elt F) → (⟨S128x128x4x24, .f32⟩ : BufTy).Contents (Elt F)),
    unary main_arg10 main_v53 (broadcastInDim S1x1x1x24 ![3] bcast_S24_S1x1x1x24_3 : (⟨S24, .f32⟩ : BufTy).Contents (Elt F) → (⟨S1x1x1x24, .f32⟩ : BufTy).Contents (Elt F)),
    unary main_v53 main_v54 (broadcastInDim S128x128x4x24 ![0, 1, 2, 3] bcast_S1x1x1x24_S128x128x4x24_0_1_2_3 : (⟨S1x1x1x24, .f32⟩ : BufTy).Contents (Elt F) → (⟨S128x128x4x24, .f32⟩ : BufTy).Contents (Elt F)),
    binary main_v52 main_v54 main_v55 (addf : (⟨S128x128x4x24, .f32⟩ : BufTy).Contents (Elt F) → (⟨S128x128x4x24, .f32⟩ : BufTy).Contents (Elt F) → (⟨S128x128x4x24, .f32⟩ : BufTy).Contents (Elt F)),
    unary main_v55 main_v56 (Host.negf : (⟨S128x128x4x24, .f32⟩ : BufTy).Contents (Elt F) → (⟨S128x128x4x24, .f32⟩ : BufTy).Contents (Elt F)),
    unary main_v56 main_v57 (Host.exp : (⟨S128x128x4x24, .f32⟩ : BufTy).Contents (Elt F) → (⟨S128x128x4x24, .f32⟩ : BufTy).Contents (Elt F)),
    nullary main_cst_5 (constant S_ .f32 0x3F800000#32),
    unary main_cst_5 main_v58 (broadcastInDim S128x128x4x24 ![] bcast_S_S128x128x4x24 : (⟨S_, .f32⟩ : BufTy).Contents (Elt F) → (⟨S128x128x4x24, .f32⟩ : BufTy).Contents (Elt F)),
    binary main_v58 main_v57 main_v59 (addf : (⟨S128x128x4x24, .f32⟩ : BufTy).Contents (Elt F) → (⟨S128x128x4x24, .f32⟩ : BufTy).Contents (Elt F) → (⟨S128x128x4x24, .f32⟩ : BufTy).Contents (Elt F)),
    nullary main_cst_6 (constant S_ .f32 0x3F800000#32),
    unary main_cst_6 main_v60 (broadcastInDim S128x128x4x24 ![] bcast_S_S128x128x4x24 : (⟨S_, .f32⟩ : BufTy).Contents (Elt F) → (⟨S128x128x4x24, .f32⟩ : BufTy).Contents (Elt F)),
    binary main_v60 main_v59 main_v61 (Host.divf : (⟨S128x128x4x24, .f32⟩ : BufTy).Contents (Elt F) → (⟨S128x128x4x24, .f32⟩ : BufTy).Contents (Elt F) → (⟨S128x128x4x24, .f32⟩ : BufTy).Contents (Elt F)),
    unary main_arg2 main_v62 (broadcastInDim S128x1x4 ![0, 2] bcast_S128x4_S128x1x4_0_2 : (⟨S128x4, .f32⟩ : BufTy).Contents (Elt F) → (⟨S128x1x4, .f32⟩ : BufTy).Contents (Elt F)),
    unary main_arg2 main_v63 (broadcastInDim S1x128x4 ![1, 2] bcast_S128x4_S1x128x4_1_2 : (⟨S128x4, .f32⟩ : BufTy).Contents (Elt F) → (⟨S1x128x4, .f32⟩ : BufTy).Contents (Elt F)),
    unary main_v62 main_v64 (broadcastInDim S128x128x4 ![0, 1, 2] bcast_S128x1x4_S128x128x4_0_1_2 : (⟨S128x1x4, .f32⟩ : BufTy).Contents (Elt F) → (⟨S128x128x4, .f32⟩ : BufTy).Contents (Elt F)),
    unary main_v63 main_v65 (broadcastInDim S128x128x4 ![0, 1, 2] bcast_S1x128x4_S128x128x4_0_1_2 : (⟨S1x128x4, .f32⟩ : BufTy).Contents (Elt F) → (⟨S128x128x4, .f32⟩ : BufTy).Contents (Elt F)),
    binary main_v64 main_v65 main_v66 (mulf : (⟨S128x128x4, .f32⟩ : BufTy).Contents (Elt F) → (⟨S128x128x4, .f32⟩ : BufTy).Contents (Elt F) → (⟨S128x128x4, .f32⟩ : BufTy).Contents (Elt F)),
    unary main_v66 main_v67 (broadcastInDim S128x128x4x1 ![0, 1, 2] bcast_S128x128x4_S128x128x4x1_0_1_2 : (⟨S128x128x4, .f32⟩ : BufTy).Contents (Elt F) → (⟨S128x128x4x1, .f32⟩ : BufTy).Contents (Elt F)),
    unary main_v67 main_v68 (broadcastInDim S128x128x4x24 ![0, 1, 2, 3] bcast_S128x128x4x1_S128x128x4x24_0_1_2_3 : (⟨S128x128x4x1, .f32⟩ : BufTy).Contents (Elt F) → (⟨S128x128x4x24, .f32⟩ : BufTy).Contents (Elt F)),
    binary main_v61 main_v68 main_v69 (mulf : (⟨S128x128x4x24, .f32⟩ : BufTy).Contents (Elt F) → (⟨S128x128x4x24, .f32⟩ : BufTy).Contents (Elt F) → (⟨S128x128x4x24, .f32⟩ : BufTy).Contents (Elt F)) ]

set_option maxRecDepth 8192 in
set_option maxHeartbeats 4000000 in
/-- The program is that straight line: both sides are the same chain of steps once the outlined functions are
    unfolded at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., unary_bufs_sub .., binary_bufs_sub .., binary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., binary_bufs_sub .., binary_bufs_sub .., unary_bufs_sub .., unary_bufs_sub .., binary_bufs_sub .., unary_bufs_sub .., unary_bufs_sub .., unary_bufs_sub .., unary_bufs_sub .., binary_bufs_sub .., unary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., unary_bufs_sub .., unary_bufs_sub .., binary_bufs_sub ..⟩

/-! ## The result, stage by stage

One definition per operation that is not a constant or the broadcast of a constant: the operation's function
applied to the stages of its operands. Each stage is a function of the argument arrays it depends on. -/

/-- The value of `main_v0`. -/
def st_v0 (a3 : FVec F S768x1536 .f32) : FVec F S768x768 .f32 :=
  extractStridedSlice S768x768 ![0, 0] a3 slices_S768x1536_S768x768_0_0

/-- The value of `main_v1`. -/
def st_v1 (a3 : FVec F S768x1536 .f32) : FVec F S768x768 .f32 :=
  extractStridedSlice S768x768 ![0, 768] a3 slices_S768x1536_S768x768_0_768

/-- The value of `main_v2`. -/
def st_v2 (a1 : FVec F S128x4x768 .f32) (a3 : FVec F S768x1536 .f32) : FVec F S128x4x768 .f32 :=
  Host.dotGeneral dot_S128x4x768_S768x768_S128x4x768_2_1_01_0_n_n none a1 (st_v0 a3)

/-- The value of `main_v3`. -/
def st_v3 (a0 : FVec F S128x4x768 .f32) (a3 : FVec F S768x1536 .f32) : FVec F S128x4x768 .f32 :=
  Host.dotGeneral dot_S128x4x768_S768x768_S128x4x768_2_1_01_0_n_n none a0 (st_v1 a3)

/-- The value of `main_v4`. -/
def st_v4 (a0 : FVec F S128x4x768 .f32) (a1 : FVec F S128x4x768 .f32) (a3 : FVec F S768x1536 .f32) : FVec F S128x4x768 .f32 :=
  addf (st_v2 a1 a3) (st_v3 a0 a3)

/-- The value of `main_v5`. -/
def st_v5 (a4 : FVec F S768 .f32) : FVec F S1x1x768 .f32 :=
  broadcastInDim S1x1x768 ![2] bcast_S768_S1x1x768_2 a4

/-- The value of `main_v6`. -/
def st_v6 (a4 : FVec F S768 .f32) : FVec F S128x4x768 .f32 :=
  broadcastInDim S128x4x768 ![0, 1, 2] bcast_S1x1x768_S128x4x768_0_1_2 (st_v5 a4)

/-- The value of `main_v7`. -/
def st_v7 (a0 : FVec F S128x4x768 .f32) (a1 : FVec F S128x4x768 .f32) (a3 : FVec F S768x1536 .f32) (a4 : FVec F S768 .f32) : FVec F S128x4x768 .f32 :=
  addf (st_v4 a0 a1 a3) (st_v6 a4)

/-- The value of `main_v8`. -/
def st_v8 (a0 : FVec F S128x4x768 .f32) (a1 : FVec F S128x4x768 .f32) (a3 : FVec F S768x1536 .f32) (a4 : FVec F S768 .f32) : FVec F S128x4x768 .f32 :=
  Host.tanh (st_v7 a0 a1 a3 a4)

/-- The value of `main_v9`. -/
def st_v9 (a0 : FVec F S128x4x768 .f32) (a1 : FVec F S128x4x768 .f32) (a3 : FVec F S768x1536 .f32) (a4 : FVec F S768 .f32) : FVec F S4x768 .f32 :=
  Host.reduce FloatOps.maximumf (st_v8 a0 a1 a3 a4) (constant S_ .f32 0xFF800000#32) reducesTo_S128x4x768_S4x768_d0 h_S_

/-- The value of `main_v10`. -/
def st_v10 (a5 : FVec F S768x2304 .f32) : FVec F S768x768 .f32 :=
  extractStridedSlice S768x768 ![0, 0] a5 slices_S768x2304_S768x768_0_0

/-- The value of `main_v11`. -/
def st_v11 (a5 : FVec F S768x2304 .f32) : FVec F S768x768 .f32 :=
  extractStridedSlice S768x768 ![0, 768] a5 slices_S768x2304_S768x768_0_768

/-- The value of `main_v12`. -/
def st_v12 (a5 : FVec F S768x2304 .f32) : FVec F S768x768 .f32 :=
  extractStridedSlice S768x768 ![0, 1536] a5 slices_S768x2304_S768x768_0_1536

/-- The value of `main_v13`. -/
def st_v13 (a0 : FVec F S128x4x768 .f32) (a5 : FVec F S768x2304 .f32) : FVec F S128x4x768 .f32 :=
  Host.dotGeneral dot_S128x4x768_S768x768_S128x4x768_2_1_01_0_n_n none a0 (st_v10 a5)

/-- The value of `main_v14`. -/
def st_v14 (a0 : FVec F S128x4x768 .f32) (a5 : FVec F S768x2304 .f32) : FVec F S128x4x768 .f32 :=
  Host.dotGeneral dot_S128x4x768_S768x768_S128x4x768_2_1_01_0_n_n none a0 (st_v11 a5)

/-- The value of `main_v15`. -/
def st_v15 (a0 : FVec F S128x4x768 .f32) (a1 : FVec F S128x4x768 .f32) (a3 : FVec F S768x1536 .f32) (a4 : FVec F S768 .f32) (a5 : FVec F S768x2304 .f32) : FVec F S4x768 .f32 :=
  Host.dotGeneral dot_S4x768_S768x768_S4x768_1_1_0_0_n_n none (st_v9 a0 a1 a3 a4) (st_v12 a5)

/-- The value of `main_v16`. -/
def st_v16 (a6 : FVec F S768 .f32) : FVec F S1x768 .f32 :=
  broadcastInDim S1x768 ![1] bcast_S768_S1x768_1 a6

/-- The value of `main_v17`. -/
def st_v17 (a6 : FVec F S768 .f32) : FVec F S4x768 .f32 :=
  broadcastInDim S4x768 ![0, 1] bcast_S1x768_S4x768_0_1 (st_v16 a6)

/-- The value of `main_v18`. -/
def st_v18 (a0 : FVec F S128x4x768 .f32) (a1 : FVec F S128x4x768 .f32) (a3 : FVec F S768x1536 .f32) (a4 : FVec F S768 .f32) (a5 : FVec F S768x2304 .f32) (a6 : FVec F S768 .f32) : FVec F S4x768 .f32 :=
  addf (st_v15 a0 a1 a3 a4 a5) (st_v17 a6)

/-- The value of `main_v19`. -/
def st_v19 (a0 : FVec F S128x4x768 .f32) (a5 : FVec F S768x2304 .f32) : FVec F S128x1x4x768 .f32 :=
  broadcastInDim S128x1x4x768 ![0, 2, 3] bcast_S128x4x768_S128x1x4x768_0_2_3 (st_v13 a0 a5)

/-- The value of `main_v20`. -/
def st_v20 (a0 : FVec F S128x4x768 .f32) (a5 : FVec F S768x2304 .f32) : FVec F S1x128x4x768 .f32 :=
  broadcastInDim S1x128x4x768 ![1, 2, 3] bcast_S128x4x768_S1x128x4x768_1_2_3 (st_v14 a0 a5)

/-- The value of `main_v21`. -/
def st_v21 (a0 : FVec F S128x4x768 .f32) (a5 : FVec F S768x2304 .f32) : FVec F S128x128x4x768 .f32 :=
  broadcastInDim S128x128x4x768 ![0, 1, 2, 3] bcast_S128x1x4x768_S128x128x4x768_0_1_2_3 (st_v19 a0 a5)

/-- The value of `main_v22`. -/
def st_v22 (a0 : FVec F S128x4x768 .f32) (a5 : FVec F S768x2304 .f32) : FVec F S128x128x4x768 .f32 :=
  broadcastInDim S128x128x4x768 ![0, 1, 2, 3] bcast_S1x128x4x768_S128x128x4x768_0_1_2_3 (st_v20 a0 a5)

/-- The value of `main_v23`. -/
def st_v23 (a0 : FVec F S128x4x768 .f32) (a5 : FVec F S768x2304 .f32) : FVec F S128x128x4x768 .f32 :=
  addf (st_v21 a0 a5) (st_v22 a0 a5)

/-- The value of `main_v24`. -/
def st_v24 (a0 : FVec F S128x4x768 .f32) (a1 : FVec F S128x4x768 .f32) (a3 : FVec F S768x1536 .f32) (a4 : FVec F S768 .f32) (a5 : FVec F S768x2304 .f32) (a6 : FVec F S768 .f32) : FVec F S1x1x4x768 .f32 :=
  broadcastInDim S1x1x4x768 ![2, 3] bcast_S4x768_S1x1x4x768_2_3 (st_v18 a0 a1 a3 a4 a5 a6)

/-- The value of `main_v25`. -/
def st_v25 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  broadcastInDim S128x128x4x768 ![0, 1, 2, 3] bcast_S1x1x4x768_S128x128x4x768_0_1_2_3 (st_v24 a0 a1 a3 a4 a5 a6)

/-- The value of `main_v26`. -/
def st_v26 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  addf (st_v23 a0 a5) (st_v25 a0 a1 a3 a4 a5 a6)

/-- The value of `main_v27`. -/
def st_v27 (a0 : FVec F S128x4x768 .f32) (a1 : FVec F S128x4x768 .f32) (a3 : FVec F S768x1536 .f32) (a4 : FVec F S768 .f32) (a5 : FVec F S768x2304 .f32) (a6 : FVec F S768 .f32) : FVec F S128x128x4 .f32 :=
  Host.reduceAdd (st_v26 a0 a1 a3 a4 a5 a6) (constant S_ .f32 0x00000000#32) reducesTo_S128x128x4x768_S128x128x4_d3 h_S_

/-- The value of `main_v28`. -/
def st_v28 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  broadcastInDim S128x128x4x1 ![0, 1, 2] bcast_S128x128x4_S128x128x4x1_0_1_2 (st_v27 a0 a1 a3 a4 a5 a6)

/-- The value of `main_v30`. -/
def st_v30 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  Host.divf (st_v28 a0 a1 a3 a4 a5 a6) (broadcastInDim S128x128x4x1 ![] bcast_S_S128x128x4x1 (constant S_ .f32 0x44400000#32))

/-- The value of `main_v31`. -/
def st_v31 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  broadcastInDim S128x128x4x768 ![0, 1, 2, 3] bcast_S128x128x4x1_S128x128x4x768_0_1_2_3 (st_v30 a0 a1 a3 a4 a5 a6)

/-- The value of `main_v32`. -/
def st_v32 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  subf (st_v26 a0 a1 a3 a4 a5 a6) (st_v31 a0 a1 a3 a4 a5 a6)

/-- The value of `main_v33`. -/
def st_v33 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  mulf (st_v32 a0 a1 a3 a4 a5 a6) (st_v32 a0 a1 a3 a4 a5 a6)

/-- The value of `main_v34`. -/
def st_v34 (a0 : FVec F S128x4x768 .f32) (a1 : FVec F S128x4x768 .f32) (a3 : FVec F S768x1536 .f32) (a4 : FVec F S768 .f32) (a5 : FVec F S768x2304 .f32) (a6 : FVec F S768 .f32) : FVec F S128x128x4 .f32 :=
  Host.reduceAdd (st_v33 a0 a1 a3 a4 a5 a6) (constant S_ .f32 0x00000000#32) reducesTo_S128x128x4x768_S128x128x4_d3 h_S_

/-- The value of `main_v35`. -/
def st_v35 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  broadcastInDim S128x128x4x1 ![0, 1, 2] bcast_S128x128x4_S128x128x4x1_0_1_2 (st_v34 a0 a1 a3 a4 a5 a6)

/-- The value of `main_v37`. -/
def st_v37 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  Host.divf (st_v35 a0 a1 a3 a4 a5 a6) (broadcastInDim S128x128x4x1 ![] bcast_S_S128x128x4x1 (constant S_ .f32 0x44400000#32))

/-- The value of `main_v38`. -/
def st_v38 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  broadcastInDim S128x128x4x768 ![0, 1, 2, 3] bcast_S128x128x4x1_S128x128x4x768_0_1_2_3 (st_v30 a0 a1 a3 a4 a5 a6)

/-- The value of `main_v39`. -/
def st_v39 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  subf (st_v26 a0 a1 a3 a4 a5 a6) (st_v38 a0 a1 a3 a4 a5 a6)

/-- The value of `main_v41`. -/
def st_v41 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  addf (st_v37 a0 a1 a3 a4 a5 a6) (broadcastInDim S128x128x4x1 ![] bcast_S_S128x128x4x1 (constant S_ .f32 0x3727C5AC#32))

/-- The value of `main_v42`. -/
def st_v42 (a0 : FVec F S128x4x768 .f32) (a1 : FVec F S128x4x768 .f32) (a3 : FVec F S768x1536 .f32) (a4 : FVec F S768 .f32) (a5 : FVec F S768x2304 .f32) (a6 : FVec F S768 .f32) : FVec F S128x128x4x1 .f32 :=
  Host.rsqrt (st_v41 a0 a1 a3 a4 a5 a6)

/-- The value of `main_v43`. -/
def st_v43 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  broadcastInDim S128x128x4x768 ![0, 1, 2, 3] bcast_S128x128x4x1_S128x128x4x768_0_1_2_3 (st_v42 a0 a1 a3 a4 a5 a6)

/-- The value of `main_v44`. -/
def st_v44 (a0 : FVec F S128x4x768 .f32) (a1 : FVec F S128x4x768 .f32) (a3 : FVec F S768x1536 .f32) (a4 : FVec F S768 .f32) (a5 : FVec F S768x2304 .f32) (a6 : FVec F S768 .f32) : FVec F S128x128x4x768 .f32 :=
  mulf (st_v39 a0 a1 a3 a4 a5 a6) (st_v43 a0 a1 a3 a4 a5 a6)

/-- The value of `main_v45`. -/
def st_v45 (a7 : FVec F S768 .f32) : FVec F S1x1x1x768 .f32 :=
  broadcastInDim S1x1x1x768 ![3] bcast_S768_S1x1x1x768_3 a7

/-- The value of `main_v46`. -/
def st_v46 (a7 : FVec F S768 .f32) : FVec F S128x128x4x768 .f32 :=
  broadcastInDim S128x128x4x768 ![0, 1, 2, 3] bcast_S1x1x1x768_S128x128x4x768_0_1_2_3 (st_v45 a7)

/-- The value of `main_v47`. -/
def st_v47 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) : FVec F S128x128x4x768 .f32 :=
  mulf (st_v44 a0 a1 a3 a4 a5 a6) (st_v46 a7)

/-- The value of `main_v48`. -/
def st_v48 (a8 : FVec F S768 .f32) : FVec F S1x1x1x768 .f32 :=
  broadcastInDim S1x1x1x768 ![3] bcast_S768_S1x1x1x768_3 a8

/-- The value of `main_v49`. -/
def st_v49 (a8 : FVec F S768 .f32) : FVec F S128x128x4x768 .f32 :=
  broadcastInDim S128x128x4x768 ![0, 1, 2, 3] bcast_S1x1x1x768_S128x128x4x768_0_1_2_3 (st_v48 a8)

/-- The value of `main_v50`. -/
def st_v50 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : FVec F S128x128x4x768 .f32 :=
  addf (st_v47 a0 a1 a3 a4 a5 a6 a7) (st_v49 a8)

/-- The value of `main_call0_v1`. -/
def st_call0_v1 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : IVec S128x128x4x768 1 :=
  cmpf .ogt (st_v50 a0 a1 a3 a4 a5 a6 a7 a8) (broadcastInDim S128x128x4x768 ![] bcast_S_S128x128x4x768 (constant S_ .f32 0x00000000#32))

/-- The value of `main_call0_v3`. -/
def st_call0_v3 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : IVec S128x128x4x768 1 :=
  cmpf .ogt (st_v50 a0 a1 a3 a4 a5 a6 a7 a8) (broadcastInDim S128x128x4x768 ![] bcast_S_S128x128x4x768 (constant S_ .f32 0x00000000#32))

/-- The value of `main_call0_v4`. -/
def st_call0_v4 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : FVec F S128x128x4x768 .f32 :=
  select (st_call0_v3 a0 a1 a3 a4 a5 a6 a7 a8) (broadcastInDim S128x128x4x768 ![] bcast_S_S128x128x4x768 ((constant S_ .f32 0x00000000#32))) (st_v50 a0 a1 a3 a4 a5 a6 a7 a8)

/-- The value of `main_call0_v5`. -/
def st_call0_v5 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : FVec F S128x128x4x768 .f32 :=
  Host.expm1 (st_call0_v4 a0 a1 a3 a4 a5 a6 a7 a8)

/-- The value of `main_call0_v7`. -/
def st_call0_v7 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : FVec F S128x128x4x768 .f32 :=
  mulf (broadcastInDim S128x128x4x768 ![] bcast_S_S128x128x4x768 (constant S_ .f32 0x3F800000#32)) (st_call0_v5 a0 a1 a3 a4 a5 a6 a7 a8)

/-- The value of `main_v51`. -/
def st_v51 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) : FVec F S128x128x4x768 .f32 :=
  select (st_call0_v1 a0 a1 a3 a4 a5 a6 a7 a8) (st_v50 a0 a1 a3 a4 a5 a6 a7 a8) (st_call0_v7 a0 a1 a3 a4 a5 a6 a7 a8)

/-- The value of `main_v52`. -/
def st_v52 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) : FVec F S128x128x4x24 .f32 :=
  Host.dotGeneral dot_S128x128x4x768_S24x768_S128x128x4x24_3_1_012_0_n_n none (st_v51 a0 a1 a3 a4 a5 a6 a7 a8) a9

/-- The value of `main_v53`. -/
def st_v53 (a10 : FVec F S24 .f32) : FVec F S1x1x1x24 .f32 :=
  broadcastInDim S1x1x1x24 ![3] bcast_S24_S1x1x1x24_3 a10

/-- The value of `main_v54`. -/
def st_v54 (a10 : FVec F S24 .f32) : FVec F S128x128x4x24 .f32 :=
  broadcastInDim S128x128x4x24 ![0, 1, 2, 3] bcast_S1x1x1x24_S128x128x4x24_0_1_2_3 (st_v53 a10)

/-- The value of `main_v55`. -/
def st_v55 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  addf (st_v52 a0 a1 a3 a4 a5 a6 a7 a8 a9) (st_v54 a10)

/-- The value of `main_v56`. -/
def st_v56 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  Host.negf (st_v55 a0 a1 a3 a4 a5 a6 a7 a8 a9 a10)

/-- The value of `main_v57`. -/
def st_v57 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  Host.exp (st_v56 a0 a1 a3 a4 a5 a6 a7 a8 a9 a10)

/-- The value of `main_v59`. -/
def st_v59 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  addf (broadcastInDim S128x128x4x24 ![] bcast_S_S128x128x4x24 (constant S_ .f32 0x3F800000#32)) (st_v57 a0 a1 a3 a4 a5 a6 a7 a8 a9 a10)

/-- The value of `main_v61`. -/
def st_v61 (a0 : FVec F S128x4x768 .f32) (a1 : FVec F S128x4x768 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  Host.divf (broadcastInDim S128x128x4x24 ![] bcast_S_S128x128x4x24 (constant S_ .f32 0x3F800000#32)) (st_v59 a0 a1 a3 a4 a5 a6 a7 a8 a9 a10)

/-- The value of `main_v62`. -/
def st_v62 (a2 : FVec F S128x4 .f32) : FVec F S128x1x4 .f32 :=
  broadcastInDim S128x1x4 ![0, 2] bcast_S128x4_S128x1x4_0_2 a2

/-- The value of `main_v63`. -/
def st_v63 (a2 : FVec F S128x4 .f32) : FVec F S1x128x4 .f32 :=
  broadcastInDim S1x128x4 ![1, 2] bcast_S128x4_S1x128x4_1_2 a2

/-- The value of `main_v64`. -/
def st_v64 (a2 : FVec F S128x4 .f32) : FVec F S128x128x4 .f32 :=
  broadcastInDim S128x128x4 ![0, 1, 2] bcast_S128x1x4_S128x128x4_0_1_2 (st_v62 a2)

/-- The value of `main_v65`. -/
def st_v65 (a2 : FVec F S128x4 .f32) : FVec F S128x128x4 .f32 :=
  broadcastInDim S128x128x4 ![0, 1, 2] bcast_S1x128x4_S128x128x4_0_1_2 (st_v63 a2)

/-- The value of `main_v66`. -/
def st_v66 (a2 : FVec F S128x4 .f32) : FVec F S128x128x4 .f32 :=
  mulf (st_v64 a2) (st_v65 a2)

/-- The value of `main_v67`. -/
def st_v67 (a2 : FVec F S128x4 .f32) : FVec F S128x128x4x1 .f32 :=
  broadcastInDim S128x128x4x1 ![0, 1, 2] bcast_S128x128x4_S128x128x4x1_0_1_2 (st_v66 a2)

/-- The value of `main_v68`. -/
def st_v68 (a2 : FVec F S128x4 .f32) : FVec F S128x128x4x24 .f32 :=
  broadcastInDim S128x128x4x24 ![0, 1, 2, 3] bcast_S128x128x4x1_S128x128x4x24_0_1_2_3 (st_v67 a2)

/-- The value of `main_v69`. -/
def st_v69 (a0 : FVec F S128x4x768 .f32) (a1 : FVec F S128x4x768 .f32) (a2 : FVec F S128x4 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  mulf (st_v61 a0 a1 a3 a4 a5 a6 a7 a8 a9 a10) (st_v68 a2)

/-- The program's result as a function of its eleven argument arrays. -/
def res (a0 : FVec F S128x4x768 .f32) (a1 : FVec F S128x4x768 .f32) (a2 : FVec F S128x4 .f32) (a3 : FVec F S768x1536 .f32) (a4 : FVec F S768 .f32) (a5 : FVec F S768x2304 .f32) (a6 : FVec F S768 .f32) (a7 : FVec F S768 .f32) (a8 : FVec F S768 .f32) (a9 : FVec F S24x768 .f32) (a10 : FVec F S24 .f32) : FVec F S128x128x4x24 .f32 :=
  st_v69 a0 a1 a2 a3 a4 a5 a6 a7 a8 a9 a10

/-! ## The run -/

set_option maxRecDepth 8192 in
set_option maxHeartbeats 40000000 in
/-- The fold of the operations at the result buffer is the staged term of the arguments' contents. -/
theorem out_eq (V : Valuation τ sig (Elt F)) :
    after ops V (main_v69 : DevRef τ sig) = res (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) := by
  after_results_simp <;> rfl

set_option maxRecDepth 8192 in
set_option maxHeartbeats 4000000 in
theorem arg0_eq (V : Valuation τ sig (Elt F)) :
    after ops V (main_arg0 : DevRef τ sig) = V (main_arg0 : DevRef τ sig) := by
  after_results_simp

set_option maxRecDepth 8192 in
set_option maxHeartbeats 4000000 in
theorem arg1_eq (V : Valuation τ sig (Elt F)) :
    after ops V (main_arg1 : DevRef τ sig) = V (main_arg1 : DevRef τ sig) := by
  after_results_simp

set_option maxRecDepth 8192 in
set_option maxHeartbeats 4000000 in
theorem arg2_eq (V : Valuation τ sig (Elt F)) :
    after ops V (main_arg2 : DevRef τ sig) = V (main_arg2 : DevRef τ sig) := by
  after_results_simp

set_option maxRecDepth 8192 in
set_option maxHeartbeats 4000000 in
theorem arg3_eq (V : Valuation τ sig (Elt F)) :
    after ops V (main_arg3 : DevRef τ sig) = V (main_arg3 : DevRef τ sig) := by
  after_results_simp

set_option maxRecDepth 8192 in
set_option maxHeartbeats 4000000 in
theorem arg4_eq (V : Valuation τ sig (Elt F)) :
    after ops V (main_arg4 : DevRef τ sig) = V (main_arg4 : DevRef τ sig) := by
  after_results_simp

set_option maxRecDepth 8192 in
set_option maxHeartbeats 4000000 in
theorem arg5_eq (V : Valuation τ sig (Elt F)) :
    after ops V (main_arg5 : DevRef τ sig) = V (main_arg5 : DevRef τ sig) := by
  after_results_simp

set_option maxRecDepth 8192 in
set_option maxHeartbeats 4000000 in
theorem arg6_eq (V : Valuation τ sig (Elt F)) :
    after ops V (main_arg6 : DevRef τ sig) = V (main_arg6 : DevRef τ sig) := by
  after_results_simp

set_option maxRecDepth 8192 in
set_option maxHeartbeats 4000000 in
theorem arg7_eq (V : Valuation τ sig (Elt F)) :
    after ops V (main_arg7 : DevRef τ sig) = V (main_arg7 : DevRef τ sig) := by
  after_results_simp

set_option maxRecDepth 8192 in
set_option maxHeartbeats 4000000 in
theorem arg8_eq (V : Valuation τ sig (Elt F)) :
    after ops V (main_arg8 : DevRef τ sig) = V (main_arg8 : DevRef τ sig) := by
  after_results_simp

set_option maxRecDepth 8192 in
set_option maxHeartbeats 4000000 in
theorem arg9_eq (V : Valuation τ sig (Elt F)) :
    after ops V (main_arg9 : DevRef τ sig) = V (main_arg9 : DevRef τ sig) := by
  after_results_simp

set_option maxRecDepth 8192 in
set_option maxHeartbeats 4000000 in
theorem arg10_eq (V : Valuation τ sig (Elt F)) :
    after ops V (main_arg10 : DevRef τ sig) = V (main_arg10 : DevRef τ sig) := by
  after_results_simp

set_option maxRecDepth 8192 in
set_option maxHeartbeats 4000000 in
/-- On the device, for any float values, from any memory with zero counters: every weakly fair execution of the
    program terminates with the result buffer at `res` of the arguments' launch contents and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v69) = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨(h c main_v69).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_seq scopedRefs_eq scopedSems_eq defs main (fun _ => ops) main_eq (fun _ => ops_sub) m ρ)

end Cert.ReferenceIdeal.RefRun

end
-- ==== Proof.Spec.lean ====
/-
  The function both programs compute, index by index, over the extended reals.

  Arguments: two activations hre, hsh of shape [128, 4, 768]; a mask [128, 4]; a weight rw [768, 1536] read as two
  [768, 768] halves side by side, with bias rb; a weight hw [768, 2304] read as three [768, 768] thirds, with bias hb;
  scale lg and shift lb of a normalisation over the last axis; a read-out weight relw [24, 768] with bias relb.

    s(l,b,k)    = sum_h hsh(l,b,h) rw(k,h) + sum_h hre(l,b,h) rw(k,768+h) + rb(k)
    g(b,k)      = max_l tanh s(l,b,k)
    pg(b,k)     = sum_h g(b,h) hw(k,1536+h) + hb(k)
    p1(l,b,k)   = sum_h hre(l,b,h) hw(k,h)          p2(l,b,k) = sum_h hre(l,b,h) hw(k,768+h)
    z(i,j,b,k)  = (p1(i,b,k) + p2(j,b,k)) + pg(b,k)
    mu          = (sum_k z) / 768,   d = z - mu,   var = (sum_k d d) / 768,   inv = rsqrt(var + eps)
    n(i,j,b,k)  = (d inv) lg(k) + lb(k)          (these four are functions of the one row z(i,j,b,.))
    e           = n if n > 0 else exp n - 1
    proj(i,j,b,r) = sum_k e relw(r,k) + relb(r)
    out(i,j,b,r)  = (1 / (1 + exp(-proj))) (mask(i,b) mask(j,b))

  Sums are over Fin 768 in the order written (activation times weight); the maximum is the fold of max from the
  literal minus infinity. The literals 768 and eps are kept as their binary words: both programs use the same words.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Column h of the left half of a [768, 1536] weight, and of its right half. -/
def lo (h : Fin 768) : Fin 1536 := ⟨h.val, by omega⟩
def hi (h : Fin 768) : Fin 1536 := ⟨768 + h.val, by omega⟩
/-- Column h of the first, second and last third of a [768, 2304] weight. -/
def c0 (h : Fin 768) : Fin 2304 := ⟨h.val, by omega⟩
def c1 (h : Fin 768) : Fin 2304 := ⟨768 + h.val, by omega⟩
def c2 (h : Fin 768) : Fin 2304 := ⟨1536 + h.val, by omega⟩

/-- The literals the two programs share, as their binary words. -/
def negInf : EReal := Ideal.ofBits .f32 0xFF800000#32
def n768 : EReal := Ideal.ofBits .f32 0x44400000#32
def eps : EReal := Ideal.ofBits .f32 0x3727C5AC#32

/-- The exponential-linear unit and the logistic function on the extended reals. -/
def elu (x : EReal) : EReal := Scalar.select (Ideal.cmp .ogt x 0) x (Ideal.exp x - 1)
def sig (x : EReal) : EReal := Ideal.div 1 (1 + Ideal.exp (-x))

/-! ## Row-level pieces: functions of one row of 768 entries (or of one column of 128) -/

/-- The maximum over the 128 positions of tanh of a column. -/
def gMaxR (sf : Fin 128 → EReal) : EReal :=
  (Finset.univ : Finset (Fin 128)).fold max negInf (fun l => Ideal.tanh (sf l))

/-- Mean, deviation, variance, inverse deviation of a row; the normalised, scaled and shifted row. -/
def muR (zf : Fin 768 → EReal) : EReal := Ideal.div (∑ k : Fin 768, zf k) n768
def dvR (zf : Fin 768 → EReal) (k : Fin 768) : EReal := zf k - muR zf
def varR (zf : Fin 768 → EReal) : EReal := Ideal.div (∑ k : Fin 768, dvR zf k * dvR zf k) n768
def invR (zf : Fin 768 → EReal) : EReal := Ideal.rsqrt (varR zf + eps)
def nrmR (zf lgf lbf : Fin 768 → EReal) (k : Fin 768) : EReal := (dvR zf k * invR zf) * lgf k + lbf k

/-- The read-out of a row: unit, weight row r, bias; and the masked logistic of it. -/
def projR (zf lgf lbf : Fin 768 → EReal) (wf : Fin 24 → Fin 768 → EReal) (bf : Fin 24 → EReal) (r : Fin 24) : EReal :=
  (∑ k : Fin 768, elu (nrmR zf lgf lbf k) * wf r k) + bf r
def outR (zf lgf lbf : Fin 768 → EReal) (wf : Fin 24 → Fin 768 → EReal) (bf : Fin 24 → EReal) (mi mj : EReal) (r : Fin 24) : EReal :=
  sig (projR zf lgf lbf wf bf r) * (mi * mj)

section
variable (hre hsh : (⟨3, ![128, 4, 768]⟩ : Shape).Idx → EReal) (mask : (⟨2, ![128, 4]⟩ : Shape).Idx → EReal)
  (rw : (⟨2, ![768, 1536]⟩ : Shape).Idx → EReal) (rb : (⟨1, ![768]⟩ : Shape).Idx → EReal)
  (hw : (⟨2, ![768, 2304]⟩ : Shape).Idx → EReal) (hb lg lb : (⟨1, ![768]⟩ : Shape).Idx → EReal)
  (relw : (⟨2, ![24, 768]⟩ : Shape).Idx → EReal) (relb : (⟨1, ![24]⟩ : Shape).Idx → EReal)

def sPre (l : Fin 128) (b : Fin 4) (k : Fin 768) : EReal :=
  ((∑ h : Fin 768, hsh (ix3 l b h) * rw (ix2 k (lo h))) + (∑ h : Fin 768, hre (ix3 l b h) * rw (ix2 k (hi h)))) + rb (ix1 k)

def gMax (b : Fin 4) (k : Fin 768) : EReal := gMaxR (fun l => sPre hre hsh rw rb l b k)

def pg (b : Fin 4) (k : Fin 768) : EReal :=
  (∑ h : Fin 768, gMax hre hsh rw rb b h * hw (ix2 k (c2 h))) + hb (ix1 k)

def p1 (l : Fin 128) (b : Fin 4) (k : Fin 768) : EReal := ∑ h : Fin 768, hre (ix3 l b h) * hw (ix2 k (c0 h))
def p2 (l : Fin 128) (b : Fin 4) (k : Fin 768) : EReal := ∑ h : Fin 768, hre (ix3 l b h) * hw (ix2 k (c1 h))

def z (i j : Fin 128) (b : Fin 4) (k : Fin 768) : EReal :=
  (p1 hre hw i b k + p2 hre hw j b k) + pg hre hsh rw rb hw hb b k

def out (i j : Fin 128) (b : Fin 4) (r : Fin 24) : EReal :=
  outR (fun k => z hre hsh rw rb hw hb i j b k) (fun k => lg (ix1 k)) (fun k => lb (ix1 k))
    (fun r k => relw (ix2 r k)) (fun r => relb (ix1 r)) (mask (ix2 i b)) (mask (ix2 j b)) r

/-- The result array [128, 128, 4, 24] as one function of the eleven argument arrays (in the programs' argument order). -/
def G : (⟨4, ![128, 128, 4, 24]⟩ : Shape).Idx → EReal :=
  fun y => out hre hsh mask rw rb hw hb lg lb relw relb (y 0) (y 1) (y 2) (y 3)

theorem G_apply (i j : Fin 128) (b : Fin 4) (r : Fin 24) :
    G hre hsh mask rw rb hw hb lg lb relw relb (ix4 i j b r) = out hre hsh mask rw rb hw hb lg lb relw relb i j b r := rfl

end

end Cert.Spec

end
-- ==== Proof.KI.HostReads.lean ====
/-
  The host operations around the regions, read at an index: the weight slices are column windows of the weights, the
  row reshapes put a vector in a one-row matrix, the activation transposes swap the first two axes, and the final
  transpose sends result entry (b, i, j, r) to (i, j, b, r).
-/
import proofs.«131939_j48103633715562_2_alg».proof.Proof.KI.Vals
import proofs.«131939_j48103633715562_2_alg».proof.Proof.Spec
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.HandValue

open Cert.KernelIdeal.Hand Cert.Spec Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (c : Dev nD)

/-! ## The stages as terms of the argument arrays -/

theorem V1_v0 : (V1 m c main_v0 : S768x768.Idx → Elt F .f32)
    = extractStridedSlice S768x768 ![0, 0] (m ((c : Thread nD τ).loc main_arg3)) slices_S768x1536_S768x768_0_0 := by
  dsimp only [V1, W1, W0, hostOps0]; after_results
theorem V1_v1 : (V1 m c main_v1 : S768x768.Idx → Elt F .f32)
    = extractStridedSlice S768x768 ![0, 768] (m ((c : Thread nD τ).loc main_arg3)) slices_S768x1536_S768x768_0_768 := by
  dsimp only [V1, W1, W0, hostOps0]; after_results
theorem V1_v2 : (V1 m c main_v2 : S768x768.Idx → Elt F .f32)
    = extractStridedSlice S768x768 ![0, 0] (m ((c : Thread nD τ).loc main_arg5)) slices_S768x2304_S768x768_0_0 := by
  dsimp only [V1, W1, W0, hostOps0]; after_results
theorem V1_v3 : (V1 m c main_v3 : S768x768.Idx → Elt F .f32)
    = extractStridedSlice S768x768 ![0, 768] (m ((c : Thread nD τ).loc main_arg5)) slices_S768x2304_S768x768_0_768 := by
  dsimp only [V1, W1, W0, hostOps0]; after_results
theorem V1_v4 : (V1 m c main_v4 : S768x768.Idx → Elt F .f32)
    = extractStridedSlice S768x768 ![0, 1536] (m ((c : Thread nD τ).loc main_arg5)) slices_S768x2304_S768x768_0_1536 := by
  dsimp only [V1, W1, W0, hostOps0]; after_results
theorem V1_v5 : (V1 m c main_v5 : S1x768.Idx → Elt F .f32)
    = shapeCast S1x768 (m ((c : Thread nD τ).loc main_arg4)) shapeCasts_S768_S1x768 := by
  dsimp only [V1, W1, W0, hostOps0]; after_results; rfl
theorem V1_v6 : (V1 m c main_v6 : S1x768.Idx → Elt F .f32)
    = shapeCast S1x768 (m ((c : Thread nD τ).loc main_arg6)) shapeCasts_S768_S1x768 := by
  dsimp only [V1, W1, W0, hostOps0]; after_results; rfl
theorem V1_v7 : (V1 m c main_v7 : S1x768.Idx → Elt F .f32)
    = shapeCast S1x768 (m ((c : Thread nD τ).loc main_arg7)) shapeCasts_S768_S1x768 := by
  dsimp only [V1, W1, W0, hostOps0]; after_results; rfl
theorem V1_v8 : (V1 m c main_v8 : S1x768.Idx → Elt F .f32)
    = shapeCast S1x768 (m ((c : Thread nD τ).loc main_arg8)) shapeCasts_S768_S1x768 := by
  dsimp only [V1, W1, W0, hostOps0]; after_results; rfl
theorem V1_v9 : (V1 m c main_v9 : S1x24.Idx → Elt F .f32)
    = shapeCast S1x24 (m ((c : Thread nD τ).loc main_arg10)) shapeCasts_S24_S1x24 := by
  dsimp only [V1, W1, W0, hostOps0]; after_results; rfl
theorem V1_v10 : (V1 m c main_v10 : S4x128x768.Idx → Elt F .f32)
    = transpose S4x128x768 [1, 0, 2] (m ((c : Thread nD τ).loc main_arg0)) transposes_S128x4x768_S4x128x768_1_0_2 := by
  dsimp only [V1, W1, W0, hostOps0]; after_results
theorem V1_v11 : (V1 m c main_v11 : S4x128x768.Idx → Elt F .f32)
    = transpose S4x128x768 [1, 0, 2] (m ((c : Thread nD τ).loc main_arg1)) transposes_S128x4x768_S4x128x768_1_0_2 := by
  dsimp only [V1, W1, W0, hostOps0]; after_results
/-- The arguments the regions read directly are untouched by the host operations. -/
theorem V1_arg2 : (V1 m c main_arg2 : S128x4.Idx → Elt F .f32) = m ((c : Thread nD τ).loc main_arg2) := by
  dsimp only [V1, W1, W0, hostOps0]; after_results
theorem V1_arg9 : (V1 m c main_arg9 : S24x768.Idx → Elt F .f32) = m ((c : Thread nD τ).loc main_arg9) := by
  dsimp only [V1, W1, W0, hostOps0]; after_results

/-- The result: the final transpose of what the second region leaves. -/
theorem W4_v14 : (W4 m c (Proc.devRef .tc main_v14) : S128x128x4x24.Idx → Elt F .f32)
    = transpose S128x128x4x24 [1, 2, 0, 3] (W3 m c (Proc.devRef .tc main_v13)) transposes_S4x128x128x24_S128x128x4x24_1_2_0_3 := by
  dsimp only [W4, hostOps2]; after_results

/-! ## The same at an index -/

section
variable {α : Type}

theorem slice_cols_apply (o : Nat) {N : Nat} (x : (⟨2, ![768, N]⟩ : Shape).Idx → α)
    (h : (⟨2, ![768, N]⟩ : Shape).Slices ![0, o] ⟨2, ![768, 768]⟩) (k h' : Fin 768) (q : Fin N) (hq : q.val = o + h'.val) :
    extractStridedSlice ⟨2, ![768, 768]⟩ ![0, o] x h (ix2 k h') = x (ix2 k q) :=
  extractStridedSlice_apply _ x h _ _ fun a => match a with
    | ⟨0, _⟩ => by show k.val = 0 + k.val; omega
    | ⟨1, _⟩ => hq

theorem row_cast_apply {n : Nat} (x : (⟨1, ![n]⟩ : Shape).Idx → α) (h : (⟨1, ![n]⟩ : Shape).ShapeCasts ⟨2, ![1, n]⟩) (k : Fin n) :
    shapeCast ⟨2, ![1, n]⟩ x h (ix2 0 k) = x (ix1 k) :=
  shapeCast_apply x h _ _ (by rw [Shape.rowMajor_val_one, Shape.rowMajor_val_two]; show k.val = (0 : Fin 1).val * n + k.val; simp)

theorem swap01_apply (x : (⟨3, ![128, 4, 768]⟩ : Shape).Idx → α)
    (h : (⟨3, ![128, 4, 768]⟩ : Shape).Transposes [1, 0, 2] ⟨3, ![4, 128, 768]⟩) (b : Fin 4) (l : Fin 128) (k : Fin 768) :
    transpose ⟨3, ![4, 128, 768]⟩ [1, 0, 2] x h (ix3 b l k) = x (ix3 l b k) :=
  transpose_apply _ x h _ _ fun d => match d with | ⟨0, _⟩ => rfl | ⟨1, _⟩ => rfl | ⟨2, _⟩ => rfl

theorem out_transpose_apply (x : (⟨4, ![4, 128, 128, 24]⟩ : Shape).Idx → α)
    (h : (⟨4, ![4, 128, 128, 24]⟩ : Shape).Transposes [1, 2, 0, 3] ⟨4, ![128, 128, 4, 24]⟩) (i j : Fin 128) (b : Fin 4) (r : Fin 24) :
    transpose ⟨4, ![128, 128, 4, 24]⟩ [1, 2, 0, 3] x h (ix4 i j b r) = x (ix4 b i j r) :=
  transpose_apply _ x h _ _ fun d => match d with | ⟨0, _⟩ => rfl | ⟨1, _⟩ => rfl | ⟨2, _⟩ => rfl | ⟨3, _⟩ => rfl

end

end Cert.KernelIdeal.HandValue

end
-- ==== Proof.KI.V2Reads.lean ====
/-
  What the second region finds in the arrays the first region does not write: the scale and shift rows, the read-out
  weight and bias row, and the mask, each as the argument array it was made from.
-/
import proofs.«131939_j48103633715562_2_alg».proof.Proof.KI.HostReads

set_option maxRecDepth 16384

noncomputable section

namespace Cert.KernelIdeal.HandValue

open Cert.KernelIdeal.Hand Cert.Spec Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (c : Dev nD)

theorem V2_v7 (k : Fin 768) : (V2 m c main_v7 : S1x768.Idx → Elt F .f32) (ix2 0 k) = m ((c : Thread nD τ).loc main_arg7) (ix1 k) := by
  rw [show (V2 m c main_v7 : S1x768.Idx → Elt F .f32) = V1 m c main_v7 from W2_of_ne m c main_v7 (by decide), V1_v7]
  exact row_cast_apply _ _ k
theorem V2_v8 (k : Fin 768) : (V2 m c main_v8 : S1x768.Idx → Elt F .f32) (ix2 0 k) = m ((c : Thread nD τ).loc main_arg8) (ix1 k) := by
  rw [show (V2 m c main_v8 : S1x768.Idx → Elt F .f32) = V1 m c main_v8 from W2_of_ne m c main_v8 (by decide), V1_v8]
  exact row_cast_apply _ _ k
theorem V2_v9 (r : Fin 24) : (V2 m c main_v9 : S1x24.Idx → Elt F .f32) (ix2 0 r) = m ((c : Thread nD τ).loc main_arg10) (ix1 r) := by
  rw [show (V2 m c main_v9 : S1x24.Idx → Elt F .f32) = V1 m c main_v9 from W2_of_ne m c main_v9 (by decide), V1_v9]
  exact row_cast_apply _ _ r
theorem V2_arg9 : (V2 m c main_arg9 : S24x768.Idx → Elt F .f32) = m ((c : Thread nD τ).loc main_arg9) := by
  rw [show (V2 m c main_arg9 : S24x768.Idx → Elt F .f32) = V1 m c main_arg9 from W2_of_ne m c main_arg9 (by decide), V1_arg9]
theorem V2_arg2 : (V2 m c main_arg2 : S128x4.Idx → Elt F .f32) = m ((c : Thread nD τ).loc main_arg2) := by
  rw [show (V2 m c main_arg2 : S128x4.Idx → Elt F .f32) = V1 m c main_arg2 from W2_of_ne m c main_arg2 (by decide), V1_arg2]

/-- The first region's three results, as what its pipeline leaves. -/
theorem V2_v12_0 : (V2 m c main_v12_0 : S4x768.Idx → Elt F .f32) = (dat0 (V1 m) c).arrAt 9 cfg0.N := (hF0 m c 9).symm
theorem V2_v12_1 : (V2 m c main_v12_1 : S4x128x768.Idx → Elt F .f32) = (dat0 (V1 m) c).arrAt 10 cfg0.N := (hF0 m c 10).symm
theorem V2_v12_2 : (V2 m c main_v12_2 : S4x128x768.Idx → Elt F .f32) = (dat0 (V1 m) c).arrAt 11 cfg0.N := (hF0 m c 11).symm

/-- The second region's result, as what its pipeline leaves. -/
theorem V3_v13 : (W3 m c (Proc.devRef .tc main_v13) : S4x128x128x24.Idx → Elt F .f32) = (dat1 (V2 m) c).arrAt 9 cfg1.N := W3_v13 m c

end Cert.KernelIdeal.HandValue

end
-- ==== Proof.KI.Final0.lean ====
/-
  The first region's three output arrays after its pipeline.

  The region has one grid point, and every window's block is its whole array: the block index is zero on every axis and
  the block has the array's own sizes. So each input block, read off its array through the window, is the array; what the
  point writes back through an output window is the body's result on those arrays; and that one write-back covers every
  index of the output array. Each output array therefore ends holding the body's result applied to the input arrays.
-/
import proofs.«131939_j48103633715562_2_alg».proof.Proof.KI.Dat0
import Idealize.ShloMosaic.Lib.Pipeline.Value

set_option maxRecDepth 16384

noncomputable section

namespace Cert.KernelIdeal.HandValue

open Idealize.ShloMosaic Idealize.ShloMosaic.TcCoe Idealize.SL.Sem
open Idealize.ShloMosaic.Pipeline (Dat)
open Cert.KernelIdeal Cert.KernelIdeal.Gen Cert.KernelIdeal.Hand

variable {F : FTy → Type} [FloatOps F]
variable (V : (c : Dev nD) → (b : Ref sig .tc) → Buf (Elt F) ((c : Thread nD τ).loc b))

/-! ## Every input block is its array -/

theorem iblk0_0_eq (c : Dev nD) (t : Fin cfg0.N) : (iblk0 V c 0 t : Vec F S4x128x768 .f32) = V c main_v11 := by
  obtain rfl := fin_N0 t
  have hz' : (fun a => win0_0.index t0_0 a * main_v11.ty.shape.size a) = fun _ => 0 := funext fun a => by fin_cases a <;> decide
  exact Memref.read_access_unit_zero (Elt F) main_v11 hz' (fun a => by rw [congrFun hz' a]; simp) (V c main_v11)

theorem iblk0_1_eq (c : Dev nD) (t : Fin cfg0.N) : (iblk0 V c 1 t : Vec F S4x128x768 .f32) = V c main_v10 := by
  obtain rfl := fin_N0 t
  have hz' : (fun a => win0_1.index t0_0 a * main_v10.ty.shape.size a) = fun _ => 0 := funext fun a => by fin_cases a <;> decide
  exact Memref.read_access_unit_zero (Elt F) main_v10 hz' (fun a => by rw [congrFun hz' a]; simp) (V c main_v10)

theorem iblk0_2_eq (c : Dev nD) (t : Fin cfg0.N) : (iblk0 V c 2 t : Vec F S768x768 .f32) = V c main_v0 := by
  obtain rfl := fin_N0 t
  have hz' : (fun a => win0_2.index t0_0 a * main_v0.ty.shape.size a) = fun _ => 0 := funext fun a => by fin_cases a <;> decide
  exact Memref.read_access_unit_zero (Elt F) main_v0 hz' (fun a => by rw [congrFun hz' a]; simp) (V c main_v0)

theorem iblk0_3_eq (c : Dev nD) (t : Fin cfg0.N) : (iblk0 V c 3 t : Vec F S768x768 .f32) = V c main_v1 := by
  obtain rfl := fin_N0 t
  have hz' : (fun a => win0_3.index t0_0 a * main_v1.ty.shape.size a) = fun _ => 0 := funext fun a => by fin_cases a <;> decide
  exact Memref.read_access_unit_zero (Elt F) main_v1 hz' (fun a => by rw [congrFun hz' a]; simp) (V c main_v1)

theorem iblk0_4_eq (c : Dev nD) (t : Fin cfg0.N) : (iblk0 V c 4 t : Vec F S1x768 .f32) = V c main_v5 := by
  obtain rfl := fin_N0 t
  have hz' : (fun a => win0_4.index t0_0 a * main_v5.ty.shape.size a) = fun _ => 0 := funext fun a => by fin_cases a <;> decide
  exact Memref.read_access_unit_zero (Elt F) main_v5 hz' (fun a => by rw [congrFun hz' a]; simp) (V c main_v5)

theorem iblk0_5_eq (c : Dev nD) (t : Fin cfg0.N) : (iblk0 V c 5 t : Vec F S768x768 .f32) = V c main_v2 := by
  obtain rfl := fin_N0 t
  have hz' : (fun a => win0_5.index t0_0 a * main_v2.ty.shape.size a) = fun _ => 0 := funext fun a => by fin_cases a <;> decide
  exact Memref.read_access_unit_zero (Elt F) main_v2 hz' (fun a => by rw [congrFun hz' a]; simp) (V c main_v2)

theorem iblk0_6_eq (c : Dev nD) (t : Fin cfg0.N) : (iblk0 V c 6 t : Vec F S768x768 .f32) = V c main_v3 := by
  obtain rfl := fin_N0 t
  have hz' : (fun a => win0_6.index t0_0 a * main_v3.ty.shape.size a) = fun _ => 0 := funext fun a => by fin_cases a <;> decide
  exact Memref.read_access_unit_zero (Elt F) main_v3 hz' (fun a => by rw [congrFun hz' a]; simp) (V c main_v3)

theorem iblk0_7_eq (c : Dev nD) (t : Fin cfg0.N) : (iblk0 V c 7 t : Vec F S768x768 .f32) = V c main_v4 := by
  obtain rfl := fin_N0 t
  have hz' : (fun a => win0_7.index t0_0 a * main_v4.ty.shape.size a) = fun _ => 0 := funext fun a => by fin_cases a <;> decide
  exact Memref.read_access_unit_zero (Elt F) main_v4 hz' (fun a => by rw [congrFun hz' a]; simp) (V c main_v4)

theorem iblk0_8_eq (c : Dev nD) (t : Fin cfg0.N) : (iblk0 V c 8 t : Vec F S1x768 .f32) = V c main_v6 := by
  obtain rfl := fin_N0 t
  have hz' : (fun a => win0_8.index t0_0 a * main_v6.ty.shape.size a) = fun _ => 0 := funext fun a => by fin_cases a <;> decide
  exact Memref.read_access_unit_zero (Elt F) main_v6 hz' (fun a => by rw [congrFun hz' a]; simp) (V c main_v6)

/-! ## What the one point writes back, and the array after it -/

/-- The point writes back, through output window 9, the body's result on the input arrays. -/
theorem flushed0_9_eq (c : Dev nD) (t : Fin cfg0.N) :
    (dat0 V c).flushed 9 t = ((cfg0.win 9).blk t).view.read (Elt F)
      (out0_9 (V c main_v11) (V c main_v10) (V c main_v0) (V c main_v1) (V c main_v5) (V c main_v2) (V c main_v3) (V c main_v4) (V c main_v6)) := by
  show (cfg0.win 9).cut (grid0.coords t) ((dat0 V c).after 9 t) = _
  rw [after0_9, iblk0_0_eq, iblk0_1_eq, iblk0_2_eq, iblk0_3_eq, iblk0_4_eq, iblk0_5_eq, iblk0_6_eq, iblk0_7_eq, iblk0_8_eq]
  obtain rfl := fin_N0 t
  have hz' : (fun a => win0_9.index t0_0 a * main_v12_0.ty.shape.size a) = fun _ => 0 := funext fun a => by fin_cases a <;> decide
  exact (Memref.read_access_unit_zero (Elt F) main_v12_0 hz' (fun a => by rw [congrFun hz' a]; simp) _).symm

/-- The array of output window 9 after the region: the body's result on the input arrays. -/
theorem final0_9 (c : Dev nD) : (dat0 V c).arrAt 9 cfg0.N
    = out0_9 (V c main_v11) (V c main_v10) (V c main_v0) (V c main_v1) (V c main_v5) (V c main_v2) (V c main_v3) (V c main_v4) (V c main_v6) :=
  (dat0 V c).arrAt_eq_of_cover 9 (out0_9 (V c main_v11) (V c main_v10) (V c main_v0) (V c main_v1) (V c main_v5) (V c main_v2) (V c main_v3) (V c main_v4) (V c main_v6)) (fun t _ => flushed0_9_eq V c t) fun i =>
    ⟨t0_0, flush0_9 t0_0, by
      show i ∈ ((View.whole main_v12_0).slice (win0_9.rect t0_0)).set
      rw [View.set_slice_whole, Rect.mem_set_unit]
      intro a
      have h0 : (i 0 : Nat) < 4 := (i 0).isLt
      have h1 : (i 1 : Nat) < 768 := (i 1).isLt
      match a with
      | ⟨0, _⟩ =>
        show win0_9.index t0_0 0 * win0_9.size 0 ≤ (i 0 : Nat) ∧ (i 0 : Nat) < win0_9.index t0_0 0 * win0_9.size 0 + win0_9.xsize (grid0.coords t0_0) 0
        rw [show win0_9.index t0_0 0 * win0_9.size 0 = 0 from by decide +kernel, show win0_9.xsize (grid0.coords t0_0) 0 = 4 from by decide +kernel]; omega
      | ⟨1, _⟩ =>
        show win0_9.index t0_0 1 * win0_9.size 1 ≤ (i 1 : Nat) ∧ (i 1 : Nat) < win0_9.index t0_0 1 * win0_9.size 1 + win0_9.xsize (grid0.coords t0_0) 1
        rw [show win0_9.index t0_0 1 * win0_9.size 1 = 0 from by decide +kernel, show win0_9.xsize (grid0.coords t0_0) 1 = 768 from by decide +kernel]; omega⟩

/-- The point writes back, through output window 10, the body's result on the input arrays. -/
theorem flushed0_10_eq (c : Dev nD) (t : Fin cfg0.N) :
    (dat0 V c).flushed 10 t = ((cfg0.win 10).blk t).view.read (Elt F)
      (out0_10 (V c main_v11) (V c main_v10) (V c main_v0) (V c main_v1) (V c main_v5) (V c main_v2) (V c main_v3) (V c main_v4) (V c main_v6)) := by
  show (cfg0.win 10).cut (grid0.coords t) ((dat0 V c).after 10 t) = _
  rw [after0_10, iblk0_0_eq, iblk0_1_eq, iblk0_2_eq, iblk0_3_eq, iblk0_4_eq, iblk0_5_eq, iblk0_6_eq, iblk0_7_eq, iblk0_8_eq]
  obtain rfl := fin_N0 t
  have hz' : (fun a => win0_10.index t0_0 a * main_v12_1.ty.shape.size a) = fun _ => 0 := funext fun a => by fin_cases a <;> decide
  exact (Memref.read_access_unit_zero (Elt F) main_v12_1 hz' (fun a => by rw [congrFun hz' a]; simp) _).symm

/-- The array of output window 10 after the region: the body's result on the input arrays. -/
theorem final0_10 (c : Dev nD) : (dat0 V c).arrAt 10 cfg0.N
    = out0_10 (V c main_v11) (V c main_v10) (V c main_v0) (V c main_v1) (V c main_v5) (V c main_v2) (V c main_v3) (V c main_v4) (V c main_v6) :=
  (dat0 V c).arrAt_eq_of_cover 10 (out0_10 (V c main_v11) (V c main_v10) (V c main_v0) (V c main_v1) (V c main_v5) (V c main_v2) (V c main_v3) (V c main_v4) (V c main_v6)) (fun t _ => flushed0_10_eq V c t) fun i =>
    ⟨t0_0, flush0_10 t0_0, by
      show i ∈ ((View.whole main_v12_1).slice (win0_10.rect t0_0)).set
      rw [View.set_slice_whole, Rect.mem_set_unit]
      intro a
      have h0 : (i 0 : Nat) < 4 := (i 0).isLt
      have h1 : (i 1 : Nat) < 128 := (i 1).isLt
      have h2 : (i 2 : Nat) < 768 := (i 2).isLt
      match a with
      | ⟨0, _⟩ =>
        show win0_10.index t0_0 0 * win0_10.size 0 ≤ (i 0 : Nat) ∧ (i 0 : Nat) < win0_10.index t0_0 0 * win0_10.size 0 + win0_10.xsize (grid0.coords t0_0) 0
        rw [show win0_10.index t0_0 0 * win0_10.size 0 = 0 from by decide +kernel, show win0_10.xsize (grid0.coords t0_0) 0 = 4 from by decide +kernel]; omega
      | ⟨1, _⟩ =>
        show win0_10.index t0_0 1 * win0_10.size 1 ≤ (i 1 : Nat) ∧ (i 1 : Nat) < win0_10.index t0_0 1 * win0_10.size 1 + win0_10.xsize (grid0.coords t0_0) 1
        rw [show win0_10.index t0_0 1 * win0_10.size 1 = 0 from by decide +kernel, show win0_10.xsize (grid0.coords t0_0) 1 = 128 from by decide +kernel]; omega
      | ⟨2, _⟩ =>
        show win0_10.index t0_0 2 * win0_10.size 2 ≤ (i 2 : Nat) ∧ (i 2 : Nat) < win0_10.index t0_0 2 * win0_10.size 2 + win0_10.xsize (grid0.coords t0_0) 2
        rw [show win0_10.index t0_0 2 * win0_10.size 2 = 0 from by decide +kernel, show win0_10.xsize (grid0.coords t0_0) 2 = 768 from by decide +kernel]; omega⟩

/-- The point writes back, through output window 11, the body's result on the input arrays. -/
theorem flushed0_11_eq (c : Dev nD) (t : Fin cfg0.N) :
    (dat0 V c).flushed 11 t = ((cfg0.win 11).blk t).view.read (Elt F)
      (out0_11 (V c main_v11) (V c main_v10) (V c main_v0) (V c main_v1) (V c main_v5) (V c main_v2) (V c main_v3) (V c main_v4) (V c main_v6)) := by
  show (cfg0.win 11).cut (grid0.coords t) ((dat0 V c).after 11 t) = _
  rw [after0_11, iblk0_0_eq, iblk0_1_eq, iblk0_2_eq, iblk0_3_eq, iblk0_4_eq, iblk0_5_eq, iblk0_6_eq, iblk0_7_eq, iblk0_8_eq]
  obtain rfl := fin_N0 t
  have hz' : (fun a => win0_11.index t0_0 a * main_v12_2.ty.shape.size a) = fun _ => 0 := funext fun a => by fin_cases a <;> decide
  exact (Memref.read_access_unit_zero (Elt F) main_v12_2 hz' (fun a => by rw [congrFun hz' a]; simp) _).symm

/-- The array of output window 11 after the region: the body's result on the input arrays. -/
theorem final0_11 (c : Dev nD) : (dat0 V c).arrAt 11 cfg0.N
    = out0_11 (V c main_v11) (V c main_v10) (V c main_v0) (V c main_v1) (V c main_v5) (V c main_v2) (V c main_v3) (V c main_v4) (V c main_v6) :=
  (dat0 V c).arrAt_eq_of_cover 11 (out0_11 (V c main_v11) (V c main_v10) (V c main_v0) (V c main_v1) (V c main_v5) (V c main_v2) (V c main_v3) (V c main_v4) (V c main_v6)) (fun t _ => flushed0_11_eq V c t) fun i =>
    ⟨t0_0, flush0_11 t0_0, by
      show i ∈ ((View.whole main_v12_2).slice (win0_11.rect t0_0)).set
      rw [View.set_slice_whole, Rect.mem_set_unit]
      intro a
      have h0 : (i 0 : Nat) < 4 := (i 0).isLt
      have h1 : (i 1 : Nat) < 128 := (i 1).isLt
      have h2 : (i 2 : Nat) < 768 := (i 2).isLt
      match a with
      | ⟨0, _⟩ =>
        show win0_11.index t0_0 0 * win0_11.size 0 ≤ (i 0 : Nat) ∧ (i 0 : Nat) < win0_11.index t0_0 0 * win0_11.size 0 + win0_11.xsize (grid0.coords t0_0) 0
        rw [show win0_11.index t0_0 0 * win0_11.size 0 = 0 from by decide +kernel, show win0_11.xsize (grid0.coords t0_0) 0 = 4 from by decide +kernel]; omega
      | ⟨1, _⟩ =>
        show win0_11.index t0_0 1 * win0_11.size 1 ≤ (i 1 : Nat) ∧ (i 1 : Nat) < win0_11.index t0_0 1 * win0_11.size 1 + win0_11.xsize (grid0.coords t0_0) 1
        rw [show win0_11.index t0_0 1 * win0_11.size 1 = 0 from by decide +kernel, show win0_11.xsize (grid0.coords t0_0) 1 = 128 from by decide +kernel]; omega
      | ⟨2, _⟩ =>
        show win0_11.index t0_0 2 * win0_11.size 2 ≤ (i 2 : Nat) ∧ (i 2 : Nat) < win0_11.index t0_0 2 * win0_11.size 2 + win0_11.xsize (grid0.coords t0_0) 2
        rw [show win0_11.index t0_0 2 * win0_11.size 2 = 0 from by decide +kernel, show win0_11.xsize (grid0.coords t0_0) 2 = 768 from by decide +kernel]; omega⟩

end Cert.KernelIdeal.HandValue

end
-- ==== Proof.KI.Body0Value.lean ====
import proofs.«131939_j48103633715562_2_alg».proof.Proof.KI.Out
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-! # The output buffers as plain functions of the input blocks

Each access of either body goes through the rectangle that starts at the origin and has the buffer's own sizes.
A read through that rectangle returns the buffer's contents unchanged, and a single store through it leaves exactly
the stored value. So each output buffer after the body is the body's arithmetic applied directly to the input
blocks, with no rectangle left in the expression. -/

/-! ## The origin, spelt as the literal offset vectors of the accesses -/

theorem origin2 : (![0, 0] : Fin 2 → Nat) = fun _ => 0 := funext fun a => by fin_cases a <;> rfl
theorem origin3 : (![0, 0, 0] : Fin 3 → Nat) = fun _ => 0 := funext fun a => by fin_cases a <;> rfl
theorem origin4 : (![0, 0, 0, 0] : Fin 4 → Nat) = fun _ => 0 := funext fun a => by fin_cases a <;> rfl

/-! ## First region -/

/-- Output window 9: the two activation blocks (windows 0 and 1), rounded to half precision, are projected through
    the weight blocks of windows 2 and 3 and summed with the bias row of window 4; the hyperbolic tangent of that is
    maximised over the 128 rows, rounded, projected through the weight block of window 7, and the bias row of
    window 8 is added. Windows 5 and 6 do not enter. -/
theorem out0_9_eq (x0 x1 : Vec F S4x128x768 .f32) (x2 x3 : Vec F S768x768 .f32) (x4 : Vec F S1x768 .f32)
    (x5 x6 x7 : Vec F S768x768 .f32) (x8 : Vec F S1x768 .f32) :
    out0_9 x0 x1 x2 x3 x4 x5 x6 x7 x8 = k0_pay1 (k0_pay7 x0 x1 x2 x3 x7 x4) x8 := by
  unfold out0_9
  rw [View.canon_unit_zero origin2]
  simp only [View.ld_unit_zero (S := S4x128x768) origin3, View.ld_unit_zero (S := S768x768) origin2,
    View.ld_unit_zero (S := S1x768) origin2]

/-- Output window 10: the activation block of window 1 projected through the weight block of window 5 (both rounded
    to half precision, the product contracted along the 768 axis of each). No other window enters. -/
theorem out0_10_eq (x0 x1 : Vec F S4x128x768 .f32) (x2 x3 : Vec F S768x768 .f32) (x4 : Vec F S1x768 .f32)
    (x5 x6 x7 : Vec F S768x768 .f32) (x8 : Vec F S1x768 .f32) :
    out0_10 x0 x1 x2 x3 x4 x5 x6 x7 x8 = k0_pay2 (k0_pay4 x1) (k0_pay5 x5) := by
  unfold out0_10
  rw [View.canon_unit_zero origin3]
  simp only [View.ld_unit_zero (S := S4x128x768) origin3, View.ld_unit_zero (S := S768x768) origin2]

/-- Output window 11: the activation block of window 1 projected through the weight block of window 6 (both rounded
    to half precision, the product contracted along the 768 axis of each). No other window enters. -/
theorem out0_11_eq (x0 x1 : Vec F S4x128x768 .f32) (x2 x3 : Vec F S768x768 .f32) (x4 : Vec F S1x768 .f32)
    (x5 x6 x7 : Vec F S768x768 .f32) (x8 : Vec F S1x768 .f32) :
    out0_11 x0 x1 x2 x3 x4 x5 x6 x7 x8 = k0_pay3 (k0_pay4 x1) (k0_pay6 x6) := by
  unfold out0_11
  rw [View.canon_unit_zero origin3]
  simp only [View.ld_unit_zero (S := S4x128x768) origin3, View.ld_unit_zero (S := S768x768) origin2]

/-! ## Second region -/

/-- The second region's output window: every row of window 0's block is added to every row of window 1's block and to
    window 2's row; the sum is normalised along the 768 axis (mean and variance over 768, 1e-5 added under the inverse
    square root), scaled by window 3 and shifted by window 4; the exponential-linear unit of that (its comparison is
    against the zero constant the first part hands over) is rounded to half precision, read out through the weight of
    window 5, the bias of window 6 is added, the logistic function is applied, and the result is multiplied by the
    product of the mask blocks of windows 7 and 8. -/
theorem out1_9_eq (x0 : Vec F S4x16x768 .f32) (x1 : Vec F S4x32x768 .f32) (x2 : Vec F S4x768 .f32)
    (x3 x4 : Vec F S1x768 .f32) (x5 : Vec F S24x768 .f32) (x6 : Vec F S1x24 .f32) (x7 : Vec F S16x4 .f32)
    (x8 : Vec F S32x4 .f32) :
    out1_9 x0 x1 x2 x3 x4 x5 x6 x7 x8
      = k1_pay1 (k1_pay2 x0 x1 x2 x3 x4) (Scalar.ofBits .f32 0x00000000#32) x5 x6 x7 x8 := by
  unfold out1_9
  rw [View.canon_unit_zero origin4]
  simp only [View.ld_unit_zero (S := S4x16x768) origin3, View.ld_unit_zero (S := S4x32x768) origin3,
    View.ld_unit_zero (S := S4x768) origin2, View.ld_unit_zero (S := S1x768) origin2,
    View.ld_unit_zero (S := S24x768) origin2, View.ld_unit_zero (S := S1x24) origin2,
    View.ld_unit_zero (S := S16x4) origin2, View.ld_unit_zero (S := S32x4) origin2]

end Cert.KernelIdeal.Hand

end
-- ==== Proof.KI.PayIdx.lean ====
import proofs.«131939_j48103633715562_2_alg».proof.Proof.Gen.KernelIdeal.Skeleton
import proofs.«131939_j48103633715562_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandValue

open Idealize.ShloMosaic Idealize.ShloMosaic.ValueIdx
open Cert.Spec Cert.KernelIdeal Cert.KernelIdeal.Gen

/-! # The kernel's arithmetic read at an index, over the extended reals

Every lemma is stated over variables of the literal vector types and explicit coordinates. -/

/-! ## A product contracted along the last axis of both operands

The three products of the kernel all contract the second axis of an M×K operand with the second axis of an N×K
operand and accumulate into a zero array: entry (p, q) is the sum over h of A(p, h) · B(q, h). -/

theorem matmul_lastAxes_apply {M K N : Nat} {φ₁ φ₂ : FTy}
    (w : DotDims.WF ⟨2, ![M, K]⟩ ⟨2, ![N, K]⟩ ⟨2, ![M, N]⟩ [1] [1] [0] [0] [] [])
    (A : FVec Ideal ⟨2, ![M, K]⟩ φ₁) (B : FVec Ideal ⟨2, ![N, K]⟩ φ₂) (p : Fin M) (q : Fin N) :
    matmul (⟨[1], [1], [0], [0], [], [], w⟩ : DotDims ⟨2, ![M, K]⟩ ⟨2, ![N, K]⟩ ⟨2, ![M, N]⟩) none A B
        (constant (F := Ideal) ⟨2, ![M, N]⟩ .f32 0x00000000#32) (ix2 p q)
      = ∑ h : Fin K, A (ix2 p h) * B (ix2 q h) := by
  show FloatOps.matmul _ none A B _ (ix2 p q) = _
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun c _ => ?_
  have c2 := contrEquiv1_symm_val (⟨[1], [1], [0], [0], [], [], w⟩ : DotDims ⟨2, ![M, K]⟩ ⟨2, ![N, K]⟩ ⟨2, ![M, N]⟩) K rfl rfl c
  have l2 : (⟨[1], [1], [0], [0], [], [], w⟩ : DotDims ⟨2, ![M, K]⟩ ⟨2, ![N, K]⟩ ⟨2, ![M, N]⟩).lhsIdx (ix2 p q)
      ((contrEquiv1 _ K rfl rfl).symm c) = ix2 p c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![M, K]⟩ ⟨2, ![N, K]⟩ ⟨2, ![M, N]⟩).rhsIdx (ix2 p q)
      ((contrEquiv1 _ K rfl rfl).symm c) = ix2 q c := by
    funext ax; apply Fin.ext
    match ax with
    | ⟨0, _⟩ => simp [DotDims.rhsIdx]; rfl
    | ⟨1, _⟩ => simp [DotDims.rhsIdx]; exact c2
  rw [l2, r2]

/-! ## The first region's projections -/

/-- Row b·128 + l of the 512-row arrangement of a [4, 128, ·] block. -/
def row512 (b : Fin 4) (l : Fin 128) : Fin 512 := ⟨b.val * 128 + l.val, by omega⟩

/-- The activation block rounded and laid out as 512 rows: row b·128 + l, column h is entry (b, l, h). -/
theorem pay4_apply (x1 : Vec Ideal S4x128x768 .f32) (b : Fin 4) (l : Fin 128) (h : Fin 768) :
    k0_pay4 (F := Ideal) x1 (ix2 (row512 b l) h) = x1 (ix3 b l h) := by
  unfold k0_pay4
  refine (shapeCast_apply _ _ (ix2 (row512 b l) h) (ix3 b l h) (by
    rw [Shape.rowMajor_val_two, Shape.rowMajor_val_three]; rfl)).trans ?_
  show shapeCast S4x128x768 x1 shapeCasts_S4x128x768_S4x128x768 (ix3 b l h) = _
  rw [shapeCast_self]

/-- A weight block rounded: the same entries. -/
theorem pay5_apply (x5 : Vec Ideal S768x768 .f32) (j : S768x768.Idx) : k0_pay5 (F := Ideal) x5 j = x5 j := by
  unfold k0_pay5
  show shapeCast S768x768 x5 shapeCasts_S768x768_S768x768 j = _
  rw [shapeCast_self]

theorem pay6_apply (x6 : Vec Ideal S768x768 .f32) (j : S768x768.Idx) : k0_pay6 (F := Ideal) x6 j = x6 j := by
  unfold k0_pay6
  show shapeCast S768x768 x6 shapeCasts_S768x768_S768x768 j = _
  rw [shapeCast_self]

/-- (P1) The first projection: entry (b, l, k) is the sum over h of x1(b, l, h) · x5(k, h). -/
theorem pay2_apply (x1 : Vec Ideal S4x128x768 .f32) (x5 : Vec Ideal S768x768 .f32) (b : Fin 4) (l : Fin 128) (k : Fin 768) :
    k0_pay2 (F := Ideal) (k0_pay4 x1) (k0_pay5 x5) (ix3 b l k) = ∑ h : Fin 768, x1 (ix3 b l h) * x5 (ix2 k h) := by
  unfold k0_pay2
  refine (shapeCast_apply _ _ (ix3 b l k) (ix2 (row512 b l) k) (by
    rw [Shape.rowMajor_val_two, Shape.rowMajor_val_three]; rfl)).trans ?_
  refine (matmul_lastAxes_apply dot_S512x768_S768x768_S512x768_1_1_0_0_n_n_wf _ _ (row512 b l) k).trans ?_
  refine Finset.sum_congr rfl fun h _ => ?_
  rw [pay4_apply, pay5_apply]

/-- (P2) The second projection: entry (b, l, k) is the sum over h of x1(b, l, h) · x6(k, h). -/
theorem pay3_apply (x1 : Vec Ideal S4x128x768 .f32) (x6 : Vec Ideal S768x768 .f32) (b : Fin 4) (l : Fin 128) (k : Fin 768) :
    k0_pay3 (F := Ideal) (k0_pay4 x1) (k0_pay6 x6) (ix3 b l k) = ∑ h : Fin 768, x1 (ix3 b l h) * x6 (ix2 k h) := by
  unfold k0_pay3
  refine (shapeCast_apply _ _ (ix3 b l k) (ix2 (row512 b l) k) (by
    rw [Shape.rowMajor_val_two, Shape.rowMajor_val_three]; rfl)).trans ?_
  refine (matmul_lastAxes_apply dot_S512x768_S768x768_S512x768_1_1_0_0_n_n_wf _ _ (row512 b l) k).trans ?_
  refine Finset.sum_congr rfl fun h _ => ?_
  rw [pay4_apply, pay6_apply]

end Cert.KernelIdeal.HandValue

end
-- ==== Proof.KI.PayIdx0.lean ====
import proofs.«131939_j48103633715562_2_alg».proof.Proof.KI.PayIdx
import proofs.«131939_j48103633715562_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandValue

open Idealize.ShloMosaic Idealize.ShloMosaic.ValueIdx
open Cert.Spec Cert.KernelIdeal Cert.KernelIdeal.Gen

/-! # The first region's additive term read at an index

The stored value is taken apart into named stages: the sum of the two projections plus the bias row, the maximum
over the 128 rows of its hyperbolic tangent, the last projection, the second bias row. -/

/-! ## Stage 1: s(b, l, h) = (Σ x0(b, l, ·) x2(h, ·) + Σ x1(b, l, ·) x3(h, ·)) + x4(h) -/

def sArr (x0 x1 : Vec Ideal S4x128x768 .f32) (x2 x3 : Vec Ideal S768x768 .f32) (x4 : Vec Ideal S1x768 .f32) :
    FVec Ideal S4x128x768 .f32 :=
  addf (addf (k0_pay2 (F := Ideal) (k0_pay4 x0) (k0_pay5 x2)) (k0_pay2 (F := Ideal) (k0_pay4 x1) (k0_pay5 x3)))
    (broadcastTo S4x128x768 (shapeCast S1x1x768 (shapeCast S1x768 x4 shapeCasts_S1x768_S1x768 : FVec Ideal S1x768 .f32)
      shapeCasts_S1x768_S1x1x768) broadcasts_S1x1x768_S4x128x768)

theorem sArr_apply (x0 x1 : Vec Ideal S4x128x768 .f32) (x2 x3 : Vec Ideal S768x768 .f32) (x4 : Vec Ideal S1x768 .f32)
    (b : Fin 4) (l : Fin 128) (h : Fin 768) :
    sArr x0 x1 x2 x3 x4 (ix3 b l h)
      = ((∑ h' : Fin 768, x0 (ix3 b l h') * x2 (ix2 h h')) + (∑ h' : Fin 768, x1 (ix3 b l h') * x3 (ix2 h h')))
        + x4 (ix2 (0 : Fin 1) h) := by
  unfold sArr
  refine congrArg₂ (· + ·) (congrArg₂ (· + ·) (pay2_apply x0 x2 b l h) (pay2_apply x1 x3 b l h)) ?_
  refine (broadcastTo_apply _ _ (ix3 b l h) (ix3 (0 : Fin 1) (0 : Fin 1) h) (fun a => match a with | ⟨0, _⟩ => rfl | ⟨1, _⟩ => rfl | ⟨2, _⟩ => rfl)).trans ?_
  refine (shapeCast_apply _ _ (ix3 (0 : Fin 1) (0 : Fin 1) h) (ix2 (0 : Fin 1) h) (by
    rw [Shape.rowMajor_val_two, Shape.rowMajor_val_three]
    show 0 * 768 + h.val = (0 * 1 + 0) * 768 + h.val; omega)).trans ?_
  rw [shapeCast_self]

/-! ## Stage 2: the maximum over the 128 rows of the hyperbolic tangent -/

def gArr (S : FVec Ideal S4x128x768 .f32) : FVec Ideal S4x768 .f32 :=
  multiReduction (F := Ideal) .maximumf [1] S4x768 (tanh S) 0xFF800000#32 reduces_S4x128x768_S4x768 (.inl rfl) rfl

theorem gArr_apply (S : FVec Ideal S4x128x768 .f32) (b : Fin 4) (h : Fin 768) :
    gArr S (ix2 b h) = gMaxR (fun l => S (ix3 b l h)) := by
  unfold gArr gMaxR negInf
  refine (Ideal.multiReduction_maximumf_single (tanh S) 0xFF800000#32 reduces_S4x128x768_S4x768 _ _ (ix2 b h)).trans ?_
  show (Finset.univ : Finset (Fin 128)).fold max (Ideal.ofBits .f32 0xFF800000#32)
    (tanh S ∘ reduces_S4x128x768_S4x768.lift (ix2 b h)) = _
  refine congrArg (fun f => (Finset.univ : Finset (Fin 128)).fold max (Ideal.ofBits .f32 0xFF800000#32) f) ?_
  funext l
  show Ideal.tanh (S (reduces_S4x128x768_S4x768.lift (ix2 b h) l)) = Ideal.tanh (S (ix3 b l h))
  exact congrArg (fun y => Ideal.tanh (S y)) (funext fun a => Fin.ext
    (match a with | ⟨0, _⟩ => rfl | ⟨1, _⟩ => rfl | ⟨2, _⟩ => rfl))

/-! ## Stage 3: the last projection and the second bias row; (P3) -/

def rowB (v : Vec Ideal S1x768 .f32) : FVec Ideal S4x768 .f32 :=
  broadcastTo S4x768 (shapeCast S1x768 v shapeCasts_S1x768_S1x768 : FVec Ideal S1x768 .f32) broadcasts_S1x768_S4x768

theorem rowB_apply (v : Vec Ideal S1x768 .f32) (b : Fin 4) (k : Fin 768) : rowB v (ix2 b k) = v (ix2 (0 : Fin 1) k) := by
  unfold rowB
  refine (broadcastTo_apply _ _ (ix2 b k) (ix2 (0 : Fin 1) k) (fun a => match a with | ⟨0, _⟩ => rfl | ⟨1, _⟩ => rfl)).trans ?_
  rw [shapeCast_self]

/-- The last projection: the row maxima, rounded, through the weight block of window 7. -/
def lastProj (G : FVec Ideal S4x768 .f32) (w : Vec Ideal S768x768 .f32) : FVec Ideal S4x768 .f32 :=
  matmul dot_S4x768_S768x768_S4x768_1_1_0_0_n_n none (truncf .bf16 G bitsLt_bf16_f32) (k0_pay5 (F := Ideal) w)
    (constant (F := Ideal) S4x768 .f32 0x00000000#32)

theorem lastProj_apply (G : FVec Ideal S4x768 .f32) (w : Vec Ideal S768x768 .f32) (b : Fin 4) (k : Fin 768) :
    lastProj G w (ix2 b k) = ∑ h : Fin 768, G (ix2 b h) * w (ix2 k h) := by
  unfold lastProj
  refine (matmul_lastAxes_apply dot_S4x768_S768x768_S4x768_1_1_0_0_n_n_wf _ _ b k).trans ?_
  refine Finset.sum_congr rfl fun h _ => ?_
  rw [pay5_apply, truncf_apply]

theorem pay1_eq (x0 x1 : Vec Ideal S4x128x768 .f32) (x2 x3 x7 : Vec Ideal S768x768 .f32) (x4 x8 : Vec Ideal S1x768 .f32) :
    k0_pay1 (F := Ideal) (k0_pay7 x0 x1 x2 x3 x7 x4) x8
      = addf (lastProj (gArr (sArr x0 x1 x2 x3 x4)) x7) (rowB x8) := rfl

/-- The last two steps over ANY array of row maxima: the projection at (b, k) plus the bias entry. -/
theorem lastProj_add_apply (G : FVec Ideal S4x768 .f32) (w : Vec Ideal S768x768 .f32) (v : Vec Ideal S1x768 .f32)
    (b : Fin 4) (k : Fin 768) :
    addf (lastProj G w) (rowB v) (ix2 b k) = (∑ h : Fin 768, G (ix2 b h) * w (ix2 k h)) + v (ix2 (0 : Fin 1) k) := by
  show lastProj G w (ix2 b k) + rowB v (ix2 b k) = _
  rw [lastProj_apply, rowB_apply]

/-- (P3) The first region's additive term at (b, k). -/
theorem pay1_apply (x0 x1 : Vec Ideal S4x128x768 .f32) (x2 x3 x7 : Vec Ideal S768x768 .f32) (x4 x8 : Vec Ideal S1x768 .f32)
    (b : Fin 4) (k : Fin 768) :
    k0_pay1 (F := Ideal) (k0_pay7 x0 x1 x2 x3 x7 x4) x8 (ix2 b k)
      = (∑ h : Fin 768, gMaxR (fun l => ((∑ h' : Fin 768, x0 (ix3 b l h') * x2 (ix2 h h'))
            + (∑ h' : Fin 768, x1 (ix3 b l h') * x3 (ix2 h h'))) + x4 (ix2 0 h)) * x7 (ix2 k h)) + x8 (ix2 0 k) := by
  rw [pay1_eq]
  refine (lastProj_add_apply (gArr (sArr x0 x1 x2 x3 x4)) x7 x8 b k).trans ?_
  refine congrArg (· + x8 (ix2 (0 : Fin 1) k)) ?_
  refine Finset.sum_congr rfl fun h _ => ?_
  refine congrArg (· * x7 (ix2 k h)) ?_
  exact (gArr_apply (sArr x0 x1 x2 x3 x4) b h).trans (congrArg gMaxR (funext fun l => sArr_apply x0 x1 x2 x3 x4 b l h))

end Cert.KernelIdeal.HandValue

end
-- ==== Proof.KI.Value0.lean ====
/-
  The first region's results as the specification's functions of the argument arrays: the two projections are the
  second activation (rows and batch swapped back) times a column window of the second weight; the additive term is
  the row-wise maximum of tanh of the joint projection, projected through the last column window, plus the bias.
-/
import proofs.«131939_j48103633715562_2_alg».proof.Proof.KI.V2Reads
import proofs.«131939_j48103633715562_2_alg».proof.Proof.KI.Final0
import proofs.«131939_j48103633715562_2_alg».proof.Proof.KI.Body0Value
import proofs.«131939_j48103633715562_2_alg».proof.Proof.KI.PayIdx
import proofs.«131939_j48103633715562_2_alg».proof.Proof.KI.PayIdx0

set_option maxRecDepth 16384

noncomputable section

namespace Cert.KernelIdeal.HandValue

open Cert.KernelIdeal.Hand Cert.Spec Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (c : Dev nD)

/-- The eleven argument arrays on core `c`. -/
abbrev A0 : S128x4x768.Idx → EReal := m ((c : Thread nD τ).loc main_arg0)
abbrev A1 : S128x4x768.Idx → EReal := m ((c : Thread nD τ).loc main_arg1)
abbrev A2 : S128x4.Idx → EReal := m ((c : Thread nD τ).loc main_arg2)
abbrev A3 : S768x1536.Idx → EReal := m ((c : Thread nD τ).loc main_arg3)
abbrev A4 : S768.Idx → EReal := m ((c : Thread nD τ).loc main_arg4)
abbrev A5 : S768x2304.Idx → EReal := m ((c : Thread nD τ).loc main_arg5)
abbrev A6 : S768.Idx → EReal := m ((c : Thread nD τ).loc main_arg6)
abbrev A7 : S768.Idx → EReal := m ((c : Thread nD τ).loc main_arg7)
abbrev A8 : S768.Idx → EReal := m ((c : Thread nD τ).loc main_arg8)
abbrev A9 : S24x768.Idx → EReal := m ((c : Thread nD τ).loc main_arg9)
abbrev A10 : S24.Idx → EReal := m ((c : Thread nD τ).loc main_arg10)

/-- The second activation as the region reads it, (batch, position, feature), is the argument at (position, batch, feature). -/
theorem v10_apply (b : Fin 4) (l : Fin 128) (h : Fin 768) :
    (V1 m c main_v10 : S4x128x768.Idx → EReal) (ix3 b l h) = A0 m c (ix3 l b h) := by
  rw [V1_v10]; exact swap01_apply _ _ b l h
theorem v11_apply (b : Fin 4) (l : Fin 128) (h : Fin 768) :
    (V1 m c main_v11 : S4x128x768.Idx → EReal) (ix3 b l h) = A1 m c (ix3 l b h) := by
  rw [V1_v11]; exact swap01_apply _ _ b l h

/-- The five weight windows. -/
theorem v0_apply (k h : Fin 768) : (V1 m c main_v0 : S768x768.Idx → EReal) (ix2 k h) = A3 m c (ix2 k (lo h)) := by
  rw [V1_v0]; exact slice_cols_apply 0 _ _ k h (lo h) (by simp [lo])
theorem v1_apply (k h : Fin 768) : (V1 m c main_v1 : S768x768.Idx → EReal) (ix2 k h) = A3 m c (ix2 k (hi h)) := by
  rw [V1_v1]; exact slice_cols_apply 768 _ _ k h (hi h) (by simp [hi])
theorem v2_apply (k h : Fin 768) : (V1 m c main_v2 : S768x768.Idx → EReal) (ix2 k h) = A5 m c (ix2 k (c0 h)) := by
  rw [V1_v2]; exact slice_cols_apply 0 _ _ k h (c0 h) (by simp [c0])
theorem v3_apply (k h : Fin 768) : (V1 m c main_v3 : S768x768.Idx → EReal) (ix2 k h) = A5 m c (ix2 k (c1 h)) := by
  rw [V1_v3]; exact slice_cols_apply 768 _ _ k h (c1 h) (by simp [c1])
theorem v4_apply (k h : Fin 768) : (V1 m c main_v4 : S768x768.Idx → EReal) (ix2 k h) = A5 m c (ix2 k (c2 h)) := by
  rw [V1_v4]; exact slice_cols_apply 1536 _ _ k h (c2 h) (by simp [c2])
/-- The two bias rows. -/
theorem v5_apply (k : Fin 768) : (V1 m c main_v5 : S1x768.Idx → EReal) (ix2 0 k) = A4 m c (ix1 k) := by
  rw [V1_v5]; exact row_cast_apply _ _ k
theorem v6_apply (k : Fin 768) : (V1 m c main_v6 : S1x768.Idx → EReal) (ix2 0 k) = A6 m c (ix1 k) := by
  rw [V1_v6]; exact row_cast_apply _ _ k

/-- The first projection. -/
theorem V2_p1 (b : Fin 4) (l : Fin 128) (k : Fin 768) :
    (V2 m c main_v12_1 : S4x128x768.Idx → EReal) (ix3 b l k) = p1 (A0 m c) (A5 m c) l b k := by
  have e : (V2 m c main_v12_1 : S4x128x768.Idx → EReal)
      = k0_pay2 (F := Ideal) (k0_pay4 (V1 m c main_v10)) (k0_pay5 (V1 m c main_v2)) := by
    rw [V2_v12_1, final0_10 (V1 m) c, out0_10_eq]
  rw [e]
  refine (pay2_apply _ _ b l k).trans ?_
  unfold p1
  exact Finset.sum_congr rfl fun h _ => by rw [v10_apply, v2_apply]

/-- The second projection. -/
theorem V2_p2 (b : Fin 4) (l : Fin 128) (k : Fin 768) :
    (V2 m c main_v12_2 : S4x128x768.Idx → EReal) (ix3 b l k) = p2 (A0 m c) (A5 m c) l b k := by
  have e : (V2 m c main_v12_2 : S4x128x768.Idx → EReal)
      = k0_pay3 (F := Ideal) (k0_pay4 (V1 m c main_v10)) (k0_pay6 (V1 m c main_v3)) := by
    rw [V2_v12_2, final0_11 (V1 m) c, out0_11_eq]
  rw [e]
  refine (pay3_apply _ _ b l k).trans ?_
  unfold p2
  exact Finset.sum_congr rfl fun h _ => by rw [v10_apply, v3_apply]

/-- The additive term. -/
theorem V2_pg (b : Fin 4) (k : Fin 768) :
    (V2 m c main_v12_0 : S4x768.Idx → EReal) (ix2 b k) = pg (A0 m c) (A1 m c) (A3 m c) (A4 m c) (A5 m c) (A6 m c) b k := by
  have e : (V2 m c main_v12_0 : S4x768.Idx → EReal)
      = k0_pay1 (F := Ideal) (k0_pay7 (V1 m c main_v11) (V1 m c main_v10) (V1 m c main_v0) (V1 m c main_v1) (V1 m c main_v4) (V1 m c main_v5)) (V1 m c main_v6) := by
    rw [V2_v12_0, final0_9 (V1 m) c, out0_9_eq]
  rw [e]
  refine (pay1_apply _ _ _ _ _ _ _ b k).trans ?_
  unfold pg gMax sPre
  rw [v6_apply]
  refine congrArg (· + _) (Finset.sum_congr rfl fun h _ => ?_)
  rw [v4_apply]
  refine congrArg (· * _) (congrArg gMaxR (funext fun l => ?_))
  rw [v5_apply]
  refine congrArg (· + _) (congrArg₂ (· + ·) (Finset.sum_congr rfl fun h' _ => ?_) (Finset.sum_congr rfl fun h' _ => ?_))
  · rw [v11_apply, v0_apply]
  · rw [v10_apply, v1_apply]

end Cert.KernelIdeal.HandValue

end
-- ==== Proof.KI.PayIdx1.lean ====
import proofs.«131939_j48103633715562_2_alg».proof.Proof.KI.PayIdx
import proofs.«131939_j48103633715562_2_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.HandValue

open Idealize.ShloMosaic Idealize.ShloMosaic.ValueIdx
open Cert.Spec Cert.KernelIdeal Cert.KernelIdeal.Gen

/-! # The second region's arithmetic read at an index

The stored value is taken apart into named stages — the pairwise sum, the normalisation along the last axis, the
exponential-linear unit, the read-out, the logistic function, the mask product —, each stage is read at an index
by a small lemma, and the stages are put together at the end. -/

/-- The one-word fact: the binary word of 1.0. -/
theorem one_f32 : Ideal.ofBits .f32 0x3F800000#32 = 1 := by
  simp [Ideal.ofBits, Ideal.ieee, -EReal.coe_mul]; norm_num

/-! ## Stage 1: z(b, i, j, k) = (x0(b, i, k) + x1(b, j, k)) + x2(b, k) -/

def zArr (x0 : Vec Ideal S4x16x768 .f32) (x1 : Vec Ideal S4x32x768 .f32) (x2 : Vec Ideal S4x768 .f32) :
    FVec Ideal S4x16x32x768 .f32 :=
  addf (addf
      (broadcastTo S4x16x32x768 (shapeCast S4x16x1x768 (shapeCast S4x16x768 x0 shapeCasts_S4x16x768_S4x16x768 : FVec Ideal S4x16x768 .f32)
        shapeCasts_S4x16x768_S4x16x1x768) broadcasts_S4x16x1x768_S4x16x32x768)
      (broadcastTo S4x16x32x768 (shapeCast S4x1x32x768 (shapeCast S4x32x768 x1 shapeCasts_S4x32x768_S4x32x768 : FVec Ideal S4x32x768 .f32)
        shapeCasts_S4x32x768_S4x1x32x768) broadcasts_S4x1x32x768_S4x16x32x768))
    (broadcastTo S4x16x32x768 (shapeCast S4x1x1x768 (shapeCast S4x768 x2 shapeCasts_S4x768_S4x768 : FVec Ideal S4x768 .f32)
      shapeCasts_S4x768_S4x1x1x768) broadcasts_S4x1x1x768_S4x16x32x768)

theorem zArr_apply (x0 : Vec Ideal S4x16x768 .f32) (x1 : Vec Ideal S4x32x768 .f32) (x2 : Vec Ideal S4x768 .f32)
    (b : Fin 4) (i : Fin 16) (j : Fin 32) (k : Fin 768) :
    zArr x0 x1 x2 (ix4 b i j k) = (x0 (ix3 b i k) + x1 (ix3 b j k)) + x2 (ix2 b k) := by
  unfold zArr
  refine congrArg₂ (· + ·) (congrArg₂ (· + ·) ?_ ?_) ?_
  · refine (broadcastTo_apply _ _ (ix4 b i j k) (ix4 b i (0 : Fin 1) k) (fun a => match a with | ⟨0, _⟩ => rfl | ⟨1, _⟩ => rfl | ⟨2, _⟩ => rfl | ⟨3, _⟩ => rfl)).trans ?_
    refine (shapeCast_apply _ _ (ix4 b i (0 : Fin 1) k) (ix3 b i k) (by
      rw [Shape.rowMajor_val_three, Shape.rowMajor_val_four]
      show (b.val * 16 + i.val) * 768 + k.val = ((b.val * 16 + i.val) * 1 + 0) * 768 + k.val; omega)).trans ?_
    rw [shapeCast_self]
  · refine (broadcastTo_apply _ _ (ix4 b i j k) (ix4 b (0 : Fin 1) j k) (fun a => match a with | ⟨0, _⟩ => rfl | ⟨1, _⟩ => rfl | ⟨2, _⟩ => rfl | ⟨3, _⟩ => rfl)).trans ?_
    refine (shapeCast_apply _ _ (ix4 b (0 : Fin 1) j k) (ix3 b j k) (by
      rw [Shape.rowMajor_val_three, Shape.rowMajor_val_four]
      show (b.val * 32 + j.val) * 768 + k.val = ((b.val * 1 + 0) * 32 + j.val) * 768 + k.val; omega)).trans ?_
    rw [shapeCast_self]
  · refine (broadcastTo_apply _ _ (ix4 b i j k) (ix4 b (0 : Fin 1) (0 : Fin 1) k) (fun a => match a with | ⟨0, _⟩ => rfl | ⟨1, _⟩ => rfl | ⟨2, _⟩ => rfl | ⟨3, _⟩ => rfl)).trans ?_
    refine (shapeCast_apply _ _ (ix4 b (0 : Fin 1) (0 : Fin 1) k) (ix2 b k) (by
      rw [Shape.rowMajor_val_two, Shape.rowMajor_val_four]
      show b.val * 768 + k.val = ((b.val * 1 + 0) * 1 + 0) * 768 + k.val; omega)).trans ?_
    rw [shapeCast_self]

/-! ## Stage 2: the normalisation along the last axis -/

/-- The sum along the last axis, kept as a unit axis. -/
def sumK (Z : FVec Ideal S4x16x32x768 .f32) : FVec Ideal S4x16x32x1 .f32 :=
  shapeCast S4x16x32x1
    (multiReduction (F := Ideal) .add [3] S4x16x32 Z 0x00000000#32 reduces_S4x16x32x768_S4x16x32 (.inl rfl) rfl)
    shapeCasts_S4x16x32_S4x16x32x1

theorem sumK_apply (Z : FVec Ideal S4x16x32x768 .f32) (b : Fin 4) (i : Fin 16) (j : Fin 32) :
    sumK Z (ix4 b i j (0 : Fin 1)) = ∑ k : Fin 768, Z (ix4 b i j k) := by
  unfold sumK
  refine (shapeCast_apply _ _ (ix4 b i j (0 : Fin 1)) (ix3 b i j) (by
    rw [Shape.rowMajor_val_three, Shape.rowMajor_val_four]
    show (b.val * 16 + i.val) * 32 + j.val = ((b.val * 16 + i.val) * 32 + j.val) * 1 + 0; omega)).trans ?_
  refine (Ideal.multiReduction_add_single Z 0x00000000#32 reduces_S4x16x32x768_S4x16x32 _ _ (ix3 b i j)).trans ?_
  show ∑ k : Fin 768, Z (reduces_S4x16x32x768_S4x16x32.lift (ix3 b i j) k) = _
  exact Finset.sum_congr rfl fun k _ => congrArg Z (funext fun a => Fin.ext
    (match a with | ⟨0, _⟩ => rfl | ⟨1, _⟩ => rfl | ⟨2, _⟩ => rfl | ⟨3, _⟩ => rfl))

/-- A unit last axis repeated 768 times. -/
def spreadK (W : FVec Ideal S4x16x32x1 .f32) : FVec Ideal S4x16x32x768 .f32 :=
  broadcastTo S4x16x32x768 W broadcasts_S4x16x32x1_S4x16x32x768

theorem spreadK_apply (W : FVec Ideal S4x16x32x1 .f32) (b : Fin 4) (i : Fin 16) (j : Fin 32) (k : Fin 768) :
    spreadK W (ix4 b i j k) = W (ix4 b i j (0 : Fin 1)) :=
  broadcastTo_apply _ _ (ix4 b i j k) (ix4 b i j (0 : Fin 1)) (fun a => match a with | ⟨0, _⟩ => rfl | ⟨1, _⟩ => rfl | ⟨2, _⟩ => rfl | ⟨3, _⟩ => rfl)

/-- A row of 768 entries repeated over the three leading axes. -/
def rowK (v : Vec Ideal S1x768 .f32) : FVec Ideal S4x16x32x768 .f32 :=
  broadcastTo S4x16x32x768 (shapeCast S1x1x1x768 (shapeCast S1x768 v shapeCasts_S1x768_S1x768 : FVec Ideal S1x768 .f32)
    shapeCasts_S1x768_S1x1x1x768) broadcasts_S1x1x1x768_S4x16x32x768

theorem rowK_apply (v : Vec Ideal S1x768 .f32) (b : Fin 4) (i : Fin 16) (j : Fin 32) (k : Fin 768) :
    rowK v (ix4 b i j k) = v (ix2 (0 : Fin 1) k) := by
  unfold rowK
  refine (broadcastTo_apply _ _ (ix4 b i j k) (ix4 (0 : Fin 1) (0 : Fin 1) (0 : Fin 1) k) (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) k) (ix2 (0 : Fin 1) k) (by
    rw [Shape.rowMajor_val_two, Shape.rowMajor_val_four]
    show 0 * 768 + k.val = ((0 * 1 + 0) * 1 + 0) * 768 + k.val; omega)).trans ?_
  rw [shapeCast_self]

/-- The deviation from the row mean, the inverse deviation (kept on a unit axis), and the normalised array. -/
def devArr (Z : FVec Ideal S4x16x32x768 .f32) : FVec Ideal S4x16x32x768 .f32 :=
  subf Z (spreadK (divf (sumK Z) (broadcast S4x16x32x1 (Scalar.ofBits (F := Ideal) .f32 0x44400000#32))))

def invArr (Z : FVec Ideal S4x16x32x768 .f32) : FVec Ideal S4x16x32x1 .f32 :=
  rsqrt (addf (divf (sumK (mulf (devArr Z) (devArr Z))) (broadcast S4x16x32x1 (Scalar.ofBits (F := Ideal) .f32 0x44400000#32)))
    (broadcast S4x16x32x1 (Scalar.ofBits (F := Ideal) .f32 0x3727C5AC#32)))

def nrmArr (Z : FVec Ideal S4x16x32x768 .f32) (g s : Vec Ideal S1x768 .f32) : FVec Ideal S4x16x32x768 .f32 :=
  addf (mulf (mulf (devArr Z) (spreadK (invArr Z))) (rowK g)) (rowK s)

theorem devArr_apply (Z : FVec Ideal S4x16x32x768 .f32) (b : Fin 4) (i : Fin 16) (j : Fin 32) (k : Fin 768) :
    devArr Z (ix4 b i j k) = dvR (fun k => Z (ix4 b i j k)) k := by
  unfold devArr dvR muR n768
  show Z (ix4 b i j k) - spreadK _ (ix4 b i j k) = _
  rw [spreadK_apply]
  show Z (ix4 b i j k) - Ideal.div (sumK Z (ix4 b i j (0 : Fin 1))) (Ideal.ofBits .f32 0x44400000#32) = _
  rw [sumK_apply]

theorem invArr_apply (Z : FVec Ideal S4x16x32x768 .f32) (b : Fin 4) (i : Fin 16) (j : Fin 32) :
    invArr Z (ix4 b i j (0 : Fin 1)) = invR (fun k => Z (ix4 b i j k)) := by
  unfold invArr invR varR n768 eps
  show Ideal.rsqrt (Ideal.div (sumK (mulf (devArr Z) (devArr Z)) (ix4 b i j (0 : Fin 1))) (Ideal.ofBits .f32 0x44400000#32)
    + Ideal.ofBits .f32 0x3727C5AC#32) = _
  rw [sumK_apply]
  refine congrArg (fun t => Ideal.rsqrt (Ideal.div t (Ideal.ofBits .f32 0x44400000#32) + Ideal.ofBits .f32 0x3727C5AC#32)) ?_
  refine Finset.sum_congr rfl fun k _ => ?_
  show devArr Z (ix4 b i j k) * devArr Z (ix4 b i j k) = _
  rw [devArr_apply]

theorem nrmArr_apply (Z : FVec Ideal S4x16x32x768 .f32) (g s : Vec Ideal S1x768 .f32)
    (b : Fin 4) (i : Fin 16) (j : Fin 32) (k : Fin 768) :
    nrmArr Z g s (ix4 b i j k)
      = nrmR (fun k => Z (ix4 b i j k)) (fun k => g (ix2 (0 : Fin 1) k)) (fun k => s (ix2 (0 : Fin 1) k)) k := by
  unfold nrmArr nrmR
  show (devArr Z (ix4 b i j k) * spreadK (invArr Z) (ix4 b i j k)) * rowK g (ix4 b i j k) + rowK s (ix4 b i j k) = _
  rw [spreadK_apply, invArr_apply, devArr_apply, rowK_apply, rowK_apply]

/-- The first part's value is the normalisation of the pairwise sum. -/
theorem pay2main_eq (x0 : Vec Ideal S4x16x768 .f32) (x1 : Vec Ideal S4x32x768 .f32) (x2 : Vec Ideal S4x768 .f32)
    (x3 x4 : Vec Ideal S1x768 .f32) : k1_pay2 (F := Ideal) x0 x1 x2 x3 x4 = nrmArr (zArr x0 x1 x2) x3 x4 := rfl

/-! ## Stage 3: the exponential-linear unit -/

def eluArr (N : FVec Ideal S4x16x32x768 .f32) (c0 : Ideal .f32) : FVec Ideal S4x16x32x768 .f32 :=
  select (cmpf .ogt N (broadcast S4x16x32x768 c0)) N
    (subf (exp N) (broadcast S4x16x32x768 (Scalar.ofBits (F := Ideal) .f32 0x3F800000#32)))

theorem eluArr_apply (N : FVec Ideal S4x16x32x768 .f32) (y : S4x16x32x768.Idx) :
    eluArr N (Scalar.ofBits (F := Ideal) .f32 0x00000000#32) y = elu (N y) := by
  unfold eluArr elu
  show Scalar.select (Ideal.cmp .ogt (N y) (Ideal.ofBits .f32 0x00000000#32)) (N y)
    (Ideal.exp (N y) - Ideal.ofBits .f32 0x3F800000#32) = _
  rw [Ideal.ofBits_zero_f32, one_f32]

/-! ## Stage 4: the read-out through the weight, and its bias -/

/-- Row (b·16 + i)·32 + j of the 2048-row arrangement of a [4, 16, 32, ·] array. -/
def row2048 (b : Fin 4) (i : Fin 16) (j : Fin 32) : Fin 2048 := ⟨(b.val * 16 + i.val) * 32 + j.val, by omega⟩

def readout (E : FVec Ideal S4x16x32x768 .f32) (w : Vec Ideal S24x768 .f32) : FVec Ideal S4x16x32x24 .f32 :=
  shapeCast S4x16x32x24
    (matmul dot_S2048x768_S24x768_S2048x24_1_1_0_0_n_n none
      (truncf .bf16 (shapeCast S2048x768 E shapeCasts_S4x16x32x768_S2048x768 : FVec Ideal S2048x768 .f32) bitsLt_bf16_f32)
      (truncf .bf16 (w : FVec Ideal S24x768 .f32) bitsLt_bf16_f32)
      (constant (F := Ideal) S2048x24 .f32 0x00000000#32))
    shapeCasts_S2048x24_S4x16x32x24

theorem readout_apply (E : FVec Ideal S4x16x32x768 .f32) (w : Vec Ideal S24x768 .f32)
    (b : Fin 4) (i : Fin 16) (j : Fin 32) (r : Fin 24) :
    readout E w (ix4 b i j r) = ∑ k : Fin 768, E (ix4 b i j k) * w (ix2 r k) := by
  unfold readout
  refine (shapeCast_apply _ _ (ix4 b i j r) (ix2 (row2048 b i j) r) (by
    rw [Shape.rowMajor_val_two, Shape.rowMajor_val_four]; rfl)).trans ?_
  refine (matmul_lastAxes_apply dot_S2048x768_S24x768_S2048x24_1_1_0_0_n_n_wf _ _ (row2048 b i j) r).trans ?_
  refine Finset.sum_congr rfl fun k _ => ?_
  refine congrArg (· * w (ix2 r k)) ?_
  show shapeCast S2048x768 E shapeCasts_S4x16x32x768_S2048x768 (ix2 (row2048 b i j) k) = _
  exact shapeCast_apply _ _ (ix2 (row2048 b i j) k) (ix4 b i j k) (by
    rw [Shape.rowMajor_val_two, Shape.rowMajor_val_four]; rfl)

def biasArr (v : Vec Ideal S1x24 .f32) : FVec Ideal S4x16x32x24 .f32 :=
  broadcastTo S4x16x32x24 (shapeCast S1x1x1x24 (shapeCast S1x24 v shapeCasts_S1x24_S1x24 : FVec Ideal S1x24 .f32)
    shapeCasts_S1x24_S1x1x1x24) broadcasts_S1x1x1x24_S4x16x32x24

theorem biasArr_apply (v : Vec Ideal S1x24 .f32) (b : Fin 4) (i : Fin 16) (j : Fin 32) (r : Fin 24) :
    biasArr v (ix4 b i j r) = v (ix2 (0 : Fin 1) r) := by
  unfold biasArr
  refine (broadcastTo_apply _ _ (ix4 b i j r) (ix4 (0 : Fin 1) (0 : Fin 1) (0 : Fin 1) r) (fun a => match a with | ⟨0, _⟩ => rfl | ⟨1, _⟩ => rfl | ⟨2, _⟩ => rfl | ⟨3, _⟩ => rfl)).trans ?_
  refine (shapeCast_apply _ _ (ix4 (0 : Fin 1) (0 : Fin 1) (0 : Fin 1) r) (ix2 (0 : Fin 1) r) (by
    rw [Shape.rowMajor_val_two, Shape.rowMajor_val_four]
    show 0 * 24 + r.val = ((0 * 1 + 0) * 1 + 0) * 24 + r.val; omega)).trans ?_
  rw [shapeCast_self]

/-! ## Stage 5: the logistic function, written 1 / (1 + exp (0 − x)) -/

def sigArr (Pj : FVec Ideal S4x16x32x24 .f32) : FVec Ideal S4x16x32x24 .f32 :=
  divf (broadcast S4x16x32x24 (Scalar.ofBits (F := Ideal) .f32 0x3F800000#32))
    (addf (broadcast S4x16x32x24 (Scalar.ofBits (F := Ideal) .f32 0x3F800000#32))
      (exp (subf (broadcast S4x16x32x24 (Scalar.ofBits (F := Ideal) .f32 0x00000000#32)) Pj)))

theorem sigArr_apply (Pj : FVec Ideal S4x16x32x24 .f32) (y : S4x16x32x24.Idx) : sigArr Pj y = Cert.Spec.sig (Pj y) := by
  unfold sigArr Cert.Spec.sig
  show Ideal.div (Ideal.ofBits .f32 0x3F800000#32)
    (Ideal.ofBits .f32 0x3F800000#32 + Ideal.exp (Ideal.ofBits .f32 0x00000000#32 - Pj y)) = _
  rw [Ideal.ofBits_zero_f32, one_f32, zero_sub]

/-! ## Stage 6: the product of the two mask blocks, each read transposed -/

def maskArr (m1 : Vec Ideal S16x4 .f32) (m2 : Vec Ideal S32x4 .f32) : FVec Ideal S4x16x32x24 .f32 :=
  broadcastTo S4x16x32x24
    (shapeCast S4x16x32x1
      (mulf
        (broadcastTo S4x16x32 (shapeCast S4x16x1 (transpose S4x16 [1, 0] m1 transposes_S16x4_p1_0_S4x16 : FVec Ideal S4x16 .f32)
          shapeCasts_S4x16_S4x16x1) broadcasts_S4x16x1_S4x16x32 : FVec Ideal S4x16x32 .f32)
        (broadcastTo S4x16x32 (shapeCast S4x1x32 (transpose S4x32 [1, 0] m2 transposes_S32x4_p1_0_S4x32 : FVec Ideal S4x32 .f32)
          shapeCasts_S4x32_S4x1x32) broadcasts_S4x1x32_S4x16x32))
      shapeCasts_S4x16x32_S4x16x32x1)
    broadcasts_S4x16x32x1_S4x16x32x24

theorem maskArr_apply (m1 : Vec Ideal S16x4 .f32) (m2 : Vec Ideal S32x4 .f32)
    (b : Fin 4) (i : Fin 16) (j : Fin 32) (r : Fin 24) :
    maskArr m1 m2 (ix4 b i j r) = m1 (ix2 i b) * m2 (ix2 j b) := by
  unfold maskArr
  refine (broadcastTo_apply _ _ (ix4 b i j r) (ix4 b i j (0 : Fin 1)) (fun a => match a with | ⟨0, _⟩ => rfl | ⟨1, _⟩ => rfl | ⟨2, _⟩ => rfl | ⟨3, _⟩ => rfl)).trans ?_
  refine (shapeCast_apply _ _ (ix4 b i j (0 : Fin 1)) (ix3 b i j) (by
    rw [Shape.rowMajor_val_three, Shape.rowMajor_val_four]
    show (b.val * 16 + i.val) * 32 + j.val = ((b.val * 16 + i.val) * 32 + j.val) * 1 + 0; omega)).trans ?_
  refine congrArg₂ (· * ·) ?_ ?_
  · refine (broadcastTo_apply _ _ (ix3 b i j) (ix3 b i (0 : Fin 1)) (fun a => match a with | ⟨0, _⟩ => rfl | ⟨1, _⟩ => rfl | ⟨2, _⟩ => rfl)).trans ?_
    refine (shapeCast_apply _ _ (ix3 b i (0 : Fin 1)) (ix2 b i) (by
      rw [Shape.rowMajor_val_two, Shape.rowMajor_val_three]
      show b.val * 16 + i.val = (b.val * 16 + i.val) * 1 + 0; omega)).trans ?_
    exact transpose_apply _ _ _ (ix2 b i) (ix2 i b) (fun a => match a with | ⟨0, _⟩ => rfl | ⟨1, _⟩ => rfl)
  · refine (broadcastTo_apply _ _ (ix3 b i j) (ix3 b (0 : Fin 1) j) (fun a => match a with | ⟨0, _⟩ => rfl | ⟨1, _⟩ => rfl | ⟨2, _⟩ => rfl)).trans ?_
    refine (shapeCast_apply _ _ (ix3 b (0 : Fin 1) j) (ix2 b j) (by
      rw [Shape.rowMajor_val_two, Shape.rowMajor_val_three]
      show b.val * 32 + j.val = (b.val * 1 + 0) * 32 + j.val; omega)).trans ?_
    exact transpose_apply _ _ _ (ix2 b j) (ix2 j b) (fun a => match a with | ⟨0, _⟩ => rfl | ⟨1, _⟩ => rfl)

/-! ## The stored value as the composition of the stages, and (P4) -/

theorem pay1main_eq (N : FVec Ideal S4x16x32x768 .f32) (c0 : Ideal .f32) (w : Vec Ideal S24x768 .f32) (bs : Vec Ideal S1x24 .f32)
    (m1 : Vec Ideal S16x4 .f32) (m2 : Vec Ideal S32x4 .f32) :
    k1_pay1 (F := Ideal) N c0 w bs m1 m2
      = mulf (sigArr (addf (readout (eluArr N c0) w) (biasArr bs))) (maskArr m1 m2) := rfl

/-- (P4) The second region's stored value at (b, i, j, r). -/
theorem pay_main_apply (x0 : Vec Ideal S4x16x768 .f32) (x1 : Vec Ideal S4x32x768 .f32) (x2 : Vec Ideal S4x768 .f32)
    (x3 x4 : Vec Ideal S1x768 .f32) (x5 : Vec Ideal S24x768 .f32) (x6 : Vec Ideal S1x24 .f32) (x7 : Vec Ideal S16x4 .f32)
    (x8 : Vec Ideal S32x4 .f32) (b : Fin 4) (i : Fin 16) (j : Fin 32) (r : Fin 24) :
    k1_pay1 (F := Ideal) (k1_pay2 x0 x1 x2 x3 x4) (Scalar.ofBits .f32 0x00000000#32) x5 x6 x7 x8 (ix4 b i j r)
      = outR (fun k => (x0 (ix3 b i k) + x1 (ix3 b j k)) + x2 (ix2 b k)) (fun k => x3 (ix2 0 k)) (fun k => x4 (ix2 0 k))
          (fun r k => x5 (ix2 r k)) (fun r => x6 (ix2 0 r)) (x7 (ix2 i b)) (x8 (ix2 j b)) r := by
  rw [pay2main_eq, pay1main_eq]
  unfold outR projR
  show sigArr _ (ix4 b i j r) * maskArr x7 x8 (ix4 b i j r) = _
  rw [sigArr_apply, maskArr_apply]
  refine congrArg (fun t => Cert.Spec.sig t * (x7 (ix2 i b) * x8 (ix2 j b))) ?_
  show readout _ x5 (ix4 b i j r) + biasArr x6 (ix4 b i j r) = _
  rw [readout_apply, biasArr_apply]
  refine congrArg (· + x6 (ix2 (0 : Fin 1) r)) ?_
  refine Finset.sum_congr rfl fun k _ => ?_
  refine congrArg (· * x5 (ix2 r k)) ?_
  rw [eluArr_apply, nrmArr_apply]
  refine congrArg elu ?_
  refine congrArg (fun zf => nrmR zf (fun k => x3 (ix2 (0 : Fin 1) k)) (fun k => x4 (ix2 (0 : Fin 1) k)) k) ?_
  funext k'
  exact zArr_apply x0 x1 x2 b i j k'

end Cert.KernelIdeal.HandValue

end
-- ==== Proof.KI.Final1.lean ====
/-
  The second region's output array after its pipeline, over the extended reals.

  The region runs over an 8 x 4 grid. At point (g, h) the output window holds the [4, 16, 32, 24] block of the
  [4, 128, 128, 24] result at rows 16 g of the second axis and rows 32 h of the third. The first projection's window and the
  first mask window hold rows 16 g of their arrays, the second projection's window and the second mask window hold rows
  32 h, and the five remaining windows hold their whole arrays at every point. Entry (b, i, j, r) of the block the body
  leaves is the row-level function of row i of the first block, row j of the second, row b of the additive term and the mask
  blocks at (i, b) and (j, b); read off the arrays, these are rows 16 g + i and 32 h + j, exactly the rows the output block's
  entry has in the result. So every point writes back its block of ONE function of the eight arrays, the 32 blocks cover
  the result, and the result ends holding that function.
-/
import proofs.«131939_j48103633715562_2_alg».proof.Proof.KI.Dat1
import proofs.«131939_j48103633715562_2_alg».proof.Proof.KI.Body0Value
import proofs.«131939_j48103633715562_2_alg».proof.Proof.KI.PayIdx1
import Idealize.ShloMosaic.Lib.Pipeline.Value

set_option maxRecDepth 16384

noncomputable section

namespace Cert.KernelIdeal.HandValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices of the windows over the 8 x 4 grid, point t standing for (t / 4, t % 4): the output block sits at
    (0, t / 4, t % 4, 0); the first projection's block and the first mask block follow t / 4, the second projection's
    block and the second mask block follow t % 4; every other window stays at the origin. -/
theorem idx_facts1 : ∀ t : Fin cfg1.N,
    win1_9.index t (0 : Fin 4) = 0 ∧ win1_9.index t (1 : Fin 4) = t.val / 4 ∧ win1_9.index t (2 : Fin 4) = t.val % 4 ∧ win1_9.index t (3 : Fin 4) = 0
    ∧ win1_0.index t (0 : Fin 3) = 0 ∧ win1_0.index t (1 : Fin 3) = t.val / 4 ∧ win1_0.index t (2 : Fin 3) = 0
    ∧ win1_1.index t (0 : Fin 3) = 0 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val / 4 ∧ win1_7.index t (1 : Fin 2) = 0
    ∧ win1_8.index t (0 : Fin 2) = t.val % 4 ∧ win1_8.index t (1 : Fin 2) = 0 :=
  (by decide +kernel : ∀ t : Fin grid1.N, _)

/-! ## Each input block, read where the output's block says -/

/-- Rows 16 (t / 4) … of the first projection. -/
theorem iblk1_0_apply (c : Dev nD) (t : Fin cfg1.N) (b : Fin 4) (i : Fin 16) (i' : Fin 128)
    (hi : i'.val = t.val / 4 * 16 + i.val) (k : Fin 768) :
    (iblk1 V c 0 t : Vec Ideal S4x16x768 .f32) (ix3 b i k) = V c main_v12_1 (ix3 b i' k) := by
  obtain ⟨-, -, -, -, e0, e1, e2, -⟩ := idx_facts1 t
  unfold iblk1
  rw [View.read_apply]
  show V c main_v12_1 _ = V c main_v12_1 _
  congr 1
  funext a
  apply Fin.ext
  match a with
  | ⟨0, _⟩ => show win1_0.index t (0 : Fin 3) * 4 + 1 * b.val = b.val; omega
  | ⟨1, _⟩ => show win1_0.index t (1 : Fin 3) * 16 + 1 * i.val = i'.val; omega
  | ⟨2, _⟩ => show win1_0.index t (2 : Fin 3) * 768 + 1 * k.val = k.val; omega

/-- Rows 32 (t % 4) … of the second projection. -/
theorem iblk1_1_apply (c : Dev nD) (t : Fin cfg1.N) (b : Fin 4) (j : Fin 32) (j' : Fin 128)
    (hj : j'.val = t.val % 4 * 32 + j.val) (k : Fin 768) :
    (iblk1 V c 1 t : Vec Ideal S4x32x768 .f32) (ix3 b j k) = V c main_v12_2 (ix3 b j' k) := by
  obtain ⟨-, -, -, -, -, -, -, e0, e1, e2, -⟩ := idx_facts1 t
  unfold iblk1
  rw [View.read_apply]
  show V c main_v12_2 _ = V c main_v12_2 _
  congr 1
  funext a
  apply Fin.ext
  match a with
  | ⟨0, _⟩ => show win1_1.index t (0 : Fin 3) * 4 + 1 * b.val = b.val; omega
  | ⟨1, _⟩ => show win1_1.index t (1 : Fin 3) * 32 + 1 * j.val = j'.val; omega
  | ⟨2, _⟩ => show win1_1.index t (2 : Fin 3) * 768 + 1 * k.val = k.val; omega

/-- Rows 16 (t / 4) … of the mask. -/
theorem iblk1_7_apply (c : Dev nD) (t : Fin cfg1.N) (b : Fin 4) (i : Fin 16) (i' : Fin 128)
    (hi : i'.val = t.val / 4 * 16 + i.val) :
    (iblk1 V c 7 t : Vec Ideal S16x4 .f32) (ix2 i b) = V c main_arg2 (ix2 i' b) := by
  obtain ⟨-, -, -, -, -, -, -, -, -, -, -, -, -, -, -, -, -, -, -, -, e0, e1, -⟩ := idx_facts1 t
  unfold iblk1
  rw [View.read_apply]
  show V c main_arg2 _ = V c main_arg2 _
  congr 1
  funext a
  apply Fin.ext
  match a with
  | ⟨0, _⟩ => show win1_7.index t (0 : Fin 2) * 16 + 1 * i.val = i'.val; omega
  | ⟨1, _⟩ => show win1_7.index t (1 : Fin 2) * 4 + 1 * b.val = b.val; omega

/-- Rows 32 (t % 4) … of the mask. -/
theorem iblk1_8_apply (c : Dev nD) (t : Fin cfg1.N) (b : Fin 4) (j : Fin 32) (j' : Fin 128)
    (hj : j'.val = t.val % 4 * 32 + j.val) :
    (iblk1 V c 8 t : Vec Ideal S32x4 .f32) (ix2 j b) = V c main_arg2 (ix2 j' b) := by
  obtain ⟨-, -, -, -, -, -, -, -, -, -, -, -, -, -, -, -, -, -, -, -, -, -, e0, e1⟩ := idx_facts1 t
  unfold iblk1
  rw [View.read_apply]
  show V c main_arg2 _ = V c main_arg2 _
  congr 1
  funext a
  apply Fin.ext
  match a with
  | ⟨0, _⟩ => show win1_8.index t (0 : Fin 2) * 32 + 1 * j.val = j'.val; omega
  | ⟨1, _⟩ => show win1_8.index t (1 : Fin 2) * 4 + 1 * b.val = b.val; omega

/-! The five windows that hold their whole array at every point. -/

theorem iblk1_2_eq (c : Dev nD) (t : Fin cfg1.N) : (iblk1 V c 2 t : Vec Ideal S4x768 .f32) = V c main_v12_0 := by
  obtain ⟨-, -, -, -, -, -, -, -, -, -, e0, e1, -⟩ := idx_facts1 t
  funext x
  unfold iblk1
  rw [View.read_apply]
  show V c main_v12_0 _ = V c main_v12_0 _
  congr 1
  funext a
  apply Fin.ext
  match a with
  | ⟨0, _⟩ => show win1_2.index t (0 : Fin 2) * 4 + 1 * (x 0).val = (x 0).val; omega
  | ⟨1, _⟩ => show win1_2.index t (1 : Fin 2) * 768 + 1 * (x 1).val = (x 1).val; omega

theorem iblk1_3_eq (c : Dev nD) (t : Fin cfg1.N) : (iblk1 V c 3 t : Vec Ideal S1x768 .f32) = V c main_v7 := by
  obtain ⟨-, -, -, -, -, -, -, -, -, -, -, -, e0, e1, -⟩ := idx_facts1 t
  funext x
  unfold iblk1
  rw [View.read_apply]
  show V c main_v7 _ = V c main_v7 _
  congr 1
  funext a
  apply Fin.ext
  match a with
  | ⟨0, _⟩ => show win1_3.index t (0 : Fin 2) * 1 + 1 * (x 0).val = (x 0).val; omega
  | ⟨1, _⟩ => show win1_3.index t (1 : Fin 2) * 768 + 1 * (x 1).val = (x 1).val; omega

theorem iblk1_4_eq (c : Dev nD) (t : Fin cfg1.N) : (iblk1 V c 4 t : Vec Ideal S1x768 .f32) = V c main_v8 := by
  obtain ⟨-, -, -, -, -, -, -, -, -, -, -, -, -, -, e0, e1, -⟩ := idx_facts1 t
  funext x
  unfold iblk1
  rw [View.read_apply]
  show V c main_v8 _ = V c main_v8 _
  congr 1
  funext a
  apply Fin.ext
  match a with
  | ⟨0, _⟩ => show win1_4.index t (0 : Fin 2) * 1 + 1 * (x 0).val = (x 0).val; omega
  | ⟨1, _⟩ => show win1_4.index t (1 : Fin 2) * 768 + 1 * (x 1).val = (x 1).val; omega

theorem iblk1_5_eq (c : Dev nD) (t : Fin cfg1.N) : (iblk1 V c 5 t : Vec Ideal S24x768 .f32) = V c main_arg9 := by
  obtain ⟨-, -, -, -, -, -, -, -, -, -, -, -, -, -, -, -, e0, e1, -⟩ := idx_facts1 t
  funext x
  unfold iblk1
  rw [View.read_apply]
  show V c main_arg9 _ = V c main_arg9 _
  congr 1
  funext a
  apply Fin.ext
  match a with
  | ⟨0, _⟩ => show win1_5.index t (0 : Fin 2) * 24 + 1 * (x 0).val = (x 0).val; omega
  | ⟨1, _⟩ => show win1_5.index t (1 : Fin 2) * 768 + 1 * (x 1).val = (x 1).val; omega

theorem iblk1_6_eq (c : Dev nD) (t : Fin cfg1.N) : (iblk1 V c 6 t : Vec Ideal S1x24 .f32) = V c main_v9 := by
  obtain ⟨-, -, -, -, -, -, -, -, -, -, -, -, -, -, -, -, -, -, e0, e1, -⟩ := idx_facts1 t
  funext x
  unfold iblk1
  rw [View.read_apply]
  show V c main_v9 _ = V c main_v9 _
  congr 1
  funext a
  apply Fin.ext
  match a with
  | ⟨0, _⟩ => show win1_6.index t (0 : Fin 2) * 1 + 1 * (x 0).val = (x 0).val; omega
  | ⟨1, _⟩ => show win1_6.index t (1 : Fin 2) * 24 + 1 * (x 1).val = (x 1).val; omega

/-! ## The body's result at a block index -/

/-- Entry (b, i, j, r) of the block the body leaves: the masked logistic read-out of the normalised sum of row i of the
    first block, row j of the second and row b of the additive term. -/
theorem out1_9_apply (x0 : Vec Ideal S4x16x768 .f32) (x1 : Vec Ideal S4x32x768 .f32) (x2 : Vec Ideal S4x768 .f32)
    (x3 x4 : Vec Ideal S1x768 .f32) (x5 : Vec Ideal S24x768 .f32) (x6 : Vec Ideal S1x24 .f32) (x7 : Vec Ideal S16x4 .f32)
    (x8 : Vec Ideal S32x4 .f32) (b : Fin 4) (i : Fin 16) (j : Fin 32) (r : Fin 24) :
    out1_9 x0 x1 x2 x3 x4 x5 x6 x7 x8 (ix4 b i j r)
      = Cert.Spec.outR (fun k => (x0 (ix3 b i k) + x1 (ix3 b j k)) + x2 (ix2 b k)) (fun k => x3 (ix2 0 k))
          (fun k => x4 (ix2 0 k)) (fun r k => x5 (ix2 r k)) (fun r => x6 (ix2 0 r)) (x7 (ix2 i b)) (x8 (ix2 j b)) r := by
  rw [out1_9_eq]
  exact pay_main_apply x0 x1 x2 x3 x4 x5 x6 x7 x8 b i j r

/-! ## The output array as one function of eight arrays -/

/-- Entry (b, i, j, r): rows i and j of the two projections and row b of the additive term are summed, normalised, passed
    through the unit, read out and squashed, and multiplied by the mask at (i, b) and at (j, b). -/
def resOf (a0 a1 : Vec Ideal S4x128x768 .f32) (a2 : Vec Ideal S4x768 .f32) (a3 a4 : Vec Ideal S1x768 .f32)
    (a5 : Vec Ideal S24x768 .f32) (a6 : Vec Ideal S1x24 .f32) (a7 : Vec Ideal S128x4 .f32) : Vec Ideal S4x128x128x24 .f32 := fun y =>
  Cert.Spec.outR (fun k => (a0 (ix3 (y 0) (y 1) k) + a1 (ix3 (y 0) (y 2) k)) + a2 (ix2 (y 0) k)) (fun k => a3 (ix2 0 k))
    (fun k => a4 (ix2 0 k)) (fun r k => a5 (ix2 r k)) (fun r => a6 (ix2 0 r)) (a7 (ix2 (y 1) (y 0))) (a7 (ix2 (y 2) (y 0))) (y 3)

theorem resOf_apply (a0 a1 : Vec Ideal S4x128x768 .f32) (a2 : Vec Ideal S4x768 .f32) (a3 a4 : Vec Ideal S1x768 .f32)
    (a5 : Vec Ideal S24x768 .f32) (a6 : Vec Ideal S1x24 .f32) (a7 : Vec Ideal S128x4 .f32) (b : Fin 4) (i j : Fin 128) (r : Fin 24) :
    resOf a0 a1 a2 a3 a4 a5 a6 a7 (ix4 b i j r)
      = Cert.Spec.outR (fun k => (a0 (ix3 b i k) + a1 (ix3 b j k)) + a2 (ix2 b k)) (fun k => a3 (ix2 0 k)) (fun k => a4 (ix2 0 k))
          (fun r k => a5 (ix2 r k)) (fun r => a6 (ix2 0 r)) (a7 (ix2 i b)) (a7 (ix2 j b)) r := rfl

/-! ## What a point writes back -/

/-- Point t writes back block t of the one function: each input block is read at the rows the output block names. -/
theorem flushed1_9_eq (c : Dev nD) (t : Fin cfg1.N) :
    (dat1 V c).flushed 9 t = ((cfg1.win 9).blk t).view.read (Elt Ideal)
      (resOf (V c main_v12_1) (V c main_v12_2) (V c main_v12_0) (V c main_v7) (V c main_v8) (V c main_arg9) (V c main_v9) (V c main_arg2)) := by
  show (cfg1.win 9).cut (grid1.coords t) ((dat1 V c).after 9 t) = _
  rw [after1_9]
  refine funext fun (y : S4x16x32x24.Idx) => ?_
  obtain ⟨b, i, j, r, rfl⟩ : ∃ (b : Fin 4) (i : Fin 16) (j : Fin 32) (r : Fin 24), y = ix4 b i j r :=
    ⟨y 0, y 1, y 2, y 3, eq_ix4 y⟩
  show out1_9 (iblk1 V c 0 t) (iblk1 V c 1 t) (iblk1 V c 2 t) (iblk1 V c 3 t) (iblk1 V c 4 t) (iblk1 V c 5 t) (iblk1 V c 6 t)
      (iblk1 V c 7 t) (iblk1 V c 8 t) (ix4 b i j r)
    = resOf (V c main_v12_1) (V c main_v12_2) (V c main_v12_0) (V c main_v7) (V c main_v8) (V c main_arg9) (V c main_v9) (V c main_arg2) (((cfg1.win 9).blk t).view.emb (ix4 b i j r))
  rw [out1_9_apply, iblk1_2_eq, iblk1_3_eq, iblk1_4_eq, iblk1_5_eq, iblk1_6_eq]
  obtain ⟨e0, e1, e2, e3, -⟩ := idx_facts1 t
  have ht : t.val < 32 := N_1 ▸ t.isLt
  have hi' : t.val / 4 * 16 + i.val < 128 := by omega
  have hj' : t.val % 4 * 32 + j.val < 128 := by omega
  have hE : ((cfg1.win 9).blk t).view.emb (ix4 b i j r)
      = ix4 b (⟨t.val / 4 * 16 + i.val, hi'⟩ : Fin 128) (⟨t.val % 4 * 32 + j.val, hj'⟩ : Fin 128) r := by
    funext a
    apply Fin.ext
    match a with
    | ⟨0, _⟩ => show win1_9.index t (0 : Fin 4) * 4 + 1 * b.val = b.val; omega
    | ⟨1, _⟩ => show win1_9.index t (1 : Fin 4) * 16 + 1 * i.val = t.val / 4 * 16 + i.val; omega
    | ⟨2, _⟩ => show win1_9.index t (2 : Fin 4) * 32 + 1 * j.val = t.val % 4 * 32 + j.val; omega
    | ⟨3, _⟩ => show win1_9.index t (3 : Fin 4) * 24 + 1 * r.val = r.val; omega
  rw [hE, resOf_apply]
  simp only [iblk1_0_apply V c t b i ⟨t.val / 4 * 16 + i.val, hi'⟩ rfl, iblk1_1_apply V c t b j ⟨t.val % 4 * 32 + j.val, hj'⟩ rfl,
    iblk1_7_apply V c t b i ⟨t.val / 4 * 16 + i.val, hi'⟩ rfl, iblk1_8_apply V c t b j ⟨t.val % 4 * 32 + j.val, hj'⟩ rfl]

/-! ## The blocks cover the array -/

/-- An index of the output array is in point t's block iff each coordinate is in the block's range on its axis. -/
theorem mem_blk1_9 (t : Fin cfg1.N) (x : S4x128x128x24.Idx) :
    x ∈ ((cfg1.win 9).blk t).view.set ↔ ∀ a : Fin 4, win1_9.index t a * S4x16x32x24.size a ≤ (x a).val
      ∧ (x a).val < win1_9.index t a * S4x16x32x24.size a + S4x16x32x24.size a := by
  show x ∈ ((View.whole main_v13).slice (win1_9.rect t)).set ↔ _
  rw [View.set_slice_whole, Rect.mem_set_unit]
  exact Iff.rfl

/-- Index (b, i, j, r) lies in the block of the point (i / 16, j / 32), which is point (i / 16) * 4 + j / 32. -/
theorem cover1_9 (x : S4x128x128x24.Idx) :
    ∃ t : Fin cfg1.N, (cfg1.win 9).flush t = true ∧ x ∈ ((cfg1.win 9).blk t).view.set := by
  have h0 : (x 0).val < 4 := (x 0).isLt
  have h1 : (x 1).val < 128 := (x 1).isLt
  have h2 : (x 2).val < 128 := (x 2).isLt
  have h3 : (x 3).val < 24 := (x 3).isLt
  obtain ⟨t, tv⟩ : ∃ t : Fin cfg1.N, t.val = (x 1).val / 16 * 4 + (x 2).val / 32 :=
    ⟨⟨(x 1).val / 16 * 4 + (x 2).val / 32, by have hN := N_1; show _ < grid1.N; omega⟩, rfl⟩
  refine ⟨t, flush1_9 t, ?_⟩
  rw [mem_blk1_9]
  obtain ⟨e0, e1, e2, e3, -⟩ := idx_facts1 t
  intro a
  match a with
  | ⟨0, _⟩ => show win1_9.index t (0 : Fin 4) * 4 ≤ (x 0).val ∧ (x 0).val < win1_9.index t (0 : Fin 4) * 4 + 4; omega
  | ⟨1, _⟩ => show win1_9.index t (1 : Fin 4) * 16 ≤ (x 1).val ∧ (x 1).val < win1_9.index t (1 : Fin 4) * 16 + 16; omega
  | ⟨2, _⟩ => show win1_9.index t (2 : Fin 4) * 32 ≤ (x 2).val ∧ (x 2).val < win1_9.index t (2 : Fin 4) * 32 + 32; omega
  | ⟨3, _⟩ => show win1_9.index t (3 : Fin 4) * 24 ≤ (x 3).val ∧ (x 3).val < win1_9.index t (3 : Fin 4) * 24 + 24; omega

/-! ## The array after the region -/

/-- The output array ends holding the one function of the eight arrays the region is entered from. -/
theorem final1 (c : Dev nD) : (dat1 V c).arrAt 9 cfg1.N
    = resOf (V c main_v12_1) (V c main_v12_2) (V c main_v12_0) (V c main_v7) (V c main_v8) (V c main_arg9) (V c main_v9) (V c main_arg2) :=
  (dat1 V c).arrAt_eq_of_cover 9 (resOf (V c main_v12_1) (V c main_v12_2) (V c main_v12_0) (V c main_v7) (V c main_v8) (V c main_arg9) (V c main_v9) (V c main_arg2))
    (fun t _ => flushed1_9_eq V c t) cover1_9

/-- The same at one index. -/
theorem final1_apply (c : Dev nD) (b : Fin 4) (i j : Fin 128) (r : Fin 24) :
    (dat1 V c).arrAt 9 cfg1.N (ix4 b i j r)
      = resOf (V c main_v12_1) (V c main_v12_2) (V c main_v12_0) (V c main_v7) (V c main_v8) (V c main_arg9) (V c main_v9) (V c main_arg2) (ix4 b i j r) :=
  congrFun (final1 V c) _

/-- The same with the eight arrays named: entry (b, i, j, r) as the row-level function of rows i and j of the projections,
    row b of the additive term, the scale, shift, read-out weight and bias, and the mask at (i, b) and (j, b). -/
theorem final1_at (c : Dev nD) (a0 a1 : Vec Ideal S4x128x768 .f32) (a2 : Vec Ideal S4x768 .f32) (a3 a4 : Vec Ideal S1x768 .f32)
    (a5 : Vec Ideal S24x768 .f32) (a6 : Vec Ideal S1x24 .f32) (a7 : Vec Ideal S128x4 .f32)
    (h0 : V c main_v12_1 = a0) (h1 : V c main_v12_2 = a1) (h2 : V c main_v12_0 = a2) (h3 : V c main_v7 = a3)
    (h4 : V c main_v8 = a4) (h5 : V c main_arg9 = a5) (h6 : V c main_v9 = a6) (h7 : V c main_arg2 = a7)
    (b : Fin 4) (i j : Fin 128) (r : Fin 24) :
    (dat1 V c).arrAt 9 cfg1.N (ix4 b i j r)
      = Cert.Spec.outR (fun k => (a0 (ix3 b i k) + a1 (ix3 b j k)) + a2 (ix2 b k)) (fun k => a3 (ix2 0 k)) (fun k => a4 (ix2 0 k))
          (fun r k => a5 (ix2 r k)) (fun r => a6 (ix2 0 r)) (a7 (ix2 i b)) (a7 (ix2 j b)) r := by
  subst h0 h1 h2 h3 h4 h5 h6 h7
  rw [final1 V c, resOf_apply]

end Cert.KernelIdeal.HandValue

end
-- ==== Proof.KI.Value.lean ====
/-
  The idealized kernel's result array is the specification's function of the eleven argument arrays: entry (i, j, b, r)
  of the result is entry (b, i, j, r) of what the second region leaves, which is the masked logistic read-out of the
  normalised row z(i, j, b, .) built from the first region's three results.
-/
import proofs.«131939_j48103633715562_2_alg».proof.Proof.KI.Value0
import proofs.«131939_j48103633715562_2_alg».proof.Proof.KI.Final1

set_option maxRecDepth 16384

noncomputable section

namespace Cert.KernelIdeal.HandValue

open Cert.KernelIdeal.Hand Cert.Spec Idealize.ShloMosaic.ValueIdx

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (c : Dev nD)

/-- The row-level read-out depends only on its seven arguments. -/
theorem outR_congr {zf zf' lgf lgf' lbf lbf' : Fin 768 → EReal} {wf wf' : Fin 24 → Fin 768 → EReal} {bf bf' : Fin 24 → EReal}
    {mi mi' mj mj' : EReal} (r : Fin 24) (h1 : zf = zf') (h2 : lgf = lgf') (h3 : lbf = lbf') (h4 : wf = wf') (h5 : bf = bf')
    (h6 : mi = mi') (h7 : mj = mj') : outR zf lgf lbf wf bf mi mj r = outR zf' lgf' lbf' wf' bf' mi' mj' r := by
  subst h1 h2 h3 h4 h5 h6 h7; rfl

theorem kernel_value : (W4 m c (Proc.devRef .tc main_v14) : S128x128x4x24.Idx → EReal)
    = G (A0 m c) (A1 m c) (A2 m c) (A3 m c) (A4 m c) (A5 m c) (A6 m c) (A7 m c) (A8 m c) (A9 m c) (A10 m c) := by
  funext y
  obtain ⟨i, j, b, r, rfl⟩ : ∃ (i j : Fin 128) (b : Fin 4) (r : Fin 24), y = ix4 i j b r := ⟨y 0, y 1, y 2, y 3, eq_ix4 y⟩
  rw [W4_v14, out_transpose_apply, V3_v13, final1 (V2 m) c]
  refine (resOf_apply _ _ _ _ _ _ _ _ b i j r).trans ?_
  rw [G_apply]
  unfold out z
  exact outR_congr r
    (funext fun k => congrArg₂ (· + ·) (congrArg₂ (· + ·) (V2_p1 m c b i k) (V2_p2 m c b j k)) (V2_pg m c b k))
    (funext fun k => V2_v7 m c k) (funext fun k => V2_v8 m c k)
    (funext fun r' => funext fun k => congrFun (V2_arg9 m c) (ix2 r' k))
    (funext fun r' => V2_v9 m c r')
    (congrFun (V2_arg2 m c) (ix2 i b)) (congrFun (V2_arg2 m c) (ix2 j b))

end Cert.KernelIdeal.HandValue

end
-- ==== Proof.LibDotSum.lean ====
/-
  A sum over a one-axis contraction index, written as a sum over the axis's coordinates.

  A matrix product read at an output index is a sum over the contraction index of the dot's dimension record, a
  one-coordinate index when one axis is contracted.  Re-indexing through the bijection with `Fin n` turns it into
  the textbook sum `∑ i : Fin n, L i · R i`, once each operand is known at the operand indices the record builds.
-/
import Idealize.ShloMosaic.PureOps.Ideal
import Idealize.ShloMosaic.PureOps.Ideal.Laws
import Idealize.ShloMosaic.Lib.ValueIdx

noncomputable section

namespace Cert.LibDotSum

open Idealize.ShloMosaic Idealize.ShloMosaic.ValueIdx

/-- The sum over a one-axis contraction index of the products of two operands is the sum over `Fin n` of the
    products of their readings `L`, `R` along that axis. -/
theorem sum_contr_eq {sl sr so : Shape} (D : DotDims sl sr so) (n : Nat) (hr : D.contr.rank = 1)
    (hs : D.contr.size ⟨0, by omega⟩ = n) (f : sl.Idx → EReal) (g : sr.Idx → EReal) (j : so.Idx)
    (L R : Fin n → EReal)
    (hl : ∀ i : Fin n, f (D.lhsIdx j ((contrEquiv1 D n hr hs).symm i)) = L i)
    (hg : ∀ i : Fin n, g (D.rhsIdx j ((contrEquiv1 D n hr hs).symm i)) = R i) :
    ∑ k : D.contr.Idx, f (D.lhsIdx j k) * g (D.rhsIdx j k) = ∑ i : Fin n, L i * R i := by
  rw [← Equiv.sum_comp (contrEquiv1 D n hr hs).symm]
  exact Finset.sum_congr rfl fun i _ => by rw [hl i, hg i]

end Cert.LibDotSum

end
-- ==== Proof.RefRead.lean ====
import proofs.«131939_j48103633715562_2_alg».proof.Proof.RefRun
import proofs.«131939_j48103633715562_2_alg».proof.Proof.Spec
import proofs.«131939_j48103633715562_2_alg».proof.Proof.LibDotSum
import Idealize.ShloMosaic.Lib.Pipeline.Value
import Idealize.ShloMosaic.Lib.ValueIdx
import Idealize.ShloMosaic.PureOps.Ideal.Laws

/-!
# The reference's result, read index by index

At the extended reals every stage of the reference's result is read at an index from its operands at an index: a
slice shifts a coordinate, a broadcast forgets or repeats coordinates, a matrix product and a sum over an axis are
sums over `Fin 768`, a maximum over an axis is a fold of `max`, and the elementwise operations act entry by entry.
Composed from the arguments upward, the stages give the target function: `res_eq_G`.
-/

noncomputable section

open scoped BigOperators

namespace Cert.ReferenceIdeal.RefRead

open Cert.ReferenceIdeal Cert.ReferenceIdeal.Gen Cert.ReferenceIdeal.RefRun Idealize.ShloMosaic Idealize.ShloMosaic.ValueIdx

/-! ## The literals -/

/-- The word of the float one is the extended real one. -/
theorem one_f32 : Ideal.ofBits .f32 0x3F800000#32 = 1 := by
  simp [Ideal.ofBits, Ideal.ieee]
  rw [← EReal.coe_mul]
  norm_num

/-! ## The elementwise operations at an index, at the extended reals

Stated for an arbitrary operand, so that reading an operation at an index never opens the operand. -/

section Elementwise
variable {s : Shape}

theorem hostTanh_apply (x : FVec Ideal s .f32) (y : s.Idx) : Host.tanh x y = Ideal.tanh (x y) := rfl
theorem hostRsqrt_apply (x : FVec Ideal s .f32) (y : s.Idx) : Host.rsqrt x y = Ideal.rsqrt (x y) := rfl
theorem hostExpm1_apply (x : FVec Ideal s .f32) (y : s.Idx) : Host.expm1 x y = Ideal.exp (x y) - 1 := rfl
theorem hostExp_apply (x : FVec Ideal s .f32) (y : s.Idx) : Host.exp x y = Ideal.exp (x y) := rfl
theorem hostNegf_apply (x : FVec Ideal s .f32) (y : s.Idx) : Host.negf x y = -(x y) := rfl
theorem hostDivf_apply (x z : FVec Ideal s .f32) (y : s.Idx) : Host.divf x z y = Ideal.div (x y) (z y) := rfl
theorem cmpfGt_apply (x z : FVec Ideal s .f32) (y : s.Idx) : cmpf .ogt x z y = Ideal.cmp .ogt (x y) (z y) := rfl
/-- A scalar literal spread over any shape reads, everywhere, the extended real its word encodes. -/
theorem splat_apply (w : BitVec 32) (h : S_.BroadcastsInDim s ![]) (y : s.Idx) :
    broadcastInDim s ![] h (constant (F := Ideal) S_ .f32 w) y = Ideal.ofBits .f32 w := rfl

end Elementwise

/-! ## The three matrix products, read at an entry

Each contracts one axis of 768 coordinates: the last axis of the left operand with the last axis of the right one. Read
at an output entry, the product is the sum over that coordinate of the products of the two operands' entries. -/

/-- A [128, 4, 768] array times a [768, 768] array along the last axis of each. -/
theorem dot1_apply (A : FVec Ideal S128x4x768 .f32) (B : FVec Ideal S768x768 .f32) (l : Fin 128) (b : Fin 4) (k : Fin 768) :
    Host.dotGeneral dot_S128x4x768_S768x768_S128x4x768_2_1_01_0_n_n none A B (ix3 l b k)
      = ∑ h : Fin 768, A (ix3 l b h) * B (ix2 k h) := by
  show FloatOps.dotGeneral _ none _ A B (ix3 l b k) = _
  rw [Ideal.dotGeneral_apply]
  refine Cert.LibDotSum.sum_contr_eq dot_S128x4x768_S768x768_S128x4x768_2_1_01_0_n_n 768 rfl rfl A B (ix3 l b k) _ _ (fun h => congrArg A ?_) (fun h => congrArg B ?_)
  · funext ax; apply Fin.ext
    match ax with
    | ⟨0, _⟩ => rfl
    | ⟨1, _⟩ => rfl
    | ⟨2, _⟩ => exact (DotDims.lhsIdx_val_of_single dot_S128x4x768_S768x768_S128x4x768_2_1_01_0_n_n (cl := (2 : Fin 3)) rfl _ _).trans (contrEquiv1_symm_val dot_S128x4x768_S768x768_S128x4x768_2_1_01_0_n_n 768 rfl rfl h)
  · funext ax; apply Fin.ext
    match ax with
    | ⟨0, _⟩ => rfl
    | ⟨1, _⟩ => exact (DotDims.rhsIdx_val_of_single dot_S128x4x768_S768x768_S128x4x768_2_1_01_0_n_n (cr := (1 : Fin 2)) rfl _ _).trans (contrEquiv1_symm_val dot_S128x4x768_S768x768_S128x4x768_2_1_01_0_n_n 768 rfl rfl h)

/-- A [4, 768] array times a [768, 768] array along the last axis of each. -/
theorem dot2_apply (A : FVec Ideal S4x768 .f32) (B : FVec Ideal S768x768 .f32) (b : Fin 4) (k : Fin 768) :
    Host.dotGeneral dot_S4x768_S768x768_S4x768_1_1_0_0_n_n none A B (ix2 b k)
      = ∑ h : Fin 768, A (ix2 b h) * B (ix2 k h) := by
  show FloatOps.dotGeneral _ none _ A B (ix2 b k) = _
  rw [Ideal.dotGeneral_apply]
  refine Cert.LibDotSum.sum_contr_eq dot_S4x768_S768x768_S4x768_1_1_0_0_n_n 768 rfl rfl A B (ix2 b k) _ _ (fun h => congrArg A ?_) (fun h => congrArg B ?_)
  · funext ax; apply Fin.ext
    match ax with
    | ⟨0, _⟩ => rfl
    | ⟨1, _⟩ => exact (DotDims.lhsIdx_val_of_single dot_S4x768_S768x768_S4x768_1_1_0_0_n_n (cl := (1 : Fin 2)) rfl _ _).trans (contrEquiv1_symm_val dot_S4x768_S768x768_S4x768_1_1_0_0_n_n 768 rfl rfl h)
  · funext ax; apply Fin.ext
    match ax with
    | ⟨0, _⟩ => rfl
    | ⟨1, _⟩ => exact (DotDims.rhsIdx_val_of_single dot_S4x768_S768x768_S4x768_1_1_0_0_n_n (cr := (1 : Fin 2)) rfl _ _).trans (contrEquiv1_symm_val dot_S4x768_S768x768_S4x768_1_1_0_0_n_n 768 rfl rfl h)

/-- A [128, 128, 4, 768] array times a [24, 768] array along the last axis of each. -/
theorem dot3_apply (A : FVec Ideal S128x128x4x768 .f32) (B : FVec Ideal S24x768 .f32) (i j : Fin 128) (b : Fin 4) (r : Fin 24) :
    Host.dotGeneral dot_S128x128x4x768_S24x768_S128x128x4x24_3_1_012_0_n_n none A B (ix4 i j b r)
      = ∑ h : Fin 768, A (ix4 i j b h) * B (ix2 r h) := by
  show FloatOps.dotGeneral _ none _ A B (ix4 i j b r) = _
  rw [Ideal.dotGeneral_apply]
  refine Cert.LibDotSum.sum_contr_eq dot_S128x128x4x768_S24x768_S128x128x4x24_3_1_012_0_n_n 768 rfl rfl A B (ix4 i j b r) _ _ (fun h => congrArg A ?_) (fun h => congrArg B ?_)
  · funext ax; apply Fin.ext
    match ax with
    | ⟨0, _⟩ => rfl
    | ⟨1, _⟩ => rfl
    | ⟨2, _⟩ => rfl
    | ⟨3, _⟩ => exact (DotDims.lhsIdx_val_of_single dot_S128x128x4x768_S24x768_S128x128x4x24_3_1_012_0_n_n (cl := (3 : Fin 4)) rfl _ _).trans (contrEquiv1_symm_val dot_S128x128x4x768_S24x768_S128x128x4x24_3_1_012_0_n_n 768 rfl rfl h)
  · funext ax; apply Fin.ext
    match ax with
    | ⟨0, _⟩ => rfl
    | ⟨1, _⟩ => exact (DotDims.rhsIdx_val_of_single dot_S128x128x4x768_S24x768_S128x128x4x24_3_1_012_0_n_n (cr := (1 : Fin 2)) rfl _ _).trans (contrEquiv1_symm_val dot_S128x128x4x768_S24x768_S128x128x4x24_3_1_012_0_n_n 768 rfl rfl h)

/-! ## Each stage, read at an index -/

theorem st_v0_apply (a3 : FVec Ideal S768x1536 .f32) (c0 : Fin 768) (c1 : Fin 768) :
    st_v0 a3 (ix2 c0 c1) = a3 (ix2 c0 (⟨c1.val, by omega⟩ : Fin 1536)) :=
  extractStridedSlice_apply _ _ _ (ix2 c0 c1) _ fun a => match a with
    | ⟨0, _⟩ => by show c0.val = 0 + c0.val; omega
    | ⟨1, _⟩ => by show c1.val = 0 + c1.val; omega

theorem st_v1_apply (a3 : FVec Ideal S768x1536 .f32) (c0 : Fin 768) (c1 : Fin 768) :
    st_v1 a3 (ix2 c0 c1) = a3 (ix2 c0 (⟨768 + c1.val, by omega⟩ : Fin 1536)) :=
  extractStridedSlice_apply _ _ _ (ix2 c0 c1) _ fun a => match a with
    | ⟨0, _⟩ => by show c0.val = 0 + c0.val; omega
    | ⟨1, _⟩ => rfl

theorem st_v2_apply (a1 : FVec Ideal S128x4x768 .f32) (a3 : FVec Ideal S768x1536 .f32) (c0 : Fin 128) (c1 : Fin 4) (c2 : Fin 768) :
    st_v2 a1 a3 (ix3 c0 c1 c2) = ∑ h : Fin 768, a1 (ix3 c0 c1 h) * st_v0 a3 (ix2 c2 h) :=
  dot1_apply _ _ c0 c1 c2

theorem st_v3_apply (a0 : FVec Ideal S128x4x768 .f32) (a3 : FVec Ideal S768x1536 .f32) (c0 : Fin 128) (c1 : Fin 4) (c2 : Fin 768) :
    st_v3 a0 a3 (ix3 c0 c1 c2) = ∑ h : Fin 768, a0 (ix3 c0 c1 h) * st_v1 a3 (ix2 c2 h) :=
  dot1_apply _ _ c0 c1 c2

theorem st_v4_apply (a0 : FVec Ideal S128x4x768 .f32) (a1 : FVec Ideal S128x4x768 .f32) (a3 : FVec Ideal S768x1536 .f32) (y : S128x4x768.Idx) :
    st_v4 a0 a1 a3 y = st_v2 a1 a3 y + st_v3 a0 a3 y := by
  unfold st_v4
  simp only [hostTanh_apply, hostRsqrt_apply, hostExpm1_apply, hostExp_apply, hostNegf_apply, hostDivf_apply, cmpfGt_apply, mulf_apply, addf_apply, subf_apply, select_apply]

theorem st_v5_apply (a4 : FVec Ideal S768 .f32) (c0 : Fin 1) (c1 : Fin 1) (c2 : Fin 768) :
    st_v5 a4 (ix3 c0 c1 c2) = a4 (ix1 c2) :=
  broadcastInDim_apply _ _ _ (ix3 c0 c1 c2) (ix1 c2) fun a => match a with
    | ⟨0, _⟩ => rfl

theorem st_v6_apply (a4 : FVec Ideal S768 .f32) (c0 : Fin 128) (c1 : Fin 4) (c2 : Fin 768) :
    st_v6 a4 (ix3 c0 c1 c2) = st_v5 a4 (ix3 (0 : Fin 1) (0 : Fin 1) c2) :=
  broadcastInDim_apply _ _ _ (ix3 c0 c1 c2) (ix3 (0 : Fin 1) (0 : Fin 1) c2) fun a => match a with
    | ⟨0, _⟩ => rfl | ⟨1, _⟩ => rfl | ⟨2, _⟩ => rfl

theorem st_v7_apply (a0 : FVec Ideal S128x4x768 .f32) (a1 : FVec Ideal S128x4x768 .f32) (a3 : FVec Ideal S768x1536 .f32) (a4 : FVec Ideal S768 .f32) (y : S128x4x768.Idx) :
    st_v7 a0 a1 a3 a4 y = st_v4 a0 a1 a3 y + st_v6 a4 y := by
  unfold st_v7
  simp only [hostTanh_apply, hostRsqrt_apply, hostExpm1_apply, hostExp_apply, hostNegf_apply, hostDivf_apply, cmpfGt_apply, mulf_apply, addf_apply, subf_apply, select_apply]

theorem st_v8_apply (a0 : FVec Ideal S128x4x768 .f32) (a1 : FVec Ideal S128x4x768 .f32) (a3 : FVec Ideal S768x1536 .f32) (a4 : FVec Ideal S768 .f32) (y : S128x4x768.Idx) :
    st_v8 a0 a1 a3 a4 y = Ideal.tanh (st_v7 a0 a1 a3 a4 y) := by
  unfold st_v8
  simp only [hostTanh_apply, hostRsqrt_apply, hostExpm1_apply, hostExp_apply, hostNegf_apply, hostDivf_apply, cmpfGt_apply, mulf_apply, addf_apply, subf_apply, select_apply]

theorem st_v9_apply (a0 : FVec Ideal S128x4x768 .f32) (a1 : FVec Ideal S128x4x768 .f32) (a3 : FVec Ideal S768x1536 .f32) (a4 : FVec Ideal S768 .f32) (c0 : Fin 4) (c1 : Fin 768) :
    st_v9 a0 a1 a3 a4 (ix2 c0 c1) = (Finset.univ : Finset (Fin 128)).fold max (Ideal.ofBits .f32 0xFF800000#32) (fun l => st_v8 a0 a1 a3 a4 (ix3 l c0 c1)) := by
  have h : S128x4x768.Reduces [0] S4x768 := by decide
  unfold st_v9
  rw [Host.reduce_eq_fold_single FloatOps.maximumf _ _ _ h]
  refine congrArg (fun f => Finset.fold max (Ideal.ofBits .f32 0xFF800000#32) f (Finset.univ : Finset (Fin 128))) ?_
  funext l
  refine congrArg (st_v8 a0 a1 a3 a4) ?_
  funext c; apply Fin.ext
  match c with
  | ⟨0, _⟩ => rfl
  | ⟨1, _⟩ => rfl
  | ⟨2, _⟩ => rfl

theorem st_v10_apply (a5 : FVec Ideal S768x2304 .f32) (c0 : Fin 768) (c1 : Fin 768) :
    st_v10 a5 (ix2 c0 c1) = a5 (ix2 c0 (⟨c1.val, by omega⟩ : Fin 2304)) :=
  extractStridedSlice_apply _ _ _ (ix2 c0 c1) _ fun a => match a with
    | ⟨0, _⟩ => by show c0.val = 0 + c0.val; omega
    | ⟨1, _⟩ => by show c1.val = 0 + c1.val; omega

theorem st_v11_apply (a5 : FVec Ideal S768x2304 .f32) (c0 : Fin 768) (c1 : Fin 768) :
    st_v11 a5 (ix2 c0 c1) = a5 (ix2 c0 (⟨768 + c1.val, by omega⟩ : Fin 2304)) :=
  extractStridedSlice_apply _ _ _ (ix2 c0 c1) _ fun a => match a with
    | ⟨0, _⟩ => by show c0.val = 0 + c0.val; omega
    | ⟨1, _⟩ => rfl

theorem st_v12_apply (a5 : FVec Ideal S768x2304 .f32) (c0 : Fin 768) (c1 : Fin 768) :
    st_v12 a5 (ix2 c0 c1) = a5 (ix2 c0 (⟨1536 + c1.val, by omega⟩ : Fin 2304)) :=
  extractStridedSlice_apply _ _ _ (ix2 c0 c1) _ fun a => match a with
    | ⟨0, _⟩ => by show c0.val = 0 + c0.val; omega
    | ⟨1, _⟩ => rfl

theorem st_v13_apply (a0 : FVec Ideal S128x4x768 .f32) (a5 : FVec Ideal S768x2304 .f32) (c0 : Fin 128) (c1 : Fin 4) (c2 : Fin 768) :
    st_v13 a0 a5 (ix3 c0 c1 c2) = ∑ h : Fin 768, a0 (ix3 c0 c1 h) * st_v10 a5 (ix2 c2 h) :=
  dot1_apply _ _ c0 c1 c2

theorem st_v14_apply (a0 : FVec Ideal S128x4x768 .f32) (a5 : FVec Ideal S768x2304 .f32) (c0 : Fin 128) (c1 : Fin 4) (c2 : Fin 768) :
    st_v14 a0 a5 (ix3 c0 c1 c2) = ∑ h : Fin 768, a0 (ix3 c0 c1 h) * st_v11 a5 (ix2 c2 h) :=
  dot1_apply _ _ c0 c1 c2

theorem st_v15_apply (a0 : FVec Ideal S128x4x768 .f32) (a1 : FVec Ideal S128x4x768 .f32) (a3 : FVec Ideal S768x1536 .f32) (a4 : FVec Ideal S768 .f32) (a5 : FVec Ideal S768x2304 .f32) (c0 : Fin 4) (c1 : Fin 768) :
    st_v15 a0 a1 a3 a4 a5 (ix2 c0 c1) = ∑ h : Fin 768, st_v9 a0 a1 a3 a4 (ix2 c0 h) * st_v12 a5 (ix2 c1 h) :=
  dot2_apply _ _ c0 c1

theorem st_v16_apply (a6 : FVec Ideal S768 .f32) (c0 : Fin 1) (c1 : Fin 768) :
    st_v16 a6 (ix2 c0 c1) = a6 (ix1 c1) :=
  broadcastInDim_apply _ _ _ (ix2 c0 c1) (ix1 c1) fun a => match a with
    | ⟨0, _⟩ => rfl

theorem st_v17_apply (a6 : FVec Ideal S768 .f32) (c0 : Fin 4) (c1 : Fin 768) :
    st_v17 a6 (ix2 c0 c1) = st_v16 a6 (ix2 (0 : Fin 1) c1) :=
  broadcastInDim_apply _ _ _ (ix2 c0 c1) (ix2 (0 : Fin 1) c1) fun a => match a with
    | ⟨0, _⟩ => rfl | ⟨1, _⟩ => rfl

theorem st_v18_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S4x768.Idx) :
    st_v18 a0 a1 a3 a4 a5 a6 y = st_v15 a0 a1 a3 a4 a5 y + st_v17 a6 y := by
  unfold st_v18
  simp only [hostTanh_apply, hostRsqrt_apply, hostExpm1_apply, hostExp_apply, hostNegf_apply, hostDivf_apply, cmpfGt_apply, mulf_apply, addf_apply, subf_apply, select_apply]

theorem st_v19_apply (a0 : FVec Ideal S128x4x768 .f32) (a5 : FVec Ideal S768x2304 .f32) (c0 : Fin 128) (c1 : Fin 1) (c2 : Fin 4) (c3 : Fin 768) :
    st_v19 a0 a5 (ix4 c0 c1 c2 c3) = st_v13 a0 a5 (ix3 c0 c2 c3) :=
  broadcastInDim_apply _ _ _ (ix4 c0 c1 c2 c3) (ix3 c0 c2 c3) fun a => match a with
    | ⟨0, _⟩ => rfl | ⟨1, _⟩ => rfl | ⟨2, _⟩ => rfl

theorem st_v20_apply (a0 : FVec Ideal S128x4x768 .f32) (a5 : FVec Ideal S768x2304 .f32) (c0 : Fin 1) (c1 : Fin 128) (c2 : Fin 4) (c3 : Fin 768) :
    st_v20 a0 a5 (ix4 c0 c1 c2 c3) = st_v14 a0 a5 (ix3 c1 c2 c3) :=
  broadcastInDim_apply _ _ _ (ix4 c0 c1 c2 c3) (ix3 c1 c2 c3) fun a => match a with
    | ⟨0, _⟩ => rfl | ⟨1, _⟩ => rfl | ⟨2, _⟩ => rfl

theorem st_v21_apply (a0 : FVec Ideal S128x4x768 .f32) (a5 : FVec Ideal S768x2304 .f32) (c0 : Fin 128) (c1 : Fin 128) (c2 : Fin 4) (c3 : Fin 768) :
    st_v21 a0 a5 (ix4 c0 c1 c2 c3) = st_v19 a0 a5 (ix4 c0 (0 : Fin 1) c2 c3) :=
  broadcastInDim_apply _ _ _ (ix4 c0 c1 c2 c3) (ix4 c0 (0 : Fin 1) c2 c3) fun a => match a with
    | ⟨0, _⟩ => rfl | ⟨1, _⟩ => rfl | ⟨2, _⟩ => rfl | ⟨3, _⟩ => rfl

theorem st_v22_apply (a0 : FVec Ideal S128x4x768 .f32) (a5 : FVec Ideal S768x2304 .f32) (c0 : Fin 128) (c1 : Fin 128) (c2 : Fin 4) (c3 : Fin 768) :
    st_v22 a0 a5 (ix4 c0 c1 c2 c3) = st_v20 a0 a5 (ix4 (0 : Fin 1) c1 c2 c3) :=
  broadcastInDim_apply _ _ _ (ix4 c0 c1 c2 c3) (ix4 (0 : Fin 1) c1 c2 c3) fun a => match a with
    | ⟨0, _⟩ => rfl | ⟨1, _⟩ => rfl | ⟨2, _⟩ => rfl | ⟨3, _⟩ => rfl

theorem st_v23_apply (a0 : FVec Ideal S128x4x768 .f32) (a5 : FVec Ideal S768x2304 .f32) (y : S128x128x4x768.Idx) :
    st_v23 a0 a5 y = st_v21 a0 a5 y + st_v22 a0 a5 y := by
  unfold st_v23
  simp only [hostTanh_apply, hostRsqrt_apply, hostExpm1_apply, hostExp_apply, hostNegf_apply, hostDivf_apply, cmpfGt_apply, mulf_apply, addf_apply, subf_apply, select_apply]

theorem st_v24_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 1) (c1 : Fin 1) (c2 : Fin 4) (c3 : Fin 768) :
    st_v24 a0 a1 a3 a4 a5 a6 (ix4 c0 c1 c2 c3) = st_v18 a0 a1 a3 a4 a5 a6 (ix2 c2 c3) :=
  broadcastInDim_apply _ _ _ (ix4 c0 c1 c2 c3) (ix2 c2 c3) fun a => match a with
    | ⟨0, _⟩ => rfl | ⟨1, _⟩ => rfl

theorem st_v25_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 768) :
    st_v25 a0 a1 a3 a4 a5 a6 (ix4 c0 c1 c2 c3) = st_v24 a0 a1 a3 a4 a5 a6 (ix4 (0 : Fin 1) (0 : Fin 1) c2 c3) :=
  broadcastInDim_apply _ _ _ (ix4 c0 c1 c2 c3) (ix4 (0 : Fin 1) (0 : Fin 1) c2 c3) fun a => match a with
    | ⟨0, _⟩ => rfl | ⟨1, _⟩ => rfl | ⟨2, _⟩ => rfl | ⟨3, _⟩ => rfl

theorem st_v26_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x768.Idx) :
    st_v26 a0 a1 a3 a4 a5 a6 y = st_v23 a0 a5 y + st_v25 a0 a1 a3 a4 a5 a6 y := by
  unfold st_v26
  simp only [hostTanh_apply, hostRsqrt_apply, hostExpm1_apply, hostExp_apply, hostNegf_apply, hostDivf_apply, cmpfGt_apply, mulf_apply, addf_apply, subf_apply, select_apply]

theorem st_v27_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) :
    st_v27 a0 a1 a3 a4 a5 a6 (ix3 c0 c1 c2) = Ideal.ofBits .f32 0x00000000#32 + ∑ k : Fin 768, st_v26 a0 a1 a3 a4 a5 a6 (ix4 c0 c1 c2 k) := by
  have h : S128x128x4x768.Reduces [3] S128x128x4 := by decide
  show Ideal.hostReduceAdd reducesTo_S128x128x4x768_S128x128x4_d3 (st_v26 a0 a1 a3 a4 a5 a6) _ (ix3 c0 c1 c2) = _
  rw [Ideal.hostReduceAdd_single _ h]
  refine congrArg₂ (· + ·) rfl (Finset.sum_congr rfl fun k _ => congrArg _ ?_)
  funext c; apply Fin.ext
  match c with
  | ⟨0, _⟩ => rfl
  | ⟨1, _⟩ => rfl
  | ⟨2, _⟩ => rfl
  | ⟨3, _⟩ => rfl

theorem st_v28_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 1) :
    st_v28 a0 a1 a3 a4 a5 a6 (ix4 c0 c1 c2 c3) = st_v27 a0 a1 a3 a4 a5 a6 (ix3 c0 c1 c2) :=
  broadcastInDim_apply _ _ _ (ix4 c0 c1 c2 c3) (ix3 c0 c1 c2) fun a => match a with
    | ⟨0, _⟩ => rfl | ⟨1, _⟩ => rfl | ⟨2, _⟩ => rfl

theorem st_v30_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x1.Idx) :
    st_v30 a0 a1 a3 a4 a5 a6 y = Ideal.div (st_v28 a0 a1 a3 a4 a5 a6 y) (Ideal.ofBits .f32 0x44400000#32) := by
  unfold st_v30
  simp only [hostTanh_apply, hostRsqrt_apply, hostExpm1_apply, hostExp_apply, hostNegf_apply, hostDivf_apply, cmpfGt_apply, mulf_apply, addf_apply, subf_apply, select_apply]
  rw [splat_apply]

theorem st_v31_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 768) :
    st_v31 a0 a1 a3 a4 a5 a6 (ix4 c0 c1 c2 c3) = st_v30 a0 a1 a3 a4 a5 a6 (ix4 c0 c1 c2 (0 : Fin 1)) :=
  broadcastInDim_apply _ _ _ (ix4 c0 c1 c2 c3) (ix4 c0 c1 c2 (0 : Fin 1)) fun a => match a with
    | ⟨0, _⟩ => rfl | ⟨1, _⟩ => rfl | ⟨2, _⟩ => rfl | ⟨3, _⟩ => rfl

theorem st_v32_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x768.Idx) :
    st_v32 a0 a1 a3 a4 a5 a6 y = st_v26 a0 a1 a3 a4 a5 a6 y - st_v31 a0 a1 a3 a4 a5 a6 y := by
  unfold st_v32
  simp only [hostTanh_apply, hostRsqrt_apply, hostExpm1_apply, hostExp_apply, hostNegf_apply, hostDivf_apply, cmpfGt_apply, mulf_apply, addf_apply, subf_apply, select_apply]

theorem st_v33_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x768.Idx) :
    st_v33 a0 a1 a3 a4 a5 a6 y = st_v32 a0 a1 a3 a4 a5 a6 y * st_v32 a0 a1 a3 a4 a5 a6 y := by
  unfold st_v33
  simp only [hostTanh_apply, hostRsqrt_apply, hostExpm1_apply, hostExp_apply, hostNegf_apply, hostDivf_apply, cmpfGt_apply, mulf_apply, addf_apply, subf_apply, select_apply]

theorem st_v34_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) :
    st_v34 a0 a1 a3 a4 a5 a6 (ix3 c0 c1 c2) = Ideal.ofBits .f32 0x00000000#32 + ∑ k : Fin 768, st_v33 a0 a1 a3 a4 a5 a6 (ix4 c0 c1 c2 k) := by
  have h : S128x128x4x768.Reduces [3] S128x128x4 := by decide
  show Ideal.hostReduceAdd reducesTo_S128x128x4x768_S128x128x4_d3 (st_v33 a0 a1 a3 a4 a5 a6) _ (ix3 c0 c1 c2) = _
  rw [Ideal.hostReduceAdd_single _ h]
  refine congrArg₂ (· + ·) rfl (Finset.sum_congr rfl fun k _ => congrArg _ ?_)
  funext c; apply Fin.ext
  match c with
  | ⟨0, _⟩ => rfl
  | ⟨1, _⟩ => rfl
  | ⟨2, _⟩ => rfl
  | ⟨3, _⟩ => rfl

theorem st_v35_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 1) :
    st_v35 a0 a1 a3 a4 a5 a6 (ix4 c0 c1 c2 c3) = st_v34 a0 a1 a3 a4 a5 a6 (ix3 c0 c1 c2) :=
  broadcastInDim_apply _ _ _ (ix4 c0 c1 c2 c3) (ix3 c0 c1 c2) fun a => match a with
    | ⟨0, _⟩ => rfl | ⟨1, _⟩ => rfl | ⟨2, _⟩ => rfl

theorem st_v37_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x1.Idx) :
    st_v37 a0 a1 a3 a4 a5 a6 y = Ideal.div (st_v35 a0 a1 a3 a4 a5 a6 y) (Ideal.ofBits .f32 0x44400000#32) := by
  unfold st_v37
  simp only [hostTanh_apply, hostRsqrt_apply, hostExpm1_apply, hostExp_apply, hostNegf_apply, hostDivf_apply, cmpfGt_apply, mulf_apply, addf_apply, subf_apply, select_apply]
  rw [splat_apply]

theorem st_v38_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 768) :
    st_v38 a0 a1 a3 a4 a5 a6 (ix4 c0 c1 c2 c3) = st_v30 a0 a1 a3 a4 a5 a6 (ix4 c0 c1 c2 (0 : Fin 1)) :=
  broadcastInDim_apply _ _ _ (ix4 c0 c1 c2 c3) (ix4 c0 c1 c2 (0 : Fin 1)) fun a => match a with
    | ⟨0, _⟩ => rfl | ⟨1, _⟩ => rfl | ⟨2, _⟩ => rfl | ⟨3, _⟩ => rfl

theorem st_v39_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x768.Idx) :
    st_v39 a0 a1 a3 a4 a5 a6 y = st_v26 a0 a1 a3 a4 a5 a6 y - st_v38 a0 a1 a3 a4 a5 a6 y := by
  unfold st_v39
  simp only [hostTanh_apply, hostRsqrt_apply, hostExpm1_apply, hostExp_apply, hostNegf_apply, hostDivf_apply, cmpfGt_apply, mulf_apply, addf_apply, subf_apply, select_apply]

theorem st_v41_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x1.Idx) :
    st_v41 a0 a1 a3 a4 a5 a6 y = st_v37 a0 a1 a3 a4 a5 a6 y + Ideal.ofBits .f32 0x3727C5AC#32 := by
  unfold st_v41
  simp only [hostTanh_apply, hostRsqrt_apply, hostExpm1_apply, hostExp_apply, hostNegf_apply, hostDivf_apply, cmpfGt_apply, mulf_apply, addf_apply, subf_apply, select_apply]
  rw [splat_apply]

theorem st_v42_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x1.Idx) :
    st_v42 a0 a1 a3 a4 a5 a6 y = Ideal.rsqrt (st_v41 a0 a1 a3 a4 a5 a6 y) := by
  unfold st_v42
  simp only [hostTanh_apply, hostRsqrt_apply, hostExpm1_apply, hostExp_apply, hostNegf_apply, hostDivf_apply, cmpfGt_apply, mulf_apply, addf_apply, subf_apply, select_apply]

theorem st_v43_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (c0 : Fin 128) (c1 : Fin 128) (c2 : Fin 4) (c3 : Fin 768) :
    st_v43 a0 a1 a3 a4 a5 a6 (ix4 c0 c1 c2 c3) = st_v42 a0 a1 a3 a4 a5 a6 (ix4 c0 c1 c2 (0 : Fin 1)) :=
  broadcastInDim_apply _ _ _ (ix4 c0 c1 c2 c3) (ix4 c0 c1 c2 (0 : Fin 1)) fun a => match a with
    | ⟨0, _⟩ => rfl | ⟨1, _⟩ => rfl | ⟨2, _⟩ => rfl | ⟨3, _⟩ => rfl

theorem st_v44_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (y : S128x128x4x768.Idx) :
    st_v44 a0 a1 a3 a4 a5 a6 y = st_v39 a0 a1 a3 a4 a5 a6 y * st_v43 a0 a1 a3 a4 a5 a6 y := by
  unfold st_v44
  simp only [hostTanh_apply, hostRsqrt_apply, hostExpm1_apply, hostExp_apply, hostNegf_apply, hostDivf_apply, cmpfGt_apply, mulf_apply, addf_apply, subf_apply, select_apply]

theorem st_v45_apply (a7 : FVec Ideal S768 .f32) (c0 : Fin 1) (c1 : Fin 1) (c2 : Fin 1) (c3 : Fin 768) :
    st_v45 a7 (ix4 c0 c1 c2 c3) = a7 (ix1 c3) :=
  broadcastInDim_apply _ _ _ (ix4 c0 c1 c2 c3) (ix1 c3) fun a => match a with
    | ⟨0, _⟩ => rfl

theorem st_v46_apply (a7 : FVec Ideal S768 .f32) (c0 : Fin 128) (c1 : Fin 128) (c2 : Fin 4) (c3 : Fin 768) :
    st_v46 a7 (ix4 c0 c1 c2 c3) = st_v45 a7 (ix4 (0 : Fin 1) (0 : Fin 1) (0 : Fin 1) c3) :=
  broadcastInDim_apply _ _ _ (ix4 c0 c1 c2 c3) (ix4 (0 : Fin 1) (0 : Fin 1) (0 : Fin 1) c3) fun a => match a with
    | ⟨0, _⟩ => rfl | ⟨1, _⟩ => rfl | ⟨2, _⟩ => rfl | ⟨3, _⟩ => rfl

theorem st_v47_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (y : S128x128x4x768.Idx) :
    st_v47 a0 a1 a3 a4 a5 a6 a7 y = st_v44 a0 a1 a3 a4 a5 a6 y * st_v46 a7 y := by
  unfold st_v47
  simp only [hostTanh_apply, hostRsqrt_apply, hostExpm1_apply, hostExp_apply, hostNegf_apply, hostDivf_apply, cmpfGt_apply, mulf_apply, addf_apply, subf_apply, select_apply]

theorem st_v48_apply (a8 : FVec Ideal S768 .f32) (c0 : Fin 1) (c1 : Fin 1) (c2 : Fin 1) (c3 : Fin 768) :
    st_v48 a8 (ix4 c0 c1 c2 c3) = a8 (ix1 c3) :=
  broadcastInDim_apply _ _ _ (ix4 c0 c1 c2 c3) (ix1 c3) fun a => match a with
    | ⟨0, _⟩ => rfl

theorem st_v49_apply (a8 : FVec Ideal S768 .f32) (c0 : Fin 128) (c1 : Fin 128) (c2 : Fin 4) (c3 : Fin 768) :
    st_v49 a8 (ix4 c0 c1 c2 c3) = st_v48 a8 (ix4 (0 : Fin 1) (0 : Fin 1) (0 : Fin 1) c3) :=
  broadcastInDim_apply _ _ _ (ix4 c0 c1 c2 c3) (ix4 (0 : Fin 1) (0 : Fin 1) (0 : Fin 1) c3) fun a => match a with
    | ⟨0, _⟩ => rfl | ⟨1, _⟩ => rfl | ⟨2, _⟩ => rfl | ⟨3, _⟩ => rfl

theorem st_v50_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_v50 a0 a1 a3 a4 a5 a6 a7 a8 y = st_v47 a0 a1 a3 a4 a5 a6 a7 y + st_v49 a8 y := by
  unfold st_v50
  simp only [hostTanh_apply, hostRsqrt_apply, hostExpm1_apply, hostExp_apply, hostNegf_apply, hostDivf_apply, cmpfGt_apply, mulf_apply, addf_apply, subf_apply, select_apply]

theorem st_call0_v1_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_call0_v1 a0 a1 a3 a4 a5 a6 a7 a8 y = Ideal.cmp .ogt (st_v50 a0 a1 a3 a4 a5 a6 a7 a8 y) (Ideal.ofBits .f32 0x00000000#32) := by
  unfold st_call0_v1
  simp only [hostTanh_apply, hostRsqrt_apply, hostExpm1_apply, hostExp_apply, hostNegf_apply, hostDivf_apply, cmpfGt_apply, mulf_apply, addf_apply, subf_apply, select_apply]
  rw [splat_apply]

theorem st_call0_v3_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_call0_v3 a0 a1 a3 a4 a5 a6 a7 a8 y = Ideal.cmp .ogt (st_v50 a0 a1 a3 a4 a5 a6 a7 a8 y) (Ideal.ofBits .f32 0x00000000#32) := by
  unfold st_call0_v3
  simp only [hostTanh_apply, hostRsqrt_apply, hostExpm1_apply, hostExp_apply, hostNegf_apply, hostDivf_apply, cmpfGt_apply, mulf_apply, addf_apply, subf_apply, select_apply]
  rw [splat_apply]

theorem st_call0_v4_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_call0_v4 a0 a1 a3 a4 a5 a6 a7 a8 y = Scalar.select (st_call0_v3 a0 a1 a3 a4 a5 a6 a7 a8 y) (Ideal.ofBits .f32 0x00000000#32) (st_v50 a0 a1 a3 a4 a5 a6 a7 a8 y) := by
  unfold st_call0_v4
  simp only [hostTanh_apply, hostRsqrt_apply, hostExpm1_apply, hostExp_apply, hostNegf_apply, hostDivf_apply, cmpfGt_apply, mulf_apply, addf_apply, subf_apply, select_apply]
  rw [splat_apply]

theorem st_call0_v5_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_call0_v5 a0 a1 a3 a4 a5 a6 a7 a8 y = Ideal.exp (st_call0_v4 a0 a1 a3 a4 a5 a6 a7 a8 y) - 1 := by
  unfold st_call0_v5
  simp only [hostTanh_apply, hostRsqrt_apply, hostExpm1_apply, hostExp_apply, hostNegf_apply, hostDivf_apply, cmpfGt_apply, mulf_apply, addf_apply, subf_apply, select_apply]

theorem st_call0_v7_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_call0_v7 a0 a1 a3 a4 a5 a6 a7 a8 y = Ideal.ofBits .f32 0x3F800000#32 * st_call0_v5 a0 a1 a3 a4 a5 a6 a7 a8 y := by
  unfold st_call0_v7
  simp only [hostTanh_apply, hostRsqrt_apply, hostExpm1_apply, hostExp_apply, hostNegf_apply, hostDivf_apply, cmpfGt_apply, mulf_apply, addf_apply, subf_apply, select_apply]
  rw [splat_apply]

theorem st_v51_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (y : S128x128x4x768.Idx) :
    st_v51 a0 a1 a3 a4 a5 a6 a7 a8 y = Scalar.select (st_call0_v1 a0 a1 a3 a4 a5 a6 a7 a8 y) (st_v50 a0 a1 a3 a4 a5 a6 a7 a8 y) (st_call0_v7 a0 a1 a3 a4 a5 a6 a7 a8 y) := by
  unfold st_v51
  simp only [hostTanh_apply, hostRsqrt_apply, hostExpm1_apply, hostExp_apply, hostNegf_apply, hostDivf_apply, cmpfGt_apply, mulf_apply, addf_apply, subf_apply, select_apply]

theorem st_v52_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (c0 : Fin 128) (c1 : Fin 128) (c2 : Fin 4) (c3 : Fin 24) :
    st_v52 a0 a1 a3 a4 a5 a6 a7 a8 a9 (ix4 c0 c1 c2 c3) = ∑ h : Fin 768, st_v51 a0 a1 a3 a4 a5 a6 a7 a8 (ix4 c0 c1 c2 h) * a9 (ix2 c3 h) :=
  dot3_apply _ _ c0 c1 c2 c3

theorem st_v53_apply (a10 : FVec Ideal S24 .f32) (c0 : Fin 1) (c1 : Fin 1) (c2 : Fin 1) (c3 : Fin 24) :
    st_v53 a10 (ix4 c0 c1 c2 c3) = a10 (ix1 c3) :=
  broadcastInDim_apply _ _ _ (ix4 c0 c1 c2 c3) (ix1 c3) fun a => match a with
    | ⟨0, _⟩ => rfl

theorem st_v54_apply (a10 : FVec Ideal S24 .f32) (c0 : Fin 128) (c1 : Fin 128) (c2 : Fin 4) (c3 : Fin 24) :
    st_v54 a10 (ix4 c0 c1 c2 c3) = st_v53 a10 (ix4 (0 : Fin 1) (0 : Fin 1) (0 : Fin 1) c3) :=
  broadcastInDim_apply _ _ _ (ix4 c0 c1 c2 c3) (ix4 (0 : Fin 1) (0 : Fin 1) (0 : Fin 1) c3) fun a => match a with
    | ⟨0, _⟩ => rfl | ⟨1, _⟩ => rfl | ⟨2, _⟩ => rfl | ⟨3, _⟩ => rfl

theorem st_v55_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v55 a0 a1 a3 a4 a5 a6 a7 a8 a9 a10 y = st_v52 a0 a1 a3 a4 a5 a6 a7 a8 a9 y + st_v54 a10 y := by
  unfold st_v55
  simp only [hostTanh_apply, hostRsqrt_apply, hostExpm1_apply, hostExp_apply, hostNegf_apply, hostDivf_apply, cmpfGt_apply, mulf_apply, addf_apply, subf_apply, select_apply]

theorem st_v56_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v56 a0 a1 a3 a4 a5 a6 a7 a8 a9 a10 y = -(st_v55 a0 a1 a3 a4 a5 a6 a7 a8 a9 a10 y) := by
  unfold st_v56
  simp only [hostTanh_apply, hostRsqrt_apply, hostExpm1_apply, hostExp_apply, hostNegf_apply, hostDivf_apply, cmpfGt_apply, mulf_apply, addf_apply, subf_apply, select_apply]

theorem st_v57_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v57 a0 a1 a3 a4 a5 a6 a7 a8 a9 a10 y = Ideal.exp (st_v56 a0 a1 a3 a4 a5 a6 a7 a8 a9 a10 y) := by
  unfold st_v57
  simp only [hostTanh_apply, hostRsqrt_apply, hostExpm1_apply, hostExp_apply, hostNegf_apply, hostDivf_apply, cmpfGt_apply, mulf_apply, addf_apply, subf_apply, select_apply]

theorem st_v59_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v59 a0 a1 a3 a4 a5 a6 a7 a8 a9 a10 y = Ideal.ofBits .f32 0x3F800000#32 + st_v57 a0 a1 a3 a4 a5 a6 a7 a8 a9 a10 y := by
  unfold st_v59
  simp only [hostTanh_apply, hostRsqrt_apply, hostExpm1_apply, hostExp_apply, hostNegf_apply, hostDivf_apply, cmpfGt_apply, mulf_apply, addf_apply, subf_apply, select_apply]
  rw [splat_apply]

theorem st_v61_apply (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v61 a0 a1 a3 a4 a5 a6 a7 a8 a9 a10 y = Ideal.div (Ideal.ofBits .f32 0x3F800000#32) (st_v59 a0 a1 a3 a4 a5 a6 a7 a8 a9 a10 y) := by
  unfold st_v61
  simp only [hostTanh_apply, hostRsqrt_apply, hostExpm1_apply, hostExp_apply, hostNegf_apply, hostDivf_apply, cmpfGt_apply, mulf_apply, addf_apply, subf_apply, select_apply]
  rw [splat_apply]

theorem st_v62_apply (a2 : FVec Ideal S128x4 .f32) (c0 : Fin 128) (c1 : Fin 1) (c2 : Fin 4) :
    st_v62 a2 (ix3 c0 c1 c2) = a2 (ix2 c0 c2) :=
  broadcastInDim_apply _ _ _ (ix3 c0 c1 c2) (ix2 c0 c2) fun a => match a with
    | ⟨0, _⟩ => rfl | ⟨1, _⟩ => rfl

theorem st_v63_apply (a2 : FVec Ideal S128x4 .f32) (c0 : Fin 1) (c1 : Fin 128) (c2 : Fin 4) :
    st_v63 a2 (ix3 c0 c1 c2) = a2 (ix2 c1 c2) :=
  broadcastInDim_apply _ _ _ (ix3 c0 c1 c2) (ix2 c1 c2) fun a => match a with
    | ⟨0, _⟩ => rfl | ⟨1, _⟩ => rfl

theorem st_v64_apply (a2 : FVec Ideal S128x4 .f32) (c0 : Fin 128) (c1 : Fin 128) (c2 : Fin 4) :
    st_v64 a2 (ix3 c0 c1 c2) = st_v62 a2 (ix3 c0 (0 : Fin 1) c2) :=
  broadcastInDim_apply _ _ _ (ix3 c0 c1 c2) (ix3 c0 (0 : Fin 1) c2) fun a => match a with
    | ⟨0, _⟩ => rfl | ⟨1, _⟩ => rfl | ⟨2, _⟩ => rfl

theorem st_v65_apply (a2 : FVec Ideal S128x4 .f32) (c0 : Fin 128) (c1 : Fin 128) (c2 : Fin 4) :
    st_v65 a2 (ix3 c0 c1 c2) = st_v63 a2 (ix3 (0 : Fin 1) c1 c2) :=
  broadcastInDim_apply _ _ _ (ix3 c0 c1 c2) (ix3 (0 : Fin 1) c1 c2) fun a => match a with
    | ⟨0, _⟩ => rfl | ⟨1, _⟩ => rfl | ⟨2, _⟩ => rfl

theorem st_v66_apply (a2 : FVec Ideal S128x4 .f32) (y : S128x128x4.Idx) :
    st_v66 a2 y = st_v64 a2 y * st_v65 a2 y := by
  unfold st_v66
  simp only [hostTanh_apply, hostRsqrt_apply, hostExpm1_apply, hostExp_apply, hostNegf_apply, hostDivf_apply, cmpfGt_apply, mulf_apply, addf_apply, subf_apply, select_apply]

theorem st_v67_apply (a2 : FVec Ideal S128x4 .f32) (c0 : Fin 128) (c1 : Fin 128) (c2 : Fin 4) (c3 : Fin 1) :
    st_v67 a2 (ix4 c0 c1 c2 c3) = st_v66 a2 (ix3 c0 c1 c2) :=
  broadcastInDim_apply _ _ _ (ix4 c0 c1 c2 c3) (ix3 c0 c1 c2) fun a => match a with
    | ⟨0, _⟩ => rfl | ⟨1, _⟩ => rfl | ⟨2, _⟩ => rfl

theorem st_v68_apply (a2 : FVec Ideal S128x4 .f32) (c0 : Fin 128) (c1 : Fin 128) (c2 : Fin 4) (c3 : Fin 24) :
    st_v68 a2 (ix4 c0 c1 c2 c3) = st_v67 a2 (ix4 c0 c1 c2 (0 : Fin 1)) :=
  broadcastInDim_apply _ _ _ (ix4 c0 c1 c2 c3) (ix4 c0 c1 c2 (0 : Fin 1)) fun a => match a with
    | ⟨0, _⟩ => rfl | ⟨1, _⟩ => rfl | ⟨2, _⟩ => rfl | ⟨3, _⟩ => rfl

theorem st_v69_apply (a0 : FVec Ideal S128x4x768 .f32) (a1 : FVec Ideal S128x4x768 .f32) (a2 : FVec Ideal S128x4 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (y : S128x128x4x24.Idx) :
    st_v69 a0 a1 a2 a3 a4 a5 a6 a7 a8 a9 a10 y = st_v61 a0 a1 a3 a4 a5 a6 a7 a8 a9 a10 y * st_v68 a2 y := by
  unfold st_v69
  simp only [hostTanh_apply, hostRsqrt_apply, hostExpm1_apply, hostExp_apply, hostNegf_apply, hostDivf_apply, cmpfGt_apply, mulf_apply, addf_apply, subf_apply, select_apply]

/-! ## The stages, composed

From the arguments upward: the pre-activation, its maximum over the positions, the three projections, the summed
array, one row's mean, deviation, variance and inverse deviation, the normalised row, the unit, the read-out. -/

/-- The pre-activation at (l, b, k). -/
theorem v7_eq (a0 : FVec Ideal S128x4x768 .f32) (a1 : FVec Ideal S128x4x768 .f32) (a3 : FVec Ideal S768x1536 .f32) (a4 : FVec Ideal S768 .f32) (l : Fin 128) (b : Fin 4) (k : Fin 768) :
    st_v7 a0 a1 a3 a4 (ix3 l b k) = Spec.sPre a0 a1 a3 a4 l b k := by
  simp only [st_v7_apply, st_v4_apply, st_v2_apply, st_v3_apply, st_v0_apply, st_v1_apply, st_v6_apply, st_v5_apply]
  rfl

/-- The maximum over the positions of the hyperbolic tangent of the pre-activation, at (b, k). -/
theorem v9_eq (a0 : FVec Ideal S128x4x768 .f32) (a1 : FVec Ideal S128x4x768 .f32) (a3 : FVec Ideal S768x1536 .f32) (a4 : FVec Ideal S768 .f32) (b : Fin 4) (k : Fin 768) :
    st_v9 a0 a1 a3 a4 (ix2 b k) = Spec.gMax a0 a1 a3 a4 b k := by
  simp only [st_v9_apply, st_v8_apply, v7_eq]
  rfl

/-- The projection of that maximum, with its bias, at (b, k). -/
theorem v18_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (b : Fin 4) (k : Fin 768) :
    st_v18 a0 a1 a3 a4 a5 a6 (ix2 b k) = Spec.pg a0 a1 a3 a4 a5 a6 b k := by
  simp only [st_v18_apply, st_v15_apply, st_v12_apply, st_v17_apply, st_v16_apply, v9_eq]
  rfl

/-- The two projections of the first activation, at (l, b, k). -/
theorem v13_eq (a0 : FVec Ideal S128x4x768 .f32) (a5 : FVec Ideal S768x2304 .f32) (l : Fin 128) (b : Fin 4) (k : Fin 768) :
    st_v13 a0 a5 (ix3 l b k) = Spec.p1 a0 a5 l b k := by
  simp only [st_v13_apply, st_v10_apply]
  rfl

theorem v14_eq (a0 : FVec Ideal S128x4x768 .f32) (a5 : FVec Ideal S768x2304 .f32) (l : Fin 128) (b : Fin 4) (k : Fin 768) :
    st_v14 a0 a5 (ix3 l b k) = Spec.p2 a0 a5 l b k := by
  simp only [st_v14_apply, st_v11_apply]
  rfl

/-- The summed array at (i, j, b, k). -/
theorem v26_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (k : Fin 768) :
    st_v26 a0 a1 a3 a4 a5 a6 (ix4 i j b k) = Spec.z a0 a1 a3 a4 a5 a6 i j b k := by
  simp only [st_v26_apply, st_v23_apply, st_v21_apply, st_v19_apply, st_v22_apply, st_v20_apply, st_v25_apply, st_v24_apply, v13_eq, v14_eq, v18_eq]
  rfl

/-- The mean of the row (i, j, b, ·), held at the row's one kept entry. -/
theorem v30_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (u : Fin 1) :
    st_v30 a0 a1 a3 a4 a5 a6 (ix4 i j b u) = Spec.muR (fun k => Spec.z a0 a1 a3 a4 a5 a6 i j b k) := by
  simp only [st_v30_apply, st_v28_apply, st_v27_apply, v26_eq, Ideal.ofBits_zero_f32, zero_add]
  rfl

/-- The deviation from the mean at (i, j, b, k), as the program computes it for the variance … -/
theorem v32_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (k : Fin 768) :
    st_v32 a0 a1 a3 a4 a5 a6 (ix4 i j b k) = Spec.dvR (fun k => Spec.z a0 a1 a3 a4 a5 a6 i j b k) k := by
  simp only [st_v32_apply, st_v31_apply, v26_eq, v30_eq]
  rfl

/-- … and again for the normalisation. -/
theorem v39_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (k : Fin 768) :
    st_v39 a0 a1 a3 a4 a5 a6 (ix4 i j b k) = Spec.dvR (fun k => Spec.z a0 a1 a3 a4 a5 a6 i j b k) k := by
  simp only [st_v39_apply, st_v38_apply, v26_eq, v30_eq]
  rfl

/-- The variance of the row. -/
theorem v37_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (u : Fin 1) :
    st_v37 a0 a1 a3 a4 a5 a6 (ix4 i j b u) = Spec.varR (fun k => Spec.z a0 a1 a3 a4 a5 a6 i j b k) := by
  simp only [st_v37_apply, st_v35_apply, st_v34_apply, st_v33_apply, v32_eq, Ideal.ofBits_zero_f32, zero_add]
  rfl

/-- The inverse deviation of the row. -/
theorem v42_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (i j : Fin 128) (b : Fin 4) (u : Fin 1) :
    st_v42 a0 a1 a3 a4 a5 a6 (ix4 i j b u) = Spec.invR (fun k => Spec.z a0 a1 a3 a4 a5 a6 i j b k) := by
  simp only [st_v42_apply, st_v41_apply, v37_eq]
  rfl

/-- The normalised, scaled and shifted row at k. -/
theorem v50_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (i j : Fin 128) (b : Fin 4) (k : Fin 768) :
    st_v50 a0 a1 a3 a4 a5 a6 a7 a8 (ix4 i j b k) = Spec.nrmR (fun k => Spec.z a0 a1 a3 a4 a5 a6 i j b k) (fun k => a7 (ix1 k)) (fun k => a8 (ix1 k)) k := by
  simp only [st_v50_apply, st_v47_apply, st_v44_apply, st_v43_apply, st_v46_apply, st_v45_apply, st_v49_apply, st_v48_apply, v39_eq, v42_eq]
  rfl

/-- The exponential-linear unit as the program spells it: a selection on "x is positive" between x and one times the
    exponential, less one, of a selection on the same condition between zero and x. -/
theorem elu_eq (x : EReal) :
    Scalar.select (Ideal.cmp .ogt x 0) x (1 * (Ideal.exp (Scalar.select (Ideal.cmp .ogt x 0) 0 x) - 1)) = Spec.elu x := by
  unfold Spec.elu
  rw [one_mul]
  by_cases hc : Ideal.cmp .ogt x 0 = 1#1
  · rw [hc, select_one, select_one]
  · rw [eq_zero_of_ne_one hc, select_zero, select_zero, select_zero]

/-- The unit of the normalised row at k. -/
theorem v51_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (i j : Fin 128) (b : Fin 4) (k : Fin 768) :
    st_v51 a0 a1 a3 a4 a5 a6 a7 a8 (ix4 i j b k) = Spec.elu (Spec.nrmR (fun k => Spec.z a0 a1 a3 a4 a5 a6 i j b k) (fun k => a7 (ix1 k)) (fun k => a8 (ix1 k)) k) := by
  simp only [st_v51_apply, st_call0_v1_apply, st_call0_v7_apply, st_call0_v5_apply, st_call0_v4_apply, st_call0_v3_apply, v50_eq, Ideal.ofBits_zero_f32, one_f32]
  exact elu_eq _

/-- The read-out of the row at r. -/
theorem v55_eq (a0 : FVec Ideal S128x4x768 .f32) (a1 : FVec Ideal S128x4x768 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) (i j : Fin 128) (b : Fin 4) (r : Fin 24) :
    st_v55 a0 a1 a3 a4 a5 a6 a7 a8 a9 a10 (ix4 i j b r)
      = Spec.projR (fun k => Spec.z a0 a1 a3 a4 a5 a6 i j b k) (fun k => a7 (ix1 k)) (fun k => a8 (ix1 k)) (fun r k => a9 (ix2 r k)) (fun r => a10 (ix1 r)) r := by
  simp only [st_v55_apply, st_v52_apply, st_v54_apply, st_v53_apply, v51_eq]
  rfl

/-- The product of the two masks at (i, j, b), spread over the read-out axis. -/
theorem v68_eq (a2 : FVec Ideal S128x4 .f32) (i j : Fin 128) (b : Fin 4) (r : Fin 24) :
    st_v68 a2 (ix4 i j b r) = a2 (ix2 i b) * a2 (ix2 j b) := by
  simp only [st_v68_apply, st_v67_apply, st_v66_apply, st_v64_apply, st_v62_apply, st_v65_apply, st_v63_apply]

/-- The program's result is the target function of its eleven argument arrays. -/
theorem res_eq_G (a0 : FVec Ideal S128x4x768 .f32) (a1 : FVec Ideal S128x4x768 .f32) (a2 : FVec Ideal S128x4 .f32) (a3 : FVec Ideal S768x1536 .f32) (a4 : FVec Ideal S768 .f32) (a5 : FVec Ideal S768x2304 .f32) (a6 : FVec Ideal S768 .f32) (a7 : FVec Ideal S768 .f32) (a8 : FVec Ideal S768 .f32) (a9 : FVec Ideal S24x768 .f32) (a10 : FVec Ideal S24 .f32) :
    res (F := Ideal) a0 a1 a2 a3 a4 a5 a6 a7 a8 a9 a10 = Cert.Spec.G a0 a1 a2 a3 a4 a5 a6 a7 a8 a9 a10 := by
  funext y
  obtain ⟨i, j, b, r, rfl⟩ : ∃ (i j : Fin 128) (b : Fin 4) (r : Fin 24), y = ix4 i j b r := ⟨y 0, y 1, y 2, y 3, eq_ix4 y⟩
  rw [Spec.G_apply]
  unfold res
  simp only [st_v69_apply, st_v61_apply, st_v59_apply, st_v57_apply, st_v56_apply, v55_eq, v68_eq, one_f32]
  rfl

end Cert.ReferenceIdeal.RefRead

end
-- ==== Proof.lean ====
/-
  The certificate: the word-level kernel and its idealization each run to the end, fault nowhere and leave their
  arguments unchanged; so does the reference; the idealization rewrote nothing; and at the exact extended-real reading
  the idealized kernel and the reference end with the same result array.

  The kernel program is host operations, two pipelined regions and a final transpose. Its run is composed segment by
  segment (the modules under K/ for the word-level program and KI/ for the idealized one, the same text at two
  namespaces): each region's body is run once on symbolic blocks; the proof data say what every window's buffer holds
  after every grid point; the second region's mask array is shared by two windows and split between them. The reference
  is a straight host program whose run is the composition of its operations. Both results are then read index by index
  as one function of the eleven argument arrays (Spec.lean).
-/
import proofs.«131939_j48103633715562_2_alg».proof.Defs
import proofs.«131939_j48103633715562_2_alg».proof.Proof.Gen.Kernel
import proofs.«131939_j48103633715562_2_alg».proof.Proof.Gen.KernelIdeal
import proofs.«131939_j48103633715562_2_alg».proof.Proof.Gen.ReferenceIdeal
import proofs.«131939_j48103633715562_2_alg».proof.Proof.Gen.Pre_finite_inputs
import proofs.«131939_j48103633715562_2_alg».proof.Proof.K.Frame
import proofs.«131939_j48103633715562_2_alg».proof.Proof.KI.Frame
import proofs.«131939_j48103633715562_2_alg».proof.Proof.RefRun
import proofs.«131939_j48103633715562_2_alg».proof.Proof.KI.Value
import proofs.«131939_j48103633715562_2_alg».proof.Proof.RefRead
import proofs.«131939_j48103633715562_2_alg».proof.Proof.Spec
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

/-- The reference's frame is its run with the result dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.RefRun.run (F := Ideal) m ρ)

/-- At the exact reading both programs end with the specification's function of the (agreeing) argument arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · exact (θ_run Cert.KernelIdeal.defs _ _).mono
      (fun r h c => ⟨(h c).1.trans (Cert.KernelIdeal.HandValue.kernel_value m c), (h c).2⟩)
      (Cert.KernelIdeal.Hand.run_res (F := Ideal) m ρ)
  · refine (θ_run Cert.ReferenceIdeal.defs _ _).mono (fun r h c => ⟨(h c).1.trans ?_, (h c).2⟩)
      (Cert.ReferenceIdeal.RefRun.run (F := Ideal) m' ρ')
    obtain ⟨h0, h1, h2, h3, h4, h5, h6, h7, h8, h9, h10⟩ := hagree c
    rw [h0, h1, h2, h3, h4, h5, h6, h7, h8, h9, h10]
    exact Cert.ReferenceIdeal.RefRead.res_eq_G _ _ _ _ _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
